-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S12288x4096 : Shape := ⟨2, ![12288, 4096]⟩
abbrev S12288 : Shape := ⟨1, ![12288]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S12288x4096 : S_.BroadcastsInDim S12288x4096 (![] : Fin 0 → Fin S12288x4096.rank)
  reducesTo_S12288x4096_S_d0_1 : S12288x4096.ReducesTo [0, 1] S_
  bcast_S_S12288 : S_.BroadcastsInDim S12288 (![] : Fin 0 → Fin S12288.rank)
  reducesTo_S12288_S_d0 : S12288.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_arg6 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S12288x4096 .f32) (main_arg2 : FVec F S12288 .f32) (main_arg3 : FVec F S4096x4096 .f32) (main_arg4 : FVec F S4096 .f32) (main_arg5 : FVec F S4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S12288x4096 .f32 := Host.absf main_arg1
  let main_cst_0 : FVec F S_ .f32 := constant S_ .f32 0x7F800000#32
  let main_v5 : FVec F S12288x4096 .f32 := broadcastInDim S12288x4096 ![] bcast_S_S12288x4096 main_cst_0
  let main_v6 : IVec S12288x4096 1 := cmpf .olt main_v4 main_v5
  let main_c_1 : IVec S_ 1 := constantI S_ 1 1#1
  let main_v7 : IVec S_ 1 := (fun x v => Host.reduce IntOp.andi x v reducesTo_S12288x4096_S_d0_1 h_S_) main_v6 main_c_1
  let main_v8 : IVec S_ 1 := andi main_v3 main_v7
  let main_v9 : FVec F S12288 .f32 := Host.absf main_arg2
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S8192x4096 : Shape := ⟨2, ![8192, 4096]⟩
abbrev S12288x4096 : Shape := ⟨2, ![12288, 4096]⟩
abbrev S12288 : Shape := ⟨1, ![12288]⟩
abbrev S4096x4096 : Shape := ⟨2, ![4096, 4096]⟩
abbrev S4096 : Shape := ⟨1, ![4096]⟩
abbrev S1x4096 : Shape := ⟨2, ![1, 4096]⟩
abbrev S512x256 : Shape := ⟨2, ![512, 256]⟩
abbrev S4096x256 : Shape := ⟨2, ![4096, 256]⟩
abbrev S512x4096 : Shape := ⟨2, ![512, 4096]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩

abbrev nBuf : Space → Nat
  | .hbm => 17
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S12288x4096, .f32⟩
  | .hbm, ⟨2, _⟩ => ⟨S12288, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S4096x4096, .bf16⟩
  | .hbm, ⟨14, _⟩ => ⟨S4096x4096, .bf16⟩
  | .hbm, ⟨15, _⟩ => ⟨S8192x4096, .bf16⟩
  | .hbm, ⟨16, _⟩ => ⟨S8192x4096, .f32⟩
  | .local _ .vmem, ⟨0, _⟩ => ⟨S512x256, .f32⟩
  | .local _ .vmem, ⟨1, _⟩ => ⟨S512x256, .f32⟩
  | .local _ .vmem, ⟨2, _⟩ => ⟨S4096x256, .bf16⟩
  | .local _ .vmem, ⟨3, _⟩ => ⟨S4096x256, .bf16⟩
  | .local _ .vmem, ⟨4, _⟩ => ⟨S1x4096, .f32⟩
  | .local _ .vmem, ⟨5, _⟩ => ⟨S512x4096, .bf16⟩
  | .local _ .vmem, ⟨6, _⟩ => ⟨S512x4096, .bf16⟩
  | .local _ .vmem, ⟨7, _⟩ => ⟨S512x4096, .f32⟩
  | .local _ .vmem, ⟨8, _⟩ => ⟨S256x256, .bf16⟩
  | .local _ .vmem, ⟨9, _⟩ => ⟨S256x256, .bf16⟩
  | .local _ .vmem, ⟨10, _⟩ => ⟨S4096x256, .bf16⟩
  | .local _ .vmem, ⟨11, _⟩ => ⟨S4096x256, .bf16⟩
  | .local _ .vmem, ⟨12, _⟩ => ⟨S1x4096, .f32⟩
  | .local _ .vmem, ⟨13, _⟩ => ⟨S1x4096, .f32⟩
  | .local _ .vmem, ⟨14, _⟩ => ⟨S1x4096, .f32⟩
  | .local _ .vmem, ⟨15, _⟩ => ⟨S256x4096, .f32⟩
  | .local _ .vmem, ⟨16, _⟩ => ⟨S256x4096, .f32⟩
  | .local _ .vmem, ⟨17, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![32, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S12288x4096_S4096x4096_8192_0 : S12288x4096.Slices ![8192, 0] S4096x4096
  slices_S12288_S4096_8192 : S12288.Slices ![8192] S4096
  shapeCasts_S4096_S1x4096 : S4096.ShapeCasts S1x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x256_S512x256_0_0 : ∀ a, (![0, 0] : Fin 2 → Nat) a + S512x256.size a ≤ S512x256.size a
  h_S512x256 : 0 < S512x256.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  packedbf16_S512x4096_S512x4096_0_0 : (Rect.unit (s := S512x4096) ![0, 0] S512x4096.size inb_S512x4096_S512x4096_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  dot_S512x256_S4096x256_S512x4096_1_1_0_0_n_n_wf : DotDims.WF S512x256 S4096x256 S512x4096 [1] [1] [0] [0] [] []
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x4096.size a
  hwx0_0 : ∀ i : grid0.Coords, EltTy.bits .f32 = 32 ∨ (Rect.block (s := S8192x4096) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .bf16 = 32 ∨ (Rect.block (s := S4096x4096) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .bf16 = 32 ∨ (Rect.block (s := S8192x4096) S512x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S8192x4096.size a
  hwx1_0 : ∀ i : grid1.Coords, EltTy.bits .bf16 = 32 ∨ (Rect.block (s := S8192x4096) S256x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x4096.size a
  hwx1_1 : ∀ i : grid1.Coords, EltTy.bits .bf16 = 32 ∨ (Rect.block (s := S4096x4096) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x4096.size a ≤ S8192x4096.size a
  hwx1_5 : ∀ i : grid1.Coords, EltTy.bits .f32 = 32 ∨ (Rect.block (s := S8192x4096) S256x4096.size (cc1_transform_5 i) (hinb1_5 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v8) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S256x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S12288x4096 : Shape := ⟨2, ![12288, 4096]⟩
abbrev S12288 : Shape := ⟨1, ![12288]⟩
abbrev S4096x4096 : Shape := ⟨2, ![4096, 4096]⟩
abbrev S4096 : Shape := ⟨1, ![4096]⟩
abbrev S4096x12288 : Shape := ⟨2, ![4096, 12288]⟩
abbrev S8192x12288 : Shape := ⟨2, ![8192, 12288]⟩
abbrev S1x12288 : Shape := ⟨2, ![1, 12288]⟩
abbrev S8192x1x3x8x512 : Shape := ⟨5, ![8192, 1, 3, 8, 512]⟩
abbrev S3x8192x8x1x512 : Shape := ⟨5, ![3, 8192, 8, 1, 512]⟩
abbrev S1x8192x8x1x512 : Shape := ⟨5, ![1, 8192, 8, 1, 512]⟩
abbrev S8192x8x1x512 : Shape := ⟨4, ![8192, 8, 1, 512]⟩
abbrev S8192x8x1x1 : Shape := ⟨4, ![8192, 8, 1, 1]⟩
abbrev S_ : Shape := ⟨0, ![]⟩
abbrev S8192x8x1 : Shape := ⟨3, ![8192, 8, 1]⟩
abbrev S8192x1x8x512 : Shape := ⟨4, ![8192, 1, 8, 512]⟩
abbrev S1x4096 : Shape := ⟨2, ![1, 4096]⟩
abbrev S8192 : Shape := ⟨1, ![8192]⟩
abbrev S8192x1 : Shape := ⟨2, ![8192, 1]⟩

abbrev nBuf : Space → Nat
  | .hbm => 88
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S12288x4096, .f32⟩
  | .hbm, ⟨2, _⟩ => ⟨S12288, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x12288, .f32⟩
  | .hbm, ⟨8, _⟩ => ⟨S8192x12288, .f32⟩
  | .hbm, ⟨9, _⟩ => ⟨S1x12288, .f32⟩
  | .hbm, ⟨10, _⟩ => ⟨S8192x12288, .f32⟩
  | .hbm, ⟨11, _⟩ => ⟨S8192x12288, .f32⟩
  | .hbm, ⟨12, _⟩ => ⟨S8192x1x3x8x512, .f32⟩
  | .hbm, ⟨13, _⟩ => ⟨S3x8192x8x1x512, .f32⟩
  | .hbm, ⟨14, _⟩ => ⟨S1x8192x8x1x512, .f32⟩
  | .hbm, ⟨15, _⟩ => ⟨S8192x8x1x512, .f32⟩
  | .hbm, ⟨16, _⟩ => ⟨S1x8192x8x1x512, .f32⟩
  | .hbm, ⟨17, _⟩ => ⟨S8192x8x1x512, .f32⟩
  | .hbm, ⟨18, _⟩ => ⟨S1x8192x8x1x512, .f32⟩
  | .hbm, ⟨19, _⟩ => ⟨S8192x8x1x512, .f32⟩
  | .hbm, ⟨20, _⟩ => ⟨S8192x8x1x1, .f32⟩
  | .hbm, ⟨21, _⟩ => ⟨S_, .f32⟩
  | .hbm, ⟨22, _⟩ => ⟨S8192x8x1x1, .f32⟩
  | .hbm, ⟨23, _⟩ => ⟨S8192x8x1x1, .f32⟩
  | .hbm, ⟨24, _⟩ => ⟨S_, .f32⟩
  | .hbm, ⟨25, _⟩ => ⟨S8192x8x1, .f32⟩
  | .hbm, ⟨26, _⟩ => ⟨S_, .f32⟩
  | .hbm, ⟨27, _⟩ => ⟨S8192x8x1, .f32⟩
  | .hbm, ⟨28, _⟩ => ⟨S8192x8x1, .f32⟩
  | .hbm, ⟨29, _⟩ => ⟨S8192x8x1x1, .f32⟩
  | .hbm, ⟨30, _⟩ => ⟨S8192x8x1x1, .f32⟩
  | .hbm, ⟨31, _⟩ => ⟨S8192x8x1x1, .f32⟩
  | .hbm, ⟨32, _⟩ => ⟨S_, .f32⟩
  | .hbm, ⟨33, _⟩ => ⟨S8192x8x1, .f32⟩
  | .hbm, ⟨34, _⟩ => ⟨S8192x8x1x1, .f32⟩
  | .hbm, ⟨35, _⟩ => ⟨S8192x8x1x1, .f32⟩
  | .hbm, ⟨36, _⟩ => ⟨S8192x8x1x512, .f32⟩
  | .hbm, ⟨37, _⟩ => ⟨S8192x1x8x512, .f32⟩
  | .hbm, ⟨38, _⟩ => ⟨S8192x4096, .f32⟩
  | .hbm, ⟨39, _⟩ => ⟨S4096x4096, .f32⟩
  | .hbm, ⟨40, _⟩ => ⟨S8192x4096, .f32⟩
  | .hbm, ⟨41, _⟩ => ⟨S1x4096, .f32⟩
  | .hbm, ⟨42, _⟩ => ⟨S8192x4096, .f32⟩
  | .hbm, ⟨43, _⟩ => ⟨S8192x4096, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .i32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x4096, .f32⟩
  | .hbm, ⟨58, _⟩ => ⟨S8192x4096, .f32⟩
  | .hbm, ⟨59, _⟩ => ⟨S8192x4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x4096, .f32⟩
  | .hbm, ⟨75, _⟩ => ⟨S8192x4096, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S8192x1, .f32⟩
  | .hbm, ⟨80, _⟩ => ⟨S8192x4096, .f32⟩
  | .hbm, ⟨81, _⟩ => ⟨S8192x4096, .f32⟩
  | .hbm, ⟨82, _⟩ => ⟨S1x4096, .f32⟩
  | .hbm, ⟨83, _⟩ => ⟨S8192x4096, .f32⟩
  | .hbm, ⟨84, _⟩ => ⟨S8192x4096, .f32⟩
  | .hbm, ⟨85, _⟩ => ⟨S1x4096, .f32⟩
  | .hbm, ⟨86, _⟩ => ⟨S8192x4096, .f32⟩
  | .hbm, ⟨87, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_c : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_v12 : Ref sig .tc := ⟨.hbm, 67, rfl⟩
abbrev main_call0_cst_3 : Ref sig .tc := ⟨.hbm, 68, rfl⟩
abbrev main_call0_v13 : Ref sig .tc := ⟨.hbm, 69, rfl⟩
abbrev main_call0_cst_4 : Ref sig .tc := ⟨.hbm, 70, rfl⟩
abbrev main_call0_call0_v0 : Ref sig .tc := ⟨.hbm, 71, rfl⟩
abbrev main_call0_call0_v1 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_5 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩

abbrev nD : Nat := 1
abbrev τ : Topo := Topo.v7x

variable {F : FTy → Type} [FloatOps F]

class Facts₀ : Prop where
  transposes_S12288x4096_S4096x12288_1_0 : S12288x4096.Transposes [1, 0] S4096x12288
  bcast_S12288_S1x12288_1 : S12288.BroadcastsInDim S1x12288 (![1] : Fin 1 → Fin S1x12288.rank)
  bcast_S1x12288_S8192x12288_0_1 : S1x12288.BroadcastsInDim S8192x12288 (![0, 1] : Fin 2 → Fin S8192x12288.rank)
  shapeCasts_S8192x12288_S8192x1x3x8x512 : S8192x12288.ShapeCasts S8192x1x3x8x512
  transposes_S8192x1x3x8x512_S3x8192x8x1x512_2_0_3_1_4 : S8192x1x3x8x512.Transposes [2, 0, 3, 1, 4] S3x8192x8x1x512
  slices_S3x8192x8x1x512_S1x8192x8x1x512_0_0_0_0_0 : S3x8192x8x1x512.Slices ![0, 0, 0, 0, 0] S1x8192x8x1x512
  shapeCasts_S1x8192x8x1x512_S8192x8x1x512 : S1x8192x8x1x512.ShapeCasts S8192x8x1x512
  slices_S3x8192x8x1x512_S1x8192x8x1x512_1_0_0_0_0 : S3x8192x8x1x512.Slices ![1, 0, 0, 0, 0] S1x8192x8x1x512
  slices_S3x8192x8x1x512_S1x8192x8x1x512_2_0_0_0_0 : S3x8192x8x1x512.Slices ![2, 0, 0, 0, 0] S1x8192x8x1x512
  bcast_S_S8192x8x1x1 : S_.BroadcastsInDim S8192x8x1x1 (![] : Fin 0 → Fin S8192x8x1x1.rank)
  reducesTo_S8192x8x1x1_S8192x8x1_d3 : S8192x8x1x1.ReducesTo [3] S8192x8x1
  h_S_ : 0 < S_.numel
  bcast_S_S8192x8x1 : S_.BroadcastsInDim S8192x8x1 (![] : Fin 0 → Fin S8192x8x1.rank)
  bcast_S8192x8x1_S8192x8x1x1_0_1_2 : S8192x8x1.BroadcastsInDim S8192x8x1x1 (![0, 1, 2] : Fin 3 → Fin S8192x8x1x1.rank)
  transposes_S8192x8x1x512_S8192x1x8x512_0_2_1_3 : S8192x8x1x512.Transposes [0, 2, 1, 3] S8192x1x8x512
  shapeCasts_S8192x1x8x512_S8192x4096 : S8192x1x8x512.ShapeCasts S8192x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  dot_S8192x4096_S4096x12288_S8192x12288_1_0_0_1_n_n_wf : DotDims.WF S8192x4096 S4096x12288 S8192x12288 [1] [0] [0] [1] [] []
  dot_S8192x8x1x512_S8192x8x1x512_S8192x8x1x1_3_3_2_2_01_01_wf : DotDims.WF S8192x8x1x512 S8192x8x1x512 S8192x8x1x1 [3] [3] [2] [2] [0, 1] [0, 1]
  dot_S8192x8x1x1_S8192x8x1x512_S8192x8x1x512_3_2_2_3_01_01_wf : DotDims.WF S8192x8x1x1 S8192x8x1x512 S8192x8x1x512 [3] [2] [2] [3] [0, 1] [0, 1]
  dot_S8192x4096_S4096x4096_S8192x4096_1_0_0_1_n_n_wf : DotDims.WF S8192x4096 S4096x4096 S8192x4096 [1] [0] [0] [1] [] []

variable [Facts₀]

def dot_S8192x4096_S4096x12288_S8192x12288_1_0_0_1_n_n : DotDims S8192x4096 S4096x12288 S8192x12288 where
  lhsContracting := [1]
  rhsContracting := [0]
  lhsNonContracting := [0]
  rhsNonContracting := [1]
  lhsBatch := []
  rhsBatch := []
  wf := dot_S8192x4096_S4096x12288_S8192x12288_1_0_0_1_n_n_wf
def dot_S8192x8x1x512_S8192x8x1x512_S8192x8x1x1_3_3_2_2_01_01 : DotDims S8192x8x1x512 S8192x8x1x512 S8192x8x1x1 where
  lhsContracting := [3]
  rhsContracting := [3]
  lhsNonContracting := [2]
  rhsNonContracting := [2]
  lhsBatch := [0, 1]
  rhsBatch := [0, 1]
  wf := dot_S8192x8x1x512_S8192x8x1x512_S8192x8x1x1_3_3_2_2_01_01_wf
def dot_S8192x8x1x1_S8192x8x1x512_S8192x8x1x512_3_2_2_3_01_01 : DotDims S8192x8x1x1 S8192x8x1x512 S8192x8x1x512 where
  lhsContracting := [3]
  rhsContracting := [2]
  lhsNonContracting := [2]
  rhsNonContracting := [3]
  lhsBatch := [0, 1]
  rhsBatch := [0, 1]
  wf := dot_S8192x8x1x1_S8192x8x1x512_S8192x8x1x512_3_2_2_3_01_01_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.K.Blocks.lean ====
/-
  Both kernels accumulate a matrix product over the sixteen column blocks of the contraction axis in a scratch
  buffer: the first block of a row tile overwrites the scratch with zero plus its partial product, each later block
  adds its partial product, and the last block also writes the output tile from the finished sum (plus the bias;
  for the second kernel, normalised row by row). This module names those contents as pure functions of the
  arrays a region finds, and states the per-region proof data over them: what the scratch holds after point n
  (`accK`), what the output tile would be written from it (`finK`), the region invariant that carries the scratch
  between points (`PhiSK`), and the proof data (`datK`). Generic in the float instance.
-/
import proofs.«170811_j8761733284269_2_alg».proof.Proof.Gen.Kernel.Launch
import proofs.«170811_j8761733284269_2_alg».proof.Proof.Gen.Kernel.Skeleton
import proofs.«170811_j8761733284269_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: V = x · Wvᵀ + bv -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator, a whole scoped buffer. -/
abbrev scM0 : Memref sig .tc .vmem S512x4096 .f32 := Memref.whole cc0_scratch0

/-- What the scratch holds after the body at position `n`: at the first column block of a row tile the zero splat plus
    the block's partial product, afterwards the previous contents plus it. -/
def acc0 (c : Dev nD) : (n : ℕ) → n < cfg0.N → Vec F S512x4096 .f32
  | 0, h => k0_pay2 (iblk0 V c 0 ⟨0, h⟩) (iblk0 V c 1 ⟨0, h⟩) k0_pay1
  | n + 1, h =>
    if (n + 1) % 16 = 0 then k0_pay2 (iblk0 V c 0 ⟨n + 1, h⟩) (iblk0 V c 1 ⟨n + 1, h⟩) k0_pay1
    else k0_pay2 (iblk0 V c 0 ⟨n + 1, h⟩) (iblk0 V c 1 ⟨n + 1, h⟩) (acc0 c n (Nat.lt_of_succ_lt h))

/-- The output tile as the last column block writes it: the accumulated sum plus the bias row, in the output format. -/
def fin0 (c : Dev nD) (t : Fin cfg0.N) : Vec F S512x4096 .bf16 :=
  k0_pay3 (acc0 V c t.val t.isLt) (iblk0 V c 2 t)

/-- The region invariant before position `n`: at the start the class's (every scoped buffer at anything); afterwards the
    scratch at what the point before left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => fin0 V c t
  Φ t := PhiS0 V c t.val (Nat.le_of_lt_succ t.isLt)
  q _ := fullShare
  owed _ := 0

/-! ## Region 1: Y = V · Wprojᵀ + bproj, normalised row by row -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S256x4096 .f32 := Memref.whole cc1_scratch0

def acc1 (c : Dev nD) : (n : ℕ) → n < cfg1.N → Vec F S256x4096 .f32
  | 0, h => k1_pay2 (iblk1 V c 0 ⟨0, h⟩) (iblk1 V c 1 ⟨0, h⟩) k1_pay1
  | n + 1, h =>
    if (n + 1) % 16 = 0 then k1_pay2 (iblk1 V c 0 ⟨n + 1, h⟩) (iblk1 V c 1 ⟨n + 1, h⟩) k1_pay1
    else k1_pay2 (iblk1 V c 0 ⟨n + 1, h⟩) (iblk1 V c 1 ⟨n + 1, h⟩) (acc1 c n (Nat.lt_of_succ_lt h))

def fin1 (c : Dev nD) (t : Fin cfg1.N) : Vec F S256x4096 .f32 :=
  k1_pay3 (acc1 V c t.val t.isLt) (iblk1 V c 2 t) (iblk1 V c 3 t) (iblk1 V c 4 t)

def PhiS1 (c : Dev nD) : (n : ℕ) → n ≤ cfg1.N → sProp 𝕄
  | 0, _ => Pipeline.ΦA spec1 c
  | n + 1, hn => iprop((owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => fin1 V c t
  Φ t := PhiS1 V c t.val (Nat.le_of_lt_succ t.isLt)
  q _ := fullShare
  owed _ := 0

/-! ## Projections of the proof data (by `dsimp`, never by unfolding the arrays) -/

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = fin0 V c t := by dsimp only [dat0]
theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = fin1 V c t := by dsimp only [dat1]

/-- The accumulator's recursion, as two rewriting facts: a reset at the multiples of 16, a step elsewhere. -/
theorem acc0_reset (c : Dev nD) (n : ℕ) (h : n < cfg0.N) (hn : n % 16 = 0) :
    acc0 V c n h = k0_pay2 (iblk0 V c 0 ⟨n, h⟩) (iblk0 V c 1 ⟨n, h⟩) k0_pay1 := by
  cases n with
  | zero => rfl
  | succ n => exact if_pos hn
theorem acc0_step (c : Dev nD) (n : ℕ) (h : n + 1 < cfg0.N) (hn : ¬(n + 1) % 16 = 0) :
    acc0 V c (n + 1) h = k0_pay2 (iblk0 V c 0 ⟨n + 1, h⟩) (iblk0 V c 1 ⟨n + 1, h⟩) (acc0 V c n (Nat.lt_of_succ_lt h)) :=
  if_neg hn
theorem acc1_reset (c : Dev nD) (n : ℕ) (h : n < cfg1.N) (hn : n % 16 = 0) :
    acc1 V c n h = k1_pay2 (iblk1 V c 0 ⟨n, h⟩) (iblk1 V c 1 ⟨n, h⟩) k1_pay1 := by
  cases n with
  | zero => rfl
  | succ n => exact if_pos hn
theorem acc1_step (c : Dev nD) (n : ℕ) (h : n + 1 < cfg1.N) (hn : ¬(n + 1) % 16 = 0) :
    acc1 V c (n + 1) h = k1_pay2 (iblk1 V c 0 ⟨n + 1, h⟩) (iblk1 V c 1 ⟨n + 1, h⟩) (acc1 V c n (Nat.lt_of_succ_lt h)) :=
  if_neg hn

end Regions

end Cert.Kernel.Gen

end
-- ==== Proof.K.Runs0.lean ====
/-
  What the body runs of region 0 share: each input window's staging buffer holds its block at every point; the
  body's two branch conditions on the column-block coordinate in closed form over the grid (the first column block
  of a row tile resets the accumulator, the last one writes the output tile); where the output window is idle; the
  class invariant with the accumulator scratch split off the other scoped buffers.
-/
import proofs.«170811_j8761733284269_2_alg».proof.Proof.K.Blocks

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Input window 0's current staging buffer holds its block at every point, fetched there or not: unfetched, the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, fetched there or not: unfetched, the
    block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

/-- Input window 2's current staging buffer holds its block at every point, fetched there or not: unfetched, the
    block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

end

/-- The first branch's condition, from the grid coordinates: the column block is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The second branch's condition: the column block is the last. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last column block the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- One staging buffer of the output window and the scratch, as views through which contents are stated. -/
abbrev VO0 : View sig .tc .vmem S512x4096 .bf16 := (Memref.whole cc0_stg3_0 : Memref sig .tc .vmem S512x4096 .bf16).view
abbrev VS0 : View sig .tc .vmem S512x4096 .f32 := (scM0).view
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x4096 .bf16 := win0_3.stage (cfg0.slots t 3)
abbrev hs0_3 (t : Fin cfg0.N) : (ms0_3 t).IsWhole := hstage0_3 ((cfg0.slots t 3).cast nbuf0_3)

/-- The class invariant with the accumulator scratch owned at some contents beside the other scoped buffers. -/
theorem PhiA0_eq (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0, owns_whole]
  rfl

end Cert.Kernel.Gen

end
-- ==== Proof.K.Run0A.lean ====
/-
  The body of region 0 at the first column block of a row tile (the accumulator is reset, the output tile is not written): on whole staging buffers, the inputs at their
  contents, the body runs to its end, hands every input back as it was, and leaves the accumulator scratch holding
  the stores it made, recorded as a list of pieces that the run itself determines.
-/
import proofs.«170811_j8761733284269_2_alg».proof.Proof.K.Runs0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : cond0_0 i) (hc1 : ¬cond0_1 i)
    (x0 : Vec F S512x256 .f32) (x1 : Vec F S4096x256 .bf16) (x2 : Vec F S1x4096 .f32) :
    { LS : List (View.Piece (Elt F) S512x4096 .f32) //
      ∀ (xi : Vec F S512x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__v_kernel i arg2 harg2 arg3 harg3 arg4 harg4 arg5 harg5 arg6 harg6) K } := by
  refine ⟨?_, fun xi E K => ?run⟩
  case run =>
    simp only [cc0__v_kernel_eq_skeleton]; unfold cc0__v_kernel_skel
    unfold owns
    iintro ⟨⟨%f0, %hf0, H0⟩, ⟨%f1, %hf1, H1⟩, ⟨%f2, %hf2, H2⟩, ⟨%fO, %hfO, HO⟩, ⟨%dS, %fS, -, HS⟩, Hk⟩
    obtain rfl := harg2.eq_unread hf0; obtain rfl := harg3.eq_unread hf1; obtain rfl := harg4.eq_unread hf2; obtain rfl := harg5.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

end Cert.Kernel.Gen

end
-- ==== Proof.K.Run0B.lean ====
/-
  The body of region 0 at a middle column block (the accumulator is added to, the output tile is not written): on whole staging buffers, the inputs at their
  contents, the body runs to its end, hands every input back as it was, and leaves the accumulator scratch holding
  the stores it made, recorded as a list of pieces that the run itself determines.
-/
import proofs.«170811_j8761733284269_2_alg».proof.Proof.K.Run0A

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : ¬cond0_0 i) (hc1 : ¬cond0_1 i)
    (x0 : Vec F S512x256 .f32) (x1 : Vec F S4096x256 .bf16) (x2 : Vec F S1x4096 .f32) (xs : Vec F S512x4096 .f32) :
    { LS : List (View.Piece (Elt F) S512x4096 .f32) //
      ∀ (xi : Vec F S512x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__v_kernel i arg2 harg2 arg3 harg3 arg4 harg4 arg5 harg5 arg6 harg6) K } := by
  refine ⟨?_, fun xi E K => ?run⟩
  case run =>
    simp only [cc0__v_kernel_eq_skeleton]; unfold cc0__v_kernel_skel
    unfold owns
    iintro ⟨⟨%f0, %hf0, H0⟩, ⟨%f1, %hf1, H1⟩, ⟨%f2, %hf2, H2⟩, ⟨%fO, %hfO, HO⟩, ⟨%fS, %hfS, HS⟩, Hk⟩
    obtain rfl := harg2.eq_unread hf0; obtain rfl := harg3.eq_unread hf1; obtain rfl := harg4.eq_unread hf2; obtain rfl := harg5.eq_unread hfO; obtain rfl := harg6.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

end Cert.Kernel.Gen

end
-- ==== Proof.K.Run0C.lean ====
/-
  The body of region 0 at the last column block (the accumulator is added to, and the output tile is written from it): on whole staging buffers, the inputs at their
  contents, the body runs to its end, hands every input back as it was, and leaves the accumulator scratch and the output buffer holding
  the stores it made, recorded as a list of pieces that the run itself determines.
-/
import proofs.«170811_j8761733284269_2_alg».proof.Proof.K.Run0B

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : ¬cond0_0 i) (hc1 : cond0_1 i)
    (x0 : Vec F S512x256 .f32) (x1 : Vec F S4096x256 .bf16) (x2 : Vec F S1x4096 .f32) (xs : Vec F S512x4096 .f32) :
    Σ' (LO : List (View.Piece (Elt F) S512x4096 .bf16)), { LS : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__v_kernel i arg2 harg2 arg3 harg3 arg4 harg4 arg5 harg5 arg6 harg6) K } := by
  refine ⟨?_, ?_, fun E K => ?run⟩
  case run =>
    simp only [cc0__v_kernel_eq_skeleton]; unfold cc0__v_kernel_skel
    unfold owns
    iintro ⟨⟨%f0, %hf0, H0⟩, ⟨%f1, %hf1, H1⟩, ⟨%f2, %hf2, H2⟩, ⟨%dO, %fO, -, HO⟩, ⟨%fS, %hfS, HS⟩, Hk⟩
    obtain rfl := harg2.eq_unread hf0; obtain rfl := harg3.eq_unread hf1; obtain rfl := harg4.eq_unread hf2; obtain rfl := harg6.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.Kernel.Gen

end
-- ==== Proof.K.Pieces0.lean ====
/-
  What the pieces a body run of region 0 recorded amount to: they cover their buffer, and read back they are the
  accumulator's update — zero plus the partial product at the first column block, the previous sum plus the partial
  product afterwards — and, at the last column block, the output tile computed from the finished sum.
-/
import proofs.«170811_j8761733284269_2_alg».proof.Proof.K.Run0C
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover0_A (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : cond0_0 i) (hc1 : ¬cond0_1 i) (x0 : Vec F S512x256 .f32) (x1 : Vec F S4096x256 .bf16) (x2 : Vec F S1x4096 .f32) (y : S512x4096.Idx) : ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S512x4096.size (by sl_kernel_rfl) y
theorem scover0_B (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : ¬cond0_0 i) (hc1 : ¬cond0_1 i) (x0 : Vec F S512x256 .f32) (x1 : Vec F S4096x256 .bf16) (x2 : Vec F S1x4096 .f32) (xs : Vec F S512x4096 .f32) (y : S512x4096.Idx) : ∃ pc ∈ (kernelRun0_B c i arg2 harg2 arg3 harg3 arg4 harg4 arg5 harg5 arg6 harg6 hc0 hc1 x0 x1 x2 xs).1, y ∈ pc.1.set :=
  View.cover_of_tiledL (kernelRun0_B c i arg2 harg2 arg3 harg3 arg4 harg4 arg5 harg5 arg6 harg6 hc0 hc1 x0 x1 x2 xs).1 S512x4096.size (by sl_kernel_rfl) y
theorem scover0_C (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : ¬cond0_0 i) (hc1 : cond0_1 i) (x0 : Vec F S512x256 .f32) (x1 : Vec F S4096x256 .bf16) (x2 : Vec F S1x4096 .f32) (xs : Vec F S512x4096 .f32) (y : S512x4096.Idx) : ∃ pc ∈ (kernelRun0_C c i arg2 harg2 arg3 harg3 arg4 harg4 arg5 harg5 arg6 harg6 hc0 hc1 x0 x1 x2 xs).2.1, y ∈ pc.1.set :=
  View.cover_of_tiledL (kernelRun0_C c i arg2 harg2 arg3 harg3 arg4 harg4 arg5 harg5 arg6 harg6 hc0 hc1 x0 x1 x2 xs).2.1 S512x4096.size (by sl_kernel_rfl) y
theorem ocover0_C (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : ¬cond0_0 i) (hc1 : cond0_1 i) (x0 : Vec F S512x256 .f32) (x1 : Vec F S4096x256 .bf16) (x2 : Vec F S1x4096 .f32) (xs : Vec F S512x4096 .f32) (y : S512x4096.Idx) : ∃ pc ∈ (kernelRun0_C c i arg2 harg2 arg3 harg3 arg4 harg4 arg5 harg5 arg6 harg6 hc0 hc1 x0 x1 x2 xs).1, y ∈ pc.1.set :=
  View.cover_of_tiledL (kernelRun0_C c i arg2 harg2 arg3 harg3 arg4 harg4 arg5 harg5 arg6 harg6 hc0 hc1 x0 x1 x2 xs).1 S512x4096.size (by sl_kernel_rfl) y

/-- The first column block leaves zero plus its partial product in the scratch. -/
theorem sval0_A (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : cond0_0 i) (hc1 : ¬cond0_1 i) (x0 : Vec F S512x256 .f32) (x1 : Vec F S4096x256 .bf16) (x2 : Vec F S1x4096 .f32) :
    VS0.read (Elt F) (VS0.writes (Elt F) VS0.junk (kernelRun0_A c i arg2 harg2 arg3 harg3 arg4 harg4 arg5 harg5 arg6 harg6 hc0 hc1 x0 x1 x2).1) = k0_pay2 x0 x1 k0_pay1 := by
  have hz : (![0, 0] : Fin 2 → Nat) = fun _ => 0 := by funext a; match a with | ⟨0, _⟩ => rfl | ⟨1, _⟩ => rfl
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S512x4096) hz]
  simp only [View.readAt_eq_ld, harg2.read_unread, harg3.read_unread, harg4.read_unread, harg5.read_unread, harg6.read_unread, View.ld_unit_zero (S := S512x256) hz, View.ld_unit_zero (S := S4096x256) hz, View.ld_unit_zero (S := S1x4096) hz, View.ld_unit_zero (S := S512x4096) hz, View.readCov_unit_zero (S := S512x4096) _ hz]

/-- A middle column block leaves the previous sum plus its partial product. -/
theorem sval0_B (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : ¬cond0_0 i) (hc1 : ¬cond0_1 i) (x0 : Vec F S512x256 .f32) (x1 : Vec F S4096x256 .bf16) (x2 : Vec F S1x4096 .f32) (xs : Vec F S512x4096 .f32) :
    VS0.read (Elt F) (VS0.writes (Elt F) VS0.junk (kernelRun0_B c i arg2 harg2 arg3 harg3 arg4 harg4 arg5 harg5 arg6 harg6 hc0 hc1 x0 x1 x2 xs).1) = k0_pay2 x0 x1 xs := by
  have hz : (![0, 0] : Fin 2 → Nat) = fun _ => 0 := by funext a; match a with | ⟨0, _⟩ => rfl | ⟨1, _⟩ => rfl
  rw [View.read_writes_eq_canon _ _ _ (scover0_B c i arg2 harg2 arg3 harg3 arg4 harg4 arg5 harg5 arg6 harg6 hc0 hc1 x0 x1 x2 xs)]
  unfold kernelRun0_B
  dsimp only
  sl_unfold_words
  rw [View.canon_unit_zero (S := S512x4096) hz]
  simp only [View.readAt_eq_ld, harg2.read_unread, harg3.read_unread, harg4.read_unread, harg5.read_unread, harg6.read_unread, View.ld_unit_zero (S := S512x256) hz, View.ld_unit_zero (S := S4096x256) hz, View.ld_unit_zero (S := S1x4096) hz, View.ld_unit_zero (S := S512x4096) hz, View.readCov_unit_zero (S := S512x4096) _ hz]

/-- So does the last column block, -/
theorem sval0_C (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : ¬cond0_0 i) (hc1 : cond0_1 i) (x0 : Vec F S512x256 .f32) (x1 : Vec F S4096x256 .bf16) (x2 : Vec F S1x4096 .f32) (xs : Vec F S512x4096 .f32) :
    VS0.read (Elt F) (VS0.writes (Elt F) VS0.junk (kernelRun0_C c i arg2 harg2 arg3 harg3 arg4 harg4 arg5 harg5 arg6 harg6 hc0 hc1 x0 x1 x2 xs).2.1) = k0_pay2 x0 x1 xs := by
  have hz : (![0, 0] : Fin 2 → Nat) = fun _ => 0 := by funext a; match a with | ⟨0, _⟩ => rfl | ⟨1, _⟩ => rfl
  rw [View.read_writes_eq_canon _ _ _ (scover0_C c i arg2 harg2 arg3 harg3 arg4 harg4 arg5 harg5 arg6 harg6 hc0 hc1 x0 x1 x2 xs)]
  unfold kernelRun0_C
  dsimp only
  sl_unfold_words
  rw [View.canon_unit_zero (S := S512x4096) hz]
  simp only [View.readAt_eq_ld, harg2.read_unread, harg3.read_unread, harg4.read_unread, harg5.read_unread, harg6.read_unread, View.ld_unit_zero (S := S512x256) hz, View.ld_unit_zero (S := S4096x256) hz, View.ld_unit_zero (S := S1x4096) hz, View.ld_unit_zero (S := S512x4096) hz, View.readCov_unit_zero (S := S512x4096) _ hz]

/-- and it writes the output tile from that finished sum. -/
theorem oval0_C (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : ¬cond0_0 i) (hc1 : cond0_1 i) (x0 : Vec F S512x256 .f32) (x1 : Vec F S4096x256 .bf16) (x2 : Vec F S1x4096 .f32) (xs : Vec F S512x4096 .f32) :
    VO0.read (Elt F) (VO0.writes (Elt F) VO0.junk (kernelRun0_C c i arg2 harg2 arg3 harg3 arg4 harg4 arg5 harg5 arg6 harg6 hc0 hc1 x0 x1 x2 xs).1) = k0_pay3 (k0_pay2 x0 x1 xs) x2 := by
  have hz : (![0, 0] : Fin 2 → Nat) = fun _ => 0 := by funext a; match a with | ⟨0, _⟩ => rfl | ⟨1, _⟩ => rfl
  rw [View.read_writes_eq_canon _ _ _ (ocover0_C c i arg2 harg2 arg3 harg3 arg4 harg4 arg5 harg5 arg6 harg6 hc0 hc1 x0 x1 x2 xs)]
  unfold kernelRun0_C
  dsimp only
  sl_unfold_words
  rw [View.canon_unit_zero (S := S512x4096) hz]
  simp only [View.readAt_eq_ld, harg2.read_unread, harg3.read_unread, harg4.read_unread, harg5.read_unread, harg6.read_unread, View.ld_unit_zero (S := S512x256) hz, View.ld_unit_zero (S := S4096x256) hz, View.ld_unit_zero (S := S1x4096) hz, View.ld_unit_zero (S := S512x4096) hz, View.readCov_unit_zero (S := S512x4096) _ hz]

end Cert.Kernel.Gen

end
-- ==== Proof.K.Body0.lean ====
/-
  The body obligation of region 0: at every grid point the body, called on the current staging buffers, takes the
  region invariant before the point to the invariant after it. The column block decides the case: the first of a
  row tile resets the accumulator, a middle one adds to it, the last adds to it and writes the output tile; the
  invariant hands the body the accumulator at what the point before left and takes it back at this point's sum.
-/
import proofs.«170811_j8761733284269_2_alg».proof.Proof.K.Pieces0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The accumulator after a point that starts a row tile, and after any other point, at the point itself. -/
theorem acc0_at_reset (c : Dev nD) (t : Fin cfg0.N) (h0 : t.val % 16 = 0) :
    acc0 V c t.val t.isLt = k0_pay2 (iblk0 V c 0 t) (iblk0 V c 1 t) k0_pay1 := by
  obtain ⟨n, hn⟩ := t; exact acc0_reset V c n hn h0
theorem acc0_at_step (c : Dev nD) (t : Fin cfg0.N) (h0 : ¬t.val % 16 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact acc0_step V c n hn h0

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (acc0 V c n hn) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop((owns (c : Thread nD τ) scM0 fullShare (acc0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl
theorem PhiS0_castSucc (c : Dev nD) (t : Fin cfg0.N) :
    (dat0 V c).Φ t.castSucc = PhiS0 V c t.val (Nat.le_of_lt t.isLt) := by
  dsimp only [dat0]; simp only [Fin.coe_castSucc]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [acc0_at_reset V c t h0]
    by_cases hz : t.val = 0
    ·
      rw [PhiS0_castSucc V c t, PhiS0_zero V c _ _ hz, PhiA0_eq]
      iintro ⟨⟨⟨HS, Hrest⟩, Hg⟩, Ho, ⟨%d0, H0⟩, ⟨%d1, H1⟩, ⟨%d2, H2⟩, ⟨%dO, HO⟩⟩
      iapply ((kernelRun0_A c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t)).2 _ Set.univ _)
      isplitl [H0]; · iexact H0
      isplitl [H1]; · iexact H1
      isplitl [H2]; · iexact H2
      isplitl [HO]; · iexact HO
      isplitl [HS]; · iexact HS
      iintro ⟨H0, H1, H2, HO, ⟨%es, HS⟩⟩
      isplitl [HS Hrest Hg]
      · isplitl [HS Hrest]
        · isplitl [HS]
          · unfold owns; iexists _; isplitr
            swap; · iexact HS
            ipureintro
            exact (View.read_writes_of_cover _ _ VS0 VS0.junk _ (scover0_A c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t))).trans (sval0_A c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t))
          iexact Hrest
        iexact Hg
      isplitl [Ho]; · iexact Ho
      isplitl [H0]; · iexact H0
      isplitl [H1]; · iexact H1
      isplitl [H2]; · iexact H2
      iexists _; iexact HO
    ·
      rw [PhiS0_castSucc V c t, PhiS0_pos V c _ _ hz]
      iintro ⟨⟨⟨HS, Hrest⟩, Hg⟩, Ho, ⟨%d0, H0⟩, ⟨%d1, H1⟩, ⟨%d2, H2⟩, ⟨%dO, HO⟩⟩
      iapply ((kernelRun0_A c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t)).2 _ Set.univ _)
      isplitl [H0]; · iexact H0
      isplitl [H1]; · iexact H1
      isplitl [H2]; · iexact H2
      isplitl [HO]; · iexact HO
      isplitl [HS]; · iexists _; iexact HS
      iintro ⟨H0, H1, H2, HO, ⟨%es, HS⟩⟩
      isplitl [HS Hrest Hg]
      · isplitl [HS Hrest]
        · isplitl [HS]
          · unfold owns; iexists _; isplitr
            swap; · iexact HS
            ipureintro
            exact (View.read_writes_of_cover _ _ VS0 VS0.junk _ (scover0_A c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t))).trans (sval0_A c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t))
          iexact Hrest
        iexact Hg
      isplitl [Ho]; · iexact Ho
      isplitl [H0]; · iexact H0
      isplitl [H1]; · iexact H1
      isplitl [H2]; · iexact H2
      iexists _; iexact HO
  · have hz : t.val ≠ 0 := fun e => h0 (by rw [e])
    have hc0 : ¬cond0_0 (grid0.coords t) := fun h => h0 ((hcond0_0 t).mp h)
    rw [acc0_at_step V c t h0]
    by_cases h1 : t.val % 16 = 15
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      unfold fin0
      rw [acc0_at_step V c t h0]
      rw [PhiS0_castSucc V c t, PhiS0_pos V c _ _ hz]
      iintro ⟨⟨⟨HS, Hrest⟩, Hg⟩, Ho, ⟨%d0, H0⟩, ⟨%d1, H1⟩, ⟨%d2, H2⟩, ⟨%dO, HO⟩⟩
      iapply ((kernelRun0_C c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) (acc0 V c (t.val - 1) (Nat.lt_of_le_of_lt (Nat.sub_le _ _) t.isLt))).2.2 Set.univ _)
      isplitl [H0]; · iexact H0
      isplitl [H1]; · iexact H1
      isplitl [H2]; · iexact H2
      isplitl [HO]; · iexists _; iexact HO
      isplitl [HS]; · iexact HS
      iintro ⟨H0, H1, H2, ⟨%eO, HO⟩, ⟨%es, HS⟩⟩
      isplitl [HS Hrest Hg]
      · isplitl [HS Hrest]
        · isplitl [HS]
          · unfold owns; iexists _; isplitr
            swap; · iexact HS
            ipureintro
            exact (View.read_writes_of_cover _ _ VS0 VS0.junk _ (scover0_C c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) (acc0 V c (t.val - 1) (Nat.lt_of_le_of_lt (Nat.sub_le _ _) t.isLt)))).trans (sval0_C c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) (acc0 V c (t.val - 1) (Nat.lt_of_le_of_lt (Nat.sub_le _ _) t.isLt)))
          iexact Hrest
        iexact Hg
      isplitl [Ho]; · iexact Ho
      isplitl [H0]; · iexact H0
      isplitl [H1]; · iexact H1
      isplitl [H2]; · iexact H2
      unfold owns; iexists _; isplitr
      swap; · iexact HO
      ipureintro
      exact (View.read_writes_of_cover _ _ VO0 VO0.junk _ (ocover0_C c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) (acc0 V c (t.val - 1) (Nat.lt_of_le_of_lt (Nat.sub_le _ _) t.isLt)))).trans (oval0_C c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) (acc0 V c (t.val - 1) (Nat.lt_of_le_of_lt (Nat.sub_le _ _) t.isLt)))
    · have hc1 : ¬cond0_1 (grid0.coords t) := fun h => h1 ((hcond0_1 t).mp h)
      rw [Dat.leavesExact_idle (dat0 V c) 3 t (idleAt0_3 t hc1) (noFlush0_3 t hc1)]
      rw [PhiS0_castSucc V c t, PhiS0_pos V c _ _ hz]
      iintro ⟨⟨⟨HS, Hrest⟩, Hg⟩, Ho, ⟨%d0, H0⟩, ⟨%d1, H1⟩, ⟨%d2, H2⟩, ⟨%dO, HO⟩⟩
      iapply ((kernelRun0_B c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) (acc0 V c (t.val - 1) (Nat.lt_of_le_of_lt (Nat.sub_le _ _) t.isLt))).2 _ Set.univ _)
      isplitl [H0]; · iexact H0
      isplitl [H1]; · iexact H1
      isplitl [H2]; · iexact H2
      isplitl [HO]; · iexact HO
      isplitl [HS]; · iexact HS
      iintro ⟨H0, H1, H2, HO, ⟨%es, HS⟩⟩
      isplitl [HS Hrest Hg]
      · isplitl [HS Hrest]
        · isplitl [HS]
          · unfold owns; iexists _; isplitr
            swap; · iexact HS
            ipureintro
            exact (View.read_writes_of_cover _ _ VS0 VS0.junk _ (scover0_B c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) (acc0 V c (t.val - 1) (Nat.lt_of_le_of_lt (Nat.sub_le _ _) t.isLt)))).trans (sval0_B c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) (acc0 V c (t.val - 1) (Nat.lt_of_le_of_lt (Nat.sub_le _ _) t.isLt)))
          iexact Hrest
        iexact Hg
      isplitl [Ho]; · iexact Ho
      isplitl [H0]; · iexact H0
      isplitl [H1]; · iexact H1
      isplitl [H2]; · iexact H2
      iexists _; iexact HO

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, Hrest⟩, Hg⟩
  isplitl [HS Hrest]
  · isplitl [HS]
    · iexists _; iexact HS
    iexact Hrest
  iexact Hg

end

end Cert.Kernel.Gen

end
-- ==== Proof.K.Runs1.lean ====
/-
  What the body runs of region 1 share: each input window's staging buffer holds its block at every point; the
  body's two branch conditions on the column-block coordinate in closed form over the grid (the first column block
  of a row tile resets the accumulator, the last one writes the output tile); where the output window is idle; the
  class invariant with the accumulator scratch split off the other scoped buffers.
-/
import proofs.«170811_j8761733284269_2_alg».proof.Proof.K.Blocks

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Input window 0's current staging buffer holds its block at every point, fetched there or not: unfetched, the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not: unfetched, the
    block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not: unfetched, the
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

/-- Input window 3's current staging buffer holds its block at every point, fetched there or not: unfetched, the
    block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

/-- Input window 4's current staging buffer holds its block at every point, fetched there or not: unfetched, the
    block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

end

/-- The first branch's condition, from the grid coordinates: the column block is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- The second branch's condition: the column block is the last. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last column block the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- One staging buffer of the output window and the scratch, as views through which contents are stated. -/
abbrev VO1 : View sig .tc .vmem S256x4096 .f32 := (Memref.whole cc1_stg5_0 : Memref sig .tc .vmem S256x4096 .f32).view
abbrev VS1 : View sig .tc .vmem S256x4096 .f32 := (scM1).view
abbrev ms1_0 (t : Fin cfg1.N) : Memref sig .tc .vmem S256x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x4096 .f32 := win1_5.stage (cfg1.slots t 5)
abbrev hs1_5 (t : Fin cfg1.N) : (ms1_5 t).IsWhole := hstage1_5 ((cfg1.slots t 5).cast nbuf1_5)

/-- The class invariant with the accumulator scratch owned at some contents beside the other scoped buffers. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole]
  rfl

end Cert.Kernel.Gen

end
-- ==== Proof.K.Run1A.lean ====
/-
  The body of region 1 at the first column block of a row tile (the accumulator is reset, the output tile is not written): on whole staging buffers, the inputs at their
  contents, the body runs to its end, hands every input back as it was, and leaves the accumulator scratch holding
  the stores it made, recorded as a list of pieces that the run itself determines.
-/
import proofs.«170811_j8761733284269_2_alg».proof.Proof.K.Runs1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : cond1_0 i) (hc1 : ¬cond1_1 i)
    (x0 : Vec F S256x256 .bf16) (x1 : Vec F S4096x256 .bf16) (x2 : Vec F S1x4096 .f32) (x3 : Vec F S1x4096 .f32) (x4 : Vec F S1x4096 .f32) :
    { LS : List (View.Piece (Elt F) S256x4096 .f32) //
      ∀ (xi : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__y_kernel i arg2 harg2 arg3 harg3 arg4 harg4 arg5 harg5 arg6 harg6 arg7 harg7 arg8 harg8) K } := by
  refine ⟨?_, fun xi E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%dS, %fS, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; · ipureintro; exact harg7.read_unread _
      iexact HO
    iexists _; iexact HS

end Cert.Kernel.Gen

end
-- ==== Proof.K.Run1B.lean ====
/-
  The body of region 1 at a middle column block (the accumulator is added to, the output tile is not written): on whole staging buffers, the inputs at their
  contents, the body runs to its end, hands every input back as it was, and leaves the accumulator scratch holding
  the stores it made, recorded as a list of pieces that the run itself determines.
-/
import proofs.«170811_j8761733284269_2_alg».proof.Proof.K.Run1A

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : ¬cond1_0 i) (hc1 : ¬cond1_1 i)
    (x0 : Vec F S256x256 .bf16) (x1 : Vec F S4096x256 .bf16) (x2 : Vec F S1x4096 .f32) (x3 : Vec F S1x4096 .f32) (x4 : Vec F S1x4096 .f32) (xs : Vec F S256x4096 .f32) :
    { LS : List (View.Piece (Elt F) S256x4096 .f32) //
      ∀ (xi : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__y_kernel i arg2 harg2 arg3 harg3 arg4 harg4 arg5 harg5 arg6 harg6 arg7 harg7 arg8 harg8) K } := by
  refine ⟨?_, fun xi E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfO; obtain rfl := harg8.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; · ipureintro; exact harg7.read_unread _
      iexact HO
    iexists _; iexact HS

end Cert.Kernel.Gen

end
-- ==== Proof.K.Run1C.lean ====
/-
  The body of region 1 at the last column block (the accumulator is added to, and the output tile is written from it): on whole staging buffers, the inputs at their
  contents, the body runs to its end, hands every input back as it was, and leaves the accumulator scratch and the output buffer holding
  the stores it made, recorded as a list of pieces that the run itself determines.
-/
import proofs.«170811_j8761733284269_2_alg».proof.Proof.K.Run1B

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : ¬cond1_0 i) (hc1 : cond1_1 i)
    (x0 : Vec F S256x256 .bf16) (x1 : Vec F S4096x256 .bf16) (x2 : Vec F S1x4096 .f32) (x3 : Vec F S1x4096 .f32) (x4 : Vec F S1x4096 .f32) (xs : Vec F S256x4096 .f32) :
    Σ' (LO : List (View.Piece (Elt F) S256x4096 .f32)), { LS : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc1__y_kernel i arg2 harg2 arg3 harg3 arg4 harg4 arg5 harg5 arg6 harg6 arg7 harg7 arg8 harg8) K } := by
  refine ⟨?_, ?_, fun E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fO, -, HO⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]; · iexists _; iexact HO
    iexists _; iexact HS

end Cert.Kernel.Gen

end
-- ==== Proof.K.Pieces1.lean ====
/-
  What the pieces a body run of region 1 recorded amount to: they cover their buffer, and read back they are the
  accumulator's update — zero plus the partial product at the first column block, the previous sum plus the partial
  product afterwards — and, at the last column block, the output tile computed from the finished sum.
-/
import proofs.«170811_j8761733284269_2_alg».proof.Proof.K.Run1C
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover1_A (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : cond1_0 i) (hc1 : ¬cond1_1 i) (x0 : Vec F S256x256 .bf16) (x1 : Vec F S4096x256 .bf16) (x2 : Vec F S1x4096 .f32) (x3 : Vec F S1x4096 .f32) (x4 : Vec F S1x4096 .f32) (y : S256x4096.Idx) : ∃ pc ∈ (kernelRun1_A c i arg2 harg2 arg3 harg3 arg4 harg4 arg5 harg5 arg6 harg6 arg7 harg7 arg8 harg8 hc0 hc1 x0 x1 x2 x3 x4).1, y ∈ pc.1.set :=
  View.cover_of_tiledL (kernelRun1_A c i arg2 harg2 arg3 harg3 arg4 harg4 arg5 harg5 arg6 harg6 arg7 harg7 arg8 harg8 hc0 hc1 x0 x1 x2 x3 x4).1 S256x4096.size (by sl_kernel_rfl) y
theorem scover1_B (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : ¬cond1_0 i) (hc1 : ¬cond1_1 i) (x0 : Vec F S256x256 .bf16) (x1 : Vec F S4096x256 .bf16) (x2 : Vec F S1x4096 .f32) (x3 : Vec F S1x4096 .f32) (x4 : Vec F S1x4096 .f32) (xs : Vec F S256x4096 .f32) (y : S256x4096.Idx) : ∃ pc ∈ (kernelRun1_B c i arg2 harg2 arg3 harg3 arg4 harg4 arg5 harg5 arg6 harg6 arg7 harg7 arg8 harg8 hc0 hc1 x0 x1 x2 x3 x4 xs).1, y ∈ pc.1.set :=
  View.cover_of_tiledL (kernelRun1_B c i arg2 harg2 arg3 harg3 arg4 harg4 arg5 harg5 arg6 harg6 arg7 harg7 arg8 harg8 hc0 hc1 x0 x1 x2 x3 x4 xs).1 S256x4096.size (by sl_kernel_rfl) y
theorem scover1_C (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : ¬cond1_0 i) (hc1 : cond1_1 i) (x0 : Vec F S256x256 .bf16) (x1 : Vec F S4096x256 .bf16) (x2 : Vec F S1x4096 .f32) (x3 : Vec F S1x4096 .f32) (x4 : Vec F S1x4096 .f32) (xs : Vec F S256x4096 .f32) (y : S256x4096.Idx) : ∃ pc ∈ (kernelRun1_C c i arg2 harg2 arg3 harg3 arg4 harg4 arg5 harg5 arg6 harg6 arg7 harg7 arg8 harg8 hc0 hc1 x0 x1 x2 x3 x4 xs).2.1, y ∈ pc.1.set :=
  View.cover_of_tiledL (kernelRun1_C c i arg2 harg2 arg3 harg3 arg4 harg4 arg5 harg5 arg6 harg6 arg7 harg7 arg8 harg8 hc0 hc1 x0 x1 x2 x3 x4 xs).2.1 S256x4096.size (by sl_kernel_rfl) y
theorem ocover1_C (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : ¬cond1_0 i) (hc1 : cond1_1 i) (x0 : Vec F S256x256 .bf16) (x1 : Vec F S4096x256 .bf16) (x2 : Vec F S1x4096 .f32) (x3 : Vec F S1x4096 .f32) (x4 : Vec F S1x4096 .f32) (xs : Vec F S256x4096 .f32) (y : S256x4096.Idx) : ∃ pc ∈ (kernelRun1_C c i arg2 harg2 arg3 harg3 arg4 harg4 arg5 harg5 arg6 harg6 arg7 harg7 arg8 harg8 hc0 hc1 x0 x1 x2 x3 x4 xs).1, y ∈ pc.1.set :=
  View.cover_of_tiledL (kernelRun1_C c i arg2 harg2 arg3 harg3 arg4 harg4 arg5 harg5 arg6 harg6 arg7 harg7 arg8 harg8 hc0 hc1 x0 x1 x2 x3 x4 xs).1 S256x4096.size (by sl_kernel_rfl) y

/-- The first column block leaves zero plus its partial product in the scratch. -/
theorem sval1_A (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : cond1_0 i) (hc1 : ¬cond1_1 i) (x0 : Vec F S256x256 .bf16) (x1 : Vec F S4096x256 .bf16) (x2 : Vec F S1x4096 .f32) (x3 : Vec F S1x4096 .f32) (x4 : Vec F S1x4096 .f32) :
    VS1.read (Elt F) (VS1.writes (Elt F) VS1.junk (kernelRun1_A c i arg2 harg2 arg3 harg3 arg4 harg4 arg5 harg5 arg6 harg6 arg7 harg7 arg8 harg8 hc0 hc1 x0 x1 x2 x3 x4).1) = k1_pay2 x0 x1 k1_pay1 := by
  have hz : (![0, 0] : Fin 2 → Nat) = fun _ => 0 := by funext a; match a with | ⟨0, _⟩ => rfl | ⟨1, _⟩ => rfl
  rw [View.read_writes_eq_canon _ _ _ (scover1_A c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S256x4096) hz]
  simp only [View.readAt_eq_ld, harg2.read_unread, harg3.read_unread, harg4.read_unread, harg5.read_unread, harg6.read_unread, harg7.read_unread, harg8.read_unread, View.ld_unit_zero (S := S256x256) hz, View.ld_unit_zero (S := S4096x256) hz, View.ld_unit_zero (S := S1x4096) hz, View.ld_unit_zero (S := S256x4096) hz, View.readCov_unit_zero (S := S256x4096) _ hz]

/-- A middle column block leaves the previous sum plus its partial product. -/
theorem sval1_B (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : ¬cond1_0 i) (hc1 : ¬cond1_1 i) (x0 : Vec F S256x256 .bf16) (x1 : Vec F S4096x256 .bf16) (x2 : Vec F S1x4096 .f32) (x3 : Vec F S1x4096 .f32) (x4 : Vec F S1x4096 .f32) (xs : Vec F S256x4096 .f32) :
    VS1.read (Elt F) (VS1.writes (Elt F) VS1.junk (kernelRun1_B c i arg2 harg2 arg3 harg3 arg4 harg4 arg5 harg5 arg6 harg6 arg7 harg7 arg8 harg8 hc0 hc1 x0 x1 x2 x3 x4 xs).1) = k1_pay2 x0 x1 xs := by
  have hz : (![0, 0] : Fin 2 → Nat) = fun _ => 0 := by funext a; match a with | ⟨0, _⟩ => rfl | ⟨1, _⟩ => rfl
  rw [View.read_writes_eq_canon _ _ _ (scover1_B c i arg2 harg2 arg3 harg3 arg4 harg4 arg5 harg5 arg6 harg6 arg7 harg7 arg8 harg8 hc0 hc1 x0 x1 x2 x3 x4 xs)]
  unfold kernelRun1_B
  dsimp only
  sl_unfold_words
  rw [View.canon_unit_zero (S := S256x4096) hz]
  simp only [View.readAt_eq_ld, harg2.read_unread, harg3.read_unread, harg4.read_unread, harg5.read_unread, harg6.read_unread, harg7.read_unread, harg8.read_unread, View.ld_unit_zero (S := S256x256) hz, View.ld_unit_zero (S := S4096x256) hz, View.ld_unit_zero (S := S1x4096) hz, View.ld_unit_zero (S := S256x4096) hz, View.readCov_unit_zero (S := S256x4096) _ hz]

/-- So does the last column block, -/
theorem sval1_C (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : ¬cond1_0 i) (hc1 : cond1_1 i) (x0 : Vec F S256x256 .bf16) (x1 : Vec F S4096x256 .bf16) (x2 : Vec F S1x4096 .f32) (x3 : Vec F S1x4096 .f32) (x4 : Vec F S1x4096 .f32) (xs : Vec F S256x4096 .f32) :
    VS1.read (Elt F) (VS1.writes (Elt F) VS1.junk (kernelRun1_C c i arg2 harg2 arg3 harg3 arg4 harg4 arg5 harg5 arg6 harg6 arg7 harg7 arg8 harg8 hc0 hc1 x0 x1 x2 x3 x4 xs).2.1) = k1_pay2 x0 x1 xs := by
  have hz : (![0, 0] : Fin 2 → Nat) = fun _ => 0 := by funext a; match a with | ⟨0, _⟩ => rfl | ⟨1, _⟩ => rfl
  rw [View.read_writes_eq_canon _ _ _ (scover1_C c i arg2 harg2 arg3 harg3 arg4 harg4 arg5 harg5 arg6 harg6 arg7 harg7 arg8 harg8 hc0 hc1 x0 x1 x2 x3 x4 xs)]
  unfold kernelRun1_C
  dsimp only
  sl_unfold_words
  rw [View.canon_unit_zero (S := S256x4096) hz]
  simp only [View.readAt_eq_ld, harg2.read_unread, harg3.read_unread, harg4.read_unread, harg5.read_unread, harg6.read_unread, harg7.read_unread, harg8.read_unread, View.ld_unit_zero (S := S256x256) hz, View.ld_unit_zero (S := S4096x256) hz, View.ld_unit_zero (S := S1x4096) hz, View.ld_unit_zero (S := S256x4096) hz, View.readCov_unit_zero (S := S256x4096) _ hz]

/-- and it writes the output tile from that finished sum. -/
theorem oval1_C (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : ¬cond1_0 i) (hc1 : cond1_1 i) (x0 : Vec F S256x256 .bf16) (x1 : Vec F S4096x256 .bf16) (x2 : Vec F S1x4096 .f32) (x3 : Vec F S1x4096 .f32) (x4 : Vec F S1x4096 .f32) (xs : Vec F S256x4096 .f32) :
    VO1.read (Elt F) (VO1.writes (Elt F) VO1.junk (kernelRun1_C c i arg2 harg2 arg3 harg3 arg4 harg4 arg5 harg5 arg6 harg6 arg7 harg7 arg8 harg8 hc0 hc1 x0 x1 x2 x3 x4 xs).1) = k1_pay3 (k1_pay2 x0 x1 xs) x2 x3 x4 := by
  have hz : (![0, 0] : Fin 2 → Nat) = fun _ => 0 := by funext a; match a with | ⟨0, _⟩ => rfl | ⟨1, _⟩ => rfl
  rw [View.read_writes_eq_canon _ _ _ (ocover1_C c i arg2 harg2 arg3 harg3 arg4 harg4 arg5 harg5 arg6 harg6 arg7 harg7 arg8 harg8 hc0 hc1 x0 x1 x2 x3 x4 xs)]
  unfold kernelRun1_C
  dsimp only
  sl_unfold_words
  rw [View.canon_unit_zero (S := S256x4096) hz]
  simp only [View.readAt_eq_ld, harg2.read_unread, harg3.read_unread, harg4.read_unread, harg5.read_unread, harg6.read_unread, harg7.read_unread, harg8.read_unread, View.ld_unit_zero (S := S256x256) hz, View.ld_unit_zero (S := S4096x256) hz, View.ld_unit_zero (S := S1x4096) hz, View.ld_unit_zero (S := S256x4096) hz, View.readCov_unit_zero (S := S256x4096) _ hz]

end Cert.Kernel.Gen

end
-- ==== Proof.K.Body1.lean ====
/-
  The body obligation of region 1: at every grid point the body, called on the current staging buffers, takes the
  region invariant before the point to the invariant after it. The column block decides the case: the first of a
  row tile resets the accumulator, a middle one adds to it, the last adds to it and writes the output tile; the
  invariant hands the body the accumulator at what the point before left and takes it back at this point's sum.
-/
import proofs.«170811_j8761733284269_2_alg».proof.Proof.K.Pieces1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The accumulator after a point that starts a row tile, and after any other point, at the point itself. -/
theorem acc1_at_reset (c : Dev nD) (t : Fin cfg1.N) (h0 : t.val % 16 = 0) :
    acc1 V c t.val t.isLt = k1_pay2 (iblk1 V c 0 t) (iblk1 V c 1 t) k1_pay1 := by
  obtain ⟨n, hn⟩ := t; exact acc1_reset V c n hn h0
theorem acc1_at_step (c : Dev nD) (t : Fin cfg1.N) (h0 : ¬t.val % 16 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact acc1_step V c n hn h0

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop((owns (c : Thread nD τ) scM1 fullShare (acc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl
theorem PhiS1_castSucc (c : Dev nD) (t : Fin cfg1.N) :
    (dat1 V c).Φ t.castSucc = PhiS1 V c t.val (Nat.le_of_lt t.isLt) := by
  dsimp only [dat1]; simp only [Fin.coe_castSucc]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t hc1)]
    rw [acc1_at_reset V c t h0]
    by_cases hz : t.val = 0
    ·
      rw [PhiS1_castSucc V c t, PhiS1_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩, ⟨%dO, HO⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexact HS
      iintro ⟨H0, H1, H2, H3, H4, HO, ⟨%es, HS⟩⟩
      isplitl [HS Hrest Hg]
      · isplitl [HS Hrest]
        · isplitl [HS]
          · unfold owns; iexists _; isplitr
            swap; · iexact HS
            ipureintro
            exact (View.read_writes_of_cover _ _ VS1 VS1.junk _ (scover1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t))).trans (sval1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t))
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact HO
    ·
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%dO, HO⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexists _; iexact HS
      iintro ⟨H0, H1, H2, H3, H4, HO, ⟨%es, HS⟩⟩
      isplitl [HS Hrest Hg]
      · isplitl [HS Hrest]
        · isplitl [HS]
          · unfold owns; iexists _; isplitr
            swap; · iexact HS
            ipureintro
            exact (View.read_writes_of_cover _ _ VS1 VS1.junk _ (scover1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t))).trans (sval1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t))
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact HO
  · have hz : t.val ≠ 0 := fun e => h0 (by rw [e])
    have hc0 : ¬cond1_0 (grid1.coords t) := fun h => h0 ((hcond1_0 t).mp h)
    rw [acc1_at_step V c t h0]
    by_cases h1 : t.val % 16 = 15
    · have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5]
      unfold fin1
      rw [acc1_at_step V c t h0]
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%dO, HO⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t) (acc1 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [HO]; · iexists _; iexact HO
      isplitl [HS]; · iexact HS
      iintro ⟨H0, H1, H2, H3, H4, ⟨%eO, HO⟩, ⟨%es, HS⟩⟩
      isplitl [HS Hrest Hg]
      · isplitl [HS Hrest]
        · isplitl [HS]
          · unfold owns; iexists _; isplitr
            swap; · iexact HS
            ipureintro
            exact (View.read_writes_of_cover _ _ VS1 VS1.junk _ (scover1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t) (acc1 V c (t.val - 1) (Nat.lt_of_le_of_lt (Nat.sub_le _ _) t.isLt)))).trans (sval1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t) (acc1 V c (t.val - 1) (Nat.lt_of_le_of_lt (Nat.sub_le _ _) t.isLt)))
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact HO
      ipureintro
      exact (View.read_writes_of_cover _ _ VO1 VO1.junk _ (ocover1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t) (acc1 V c (t.val - 1) (Nat.lt_of_le_of_lt (Nat.sub_le _ _) t.isLt)))).trans (oval1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t) (acc1 V c (t.val - 1) (Nat.lt_of_le_of_lt (Nat.sub_le _ _) t.isLt)))
    · have hc1 : ¬cond1_1 (grid1.coords t) := fun h => h1 ((hcond1_1 t).mp h)
      rw [Dat.leavesExact_idle (dat1 V c) 5 t (idleAt1_5 t hc1) (noFlush1_5 t hc1)]
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%dO, HO⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t) (acc1 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexact HS
      iintro ⟨H0, H1, H2, H3, H4, HO, ⟨%es, HS⟩⟩
      isplitl [HS Hrest Hg]
      · isplitl [HS Hrest]
        · isplitl [HS]
          · unfold owns; iexists _; isplitr
            swap; · iexact HS
            ipureintro
            exact (View.read_writes_of_cover _ _ VS1 VS1.junk _ (scover1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t) (acc1 V c (t.val - 1) (Nat.lt_of_le_of_lt (Nat.sub_le _ _) t.isLt)))).trans (sval1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t) (acc1 V c (t.val - 1) (Nat.lt_of_le_of_lt (Nat.sub_le _ _) t.isLt)))
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact HO

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 512 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS, Hrest⟩, Hg⟩
  isplitl [HS Hrest]
  · isplitl [HS]
    · iexists _; iexact HS
    iexact Hrest
  iexact Hg

end

end Cert.Kernel.Gen

end
-- ==== Proof.K.Main.lean ====
/-
  The whole run of @main: the host stretch (the value third of the stacked weights and bias sliced out, the row
  vectors reshaped, the two weight matrices converted), then the two kernel regions one after the other. Between
  two items every unscoped buffer of a core is held at known contents: the launch memory, then the host stretch
  applied, then the first region's output array at what its write-backs leave, then the second's. Every weakly fair
  execution terminates without a fault; the result array ends at what the second region's write-backs leave and the
  seven argument arrays end as launched. Generic in the float instance.
-/
import proofs.«170811_j8761733284269_2_alg».proof.Proof.K.Body0
import proofs.«170811_j8761733284269_2_alg».proof.Proof.K.Body1
import proofs.«170811_j8761733284269_2_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Region 0's entry contents (after the host stretch), read at the TensorCore's references. -/
abbrev Ve1 : (c : Dev nD) → (b : Ref sig .tc) → Buf (Elt F) ((c : Thread nD τ).loc b) := fun c b => V1 m c b
/-- At region 0's exit: its arrays at what the pipeline leaves, every other buffer as entered. -/
def Wl2 (c : Dev nD) : Valuation τ sig (Elt F) :=
  Pipeline.withArrays spec0 c (V1 m c) fun w => (dat0 (Ve1 m) c).arrAt w cfg0.N
theorem Wl2_arr (c : Dev nD) (w : Fin cfg0.W) :
    Wl2 m c (Proc.devRef .tc (Pipeline.arrRef spec0 w)) = (dat0 (Ve1 m) c).arrAt w cfg0.N := by
  unfold Wl2; exact Pipeline.withArrays_arr spec0 launch0.win.arr_inj c _ _ w
theorem Wl2_of_ne (c : Dev nD) (b : Ref sig .tc) (hb : ∀ w, Pipeline.arrRef spec0 w ≠ b) :
    Wl2 m c (Proc.devRef .tc b) = V1 m c (Proc.devRef .tc b) := by
  unfold Wl2; exact Pipeline.withArrays_of_ne spec0 c _ _ b hb
abbrev Ve2 : (c : Dev nD) → (b : Ref sig .tc) → Buf (Elt F) ((c : Thread nD τ).loc b) := fun c b => Wl2 m c b
theorem hF0 (c : Dev nD) (w : Fin cfg0.W) : (dat0 (Ve1 m) c).arrAt w cfg0.N = Ve2 m c (Pipeline.arrRef spec0 w) :=
  (Wl2_arr m c w).symm
theorem hrest0 (c : Dev nD) : ∀ b, b ∉ Finset.univ.image (Pipeline.arrRef spec0) → Ve2 m c b = Ve1 m c b :=
  fun b hb => Wl2_of_ne m c b fun w e => hb (Finset.mem_image.mpr ⟨w, Finset.mem_univ _, e⟩)

/-- At region 1's exit, likewise over region 0's exit contents. -/
def Wl3 (c : Dev nD) : Valuation τ sig (Elt F) :=
  Pipeline.withArrays spec1 c (Wl2 m c) fun w => (dat1 (Ve2 m) c).arrAt w cfg1.N
theorem Wl3_arr (c : Dev nD) (w : Fin cfg1.W) :
    Wl3 m c (Proc.devRef .tc (Pipeline.arrRef spec1 w)) = (dat1 (Ve2 m) c).arrAt w cfg1.N := by
  unfold Wl3; exact Pipeline.withArrays_arr spec1 launch1.win.arr_inj c _ _ w
theorem Wl3_of_ne (c : Dev nD) (b : Ref sig .tc) (hb : ∀ w, Pipeline.arrRef spec1 w ≠ b) :
    Wl3 m c (Proc.devRef .tc b) = Wl2 m c (Proc.devRef .tc b) := by
  unfold Wl3; exact Pipeline.withArrays_of_ne spec1 c _ _ b hb
abbrev Ve3 : (c : Dev nD) → (b : Ref sig .tc) → Buf (Elt F) ((c : Thread nD τ).loc b) := fun c b => Wl3 m c b
theorem hF1 (c : Dev nD) (w : Fin cfg1.W) : (dat1 (Ve2 m) c).arrAt w cfg1.N = Ve3 m c (Pipeline.arrRef spec1 w) :=
  (Wl3_arr m c w).symm
theorem hrest1 (c : Dev nD) : ∀ b, b ∉ Finset.univ.image (Pipeline.arrRef spec1) → Ve3 m c b = Ve2 m c b :=
  fun b hb => Wl3_of_ne m c b fun w e => hb (Finset.mem_image.mpr ⟨w, Finset.mem_univ _, e⟩)

/-! ## The arguments end as launched, and the result is the second region's output array -/

theorem Wl3_main_arg0 (c : Dev nD) : Wl3 m c (Proc.devRef .tc main_arg0) = m ((c : Thread nD τ).loc main_arg0) :=
  calc Wl3 m c (Proc.devRef .tc main_arg0)
    _ = Wl2 m c (Proc.devRef .tc main_arg0) := Wl3_of_ne m c main_arg0 (by decide)
    _ = V1 m c (Proc.devRef .tc main_arg0) := (Wl2_arr m c 0).trans (((dat0 (Ve1 m) c).arrAt_in 0 rfl _).trans (A_eq0 (Ve1 m) c 0))
    _ = V0 m c (Proc.devRef .tc main_arg0) := V1_of m c main_arg0 (by decide)
    _ = m ((c : Thread nD τ).loc main_arg0) := rfl
theorem Wl3_main_arg1 (c : Dev nD) : Wl3 m c (Proc.devRef .tc main_arg1) = m ((c : Thread nD τ).loc main_arg1) :=
  calc Wl3 m c (Proc.devRef .tc main_arg1)
    _ = Wl2 m c (Proc.devRef .tc main_arg1) := Wl3_of_ne m c main_arg1 (by decide)
    _ = V1 m c (Proc.devRef .tc main_arg1) := Wl2_of_ne m c main_arg1 (by decide)
    _ = V0 m c (Proc.devRef .tc main_arg1) := V1_of m c main_arg1 (by decide)
    _ = m ((c : Thread nD τ).loc main_arg1) := rfl
theorem Wl3_main_arg2 (c : Dev nD) : Wl3 m c (Proc.devRef .tc main_arg2) = m ((c : Thread nD τ).loc main_arg2) :=
  calc Wl3 m c (Proc.devRef .tc main_arg2)
    _ = Wl2 m c (Proc.devRef .tc main_arg2) := Wl3_of_ne m c main_arg2 (by decide)
    _ = V1 m c (Proc.devRef .tc main_arg2) := Wl2_of_ne m c main_arg2 (by decide)
    _ = V0 m c (Proc.devRef .tc main_arg2) := V1_of m c main_arg2 (by decide)
    _ = m ((c : Thread nD τ).loc main_arg2) := rfl
theorem Wl3_main_arg3 (c : Dev nD) : Wl3 m c (Proc.devRef .tc main_arg3) = m ((c : Thread nD τ).loc main_arg3) :=
  calc Wl3 m c (Proc.devRef .tc main_arg3)
    _ = Wl2 m c (Proc.devRef .tc main_arg3) := Wl3_of_ne m c main_arg3 (by decide)
    _ = V1 m c (Proc.devRef .tc main_arg3) := Wl2_of_ne m c main_arg3 (by decide)
    _ = V0 m c (Proc.devRef .tc main_arg3) := V1_of m c main_arg3 (by decide)
    _ = m ((c : Thread nD τ).loc main_arg3) := rfl
theorem Wl3_main_arg4 (c : Dev nD) : Wl3 m c (Proc.devRef .tc main_arg4) = m ((c : Thread nD τ).loc main_arg4) :=
  calc Wl3 m c (Proc.devRef .tc main_arg4)
    _ = Wl2 m c (Proc.devRef .tc main_arg4) := Wl3_of_ne m c main_arg4 (by decide)
    _ = V1 m c (Proc.devRef .tc main_arg4) := Wl2_of_ne m c main_arg4 (by decide)
    _ = V0 m c (Proc.devRef .tc main_arg4) := V1_of m c main_arg4 (by decide)
    _ = m ((c : Thread nD τ).loc main_arg4) := rfl
theorem Wl3_main_arg5 (c : Dev nD) : Wl3 m c (Proc.devRef .tc main_arg5) = m ((c : Thread nD τ).loc main_arg5) :=
  calc Wl3 m c (Proc.devRef .tc main_arg5)
    _ = Wl2 m c (Proc.devRef .tc main_arg5) := Wl3_of_ne m c main_arg5 (by decide)
    _ = V1 m c (Proc.devRef .tc main_arg5) := Wl2_of_ne m c main_arg5 (by decide)
    _ = V0 m c (Proc.devRef .tc main_arg5) := V1_of m c main_arg5 (by decide)
    _ = m ((c : Thread nD τ).loc main_arg5) := rfl
theorem Wl3_main_arg6 (c : Dev nD) : Wl3 m c (Proc.devRef .tc main_arg6) = m ((c : Thread nD τ).loc main_arg6) :=
  calc Wl3 m c (Proc.devRef .tc main_arg6)
    _ = Wl2 m c (Proc.devRef .tc main_arg6) := Wl3_of_ne m c main_arg6 (by decide)
    _ = V1 m c (Proc.devRef .tc main_arg6) := Wl2_of_ne m c main_arg6 (by decide)
    _ = V0 m c (Proc.devRef .tc main_arg6) := V1_of m c main_arg6 (by decide)
    _ = m ((c : Thread nD τ).loc main_arg6) := rfl
theorem Wl3_main_v9 (c : Dev nD) : Wl3 m c (Proc.devRef .tc main_v9) = (dat1 (Ve2 m) c).arrAt 5 cfg1.N := Wl3_arr m c 5
/-- Region 1 finds, in its first window's array, what region 0's write-backs left. -/
theorem Ve2_main_v8 (c : Dev nD) : Ve2 m c main_v8 = (dat0 (Ve1 m) c).arrAt 3 cfg0.N := Wl2_arr m c 3
/-- Every other buffer region 1 reads is as the host stretch left it. -/
theorem Ve2_of_ne (c : Dev nD) (b : Ref sig .tc) (hb : ∀ w, Pipeline.arrRef spec0 w ≠ b) : Ve2 m c b = Ve1 m c b := Wl2_of_ne m c b hb

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (Ve1 m) c
  | ⟨1, _⟩ => fun c => dat1 (Ve2 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wl3 m c) ∗ ∃ r, prngReg c r)

/-! ## The regions as segments -/

set_option backward.isDefEq.respectTransparency.types false in
/-- Region 0 over the thread state: entered with every unscoped buffer at the boundary's contents, left with the
    region's arrays at what its write-backs leave and every other buffer as entered. Its arrays are split out of the
    unscoped buffers and put back; the generator register goes into the region invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (Wl2 m c) ∗ R c)
  X c := iprop(∃ r, prngReg c r)
  Y c := iprop(∃ r, prngReg c r)
  Z c := Pipeline.unscopedRest (Ix := Unit) (Name := ℕ) (U := UR sig nD τ) (Lvl := ℕ) spec0 c (Ve1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none, show (pdats m 0 c).Φ (Fin.last _) = (dat0 (Ve1 m) c).Φ (Fin.last cfg0.N) from rfl]
    have h := hout0 (Ve1 m) c
    unfold Pipeline.ΦA at h
    exact h.trans (by
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve1 m c) (Ve2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with the
    region's arrays at what its write-backs leave and every other buffer as entered. Its arrays are split out of the
    unscoped buffers and put back; the generator register goes into the region invariant and comes out; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve2 m) c).loose
  hwaits := Pipeline.hwaits_of_owed_zero _ _ _ _ L lv 1 fun _ _ => rfl
  pre c := iprop(StableHlo.held (c : Thread nD τ) (Pipeline.ucRefs τ sig) (Wl2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats m 1 c).Φ (Fin.last _) = (dat1 (Ve2 m) c).Φ (Fin.last cfg1.N) from rfl]
    have h := hout1 (Ve2 m) c
    unfold Pipeline.ΦA at h
    exact h.trans (by
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve2 m c) (Ve3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsM : List (Pipeline.Seg (pcfgs (F := F)) adm (pdats m) () defs₀ 𝒱₀ L lv) :=
  [ .host (hseg hostOps0 hostOps0_sub hostOps0_fresh (V0 m)),
    .region (reg0 m),
    .region (reg1 m) ]
theorem main_run (c : Dev nD) : main (F := F) c = Pipeline.Seg.run (segsM m) := (main_chain c).trans (by chain_rfl)

set_option backward.isDefEq.respectTransparency.types false in
/-- THE RUN. From any memory with zero counters every weakly fair execution of @main terminates, nothing faulting;
    the result array ends at what the second region's write-backs leave, and the argument arrays end as launched. -/
theorem run_main : θ_run defs (onTc (τ := τ) (main (F := F))) ⟨m, fun _ => 0, ρ⟩ (fun r => ∀ c : Dev nD,
      r.2.mem ((c.tc : Thread nD τ).loc main_v9) = (dat1 (Ve2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segsM m)
    (fun c Q => by rw [main_run m c])
    (by simp only [segsM, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wl3 m c b)
    (hfin := fun c s' => by
      iintro ⟨⟨Hh, -⟩, HSI⟩
      unfold StableHlo.held
      imodintro
      iapply (pointsTo_read_all (Pipeline.ucRefs τ sig) (fun b => (((c : Thread nD τ)).1, b)) (Wl3 m c) s')
      isplitl [Hh] <;> iassumption)
    (hQ := fun s h c =>
      ⟨(h c _ (mem_uc main_v9 (by decide))).trans (Wl3_main_v9 m c),
       (h c _ (mem_uc main_arg0 (by decide))).trans (Wl3_main_arg0 m c),
       (h c _ (mem_uc main_arg1 (by decide))).trans (Wl3_main_arg1 m c),
       (h c _ (mem_uc main_arg2 (by decide))).trans (Wl3_main_arg2 m c),
       (h c _ (mem_uc main_arg3 (by decide))).trans (Wl3_main_arg3 m c),
       (h c _ (mem_uc main_arg4 (by decide))).trans (Wl3_main_arg4 m c),
       (h c _ (mem_uc main_arg5 (by decide))).trans (Wl3_main_arg5 m c),
       (h c _ (mem_uc main_arg6 (by decide))).trans (Wl3_main_arg6 m c)⟩)

end Cert.Kernel.Gen

end
-- ==== Proof.KI.Blocks.lean ====
/-
  Both kernels accumulate a matrix product over the sixteen column blocks of the contraction axis in a scratch
  buffer: the first block of a row tile overwrites the scratch with zero plus its partial product, each later block
  adds its partial product, and the last block also writes the output tile from the finished sum (plus the bias;
  for the second kernel, normalised row by row). This module names those contents as pure functions of the
  arrays a region finds, and states the per-region proof data over them: what the scratch holds after point n
  (`accK`), what the output tile would be written from it (`finK`), the region invariant that carries the scratch
  between points (`PhiSK`), and the proof data (`datK`). Generic in the float instance.
-/
import proofs.«170811_j8761733284269_2_alg».proof.Proof.Gen.KernelIdeal.Launch
import proofs.«170811_j8761733284269_2_alg».proof.Proof.Gen.KernelIdeal.Skeleton
import proofs.«170811_j8761733284269_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: V = x · Wvᵀ + bv -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator, a whole scoped buffer. -/
abbrev scM0 : Memref sig .tc .vmem S512x4096 .f32 := Memref.whole cc0_scratch0

/-- What the scratch holds after the body at position `n`: at the first column block of a row tile the zero splat plus
    the block's partial product, afterwards the previous contents plus it. -/
def acc0 (c : Dev nD) : (n : ℕ) → n < cfg0.N → Vec F S512x4096 .f32
  | 0, h => k0_pay2 (iblk0 V c 0 ⟨0, h⟩) (iblk0 V c 1 ⟨0, h⟩) k0_pay1
  | n + 1, h =>
    if (n + 1) % 16 = 0 then k0_pay2 (iblk0 V c 0 ⟨n + 1, h⟩) (iblk0 V c 1 ⟨n + 1, h⟩) k0_pay1
    else k0_pay2 (iblk0 V c 0 ⟨n + 1, h⟩) (iblk0 V c 1 ⟨n + 1, h⟩) (acc0 c n (Nat.lt_of_succ_lt h))

/-- The output tile as the last column block writes it: the accumulated sum plus the bias row, in the output format. -/
def fin0 (c : Dev nD) (t : Fin cfg0.N) : Vec F S512x4096 .bf16 :=
  k0_pay3 (acc0 V c t.val t.isLt) (iblk0 V c 2 t)

/-- The region invariant before position `n`: at the start the class's (every scoped buffer at anything); afterwards the
    scratch at what the point before left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => fin0 V c t
  Φ t := PhiS0 V c t.val (Nat.le_of_lt_succ t.isLt)
  q _ := fullShare
  owed _ := 0

/-! ## Region 1: Y = V · Wprojᵀ + bproj, normalised row by row -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S256x4096 .f32 := Memref.whole cc1_scratch0

def acc1 (c : Dev nD) : (n : ℕ) → n < cfg1.N → Vec F S256x4096 .f32
  | 0, h => k1_pay2 (iblk1 V c 0 ⟨0, h⟩) (iblk1 V c 1 ⟨0, h⟩) k1_pay1
  | n + 1, h =>
    if (n + 1) % 16 = 0 then k1_pay2 (iblk1 V c 0 ⟨n + 1, h⟩) (iblk1 V c 1 ⟨n + 1, h⟩) k1_pay1
    else k1_pay2 (iblk1 V c 0 ⟨n + 1, h⟩) (iblk1 V c 1 ⟨n + 1, h⟩) (acc1 c n (Nat.lt_of_succ_lt h))

def fin1 (c : Dev nD) (t : Fin cfg1.N) : Vec F S256x4096 .f32 :=
  k1_pay3 (acc1 V c t.val t.isLt) (iblk1 V c 2 t) (iblk1 V c 3 t) (iblk1 V c 4 t)

def PhiS1 (c : Dev nD) : (n : ℕ) → n ≤ cfg1.N → sProp 𝕄
  | 0, _ => Pipeline.ΦA spec1 c
  | n + 1, hn => iprop((owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => fin1 V c t
  Φ t := PhiS1 V c t.val (Nat.le_of_lt_succ t.isLt)
  q _ := fullShare
  owed _ := 0

/-! ## Projections of the proof data (by `dsimp`, never by unfolding the arrays) -/

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = fin0 V c t := by dsimp only [dat0]
theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = fin1 V c t := by dsimp only [dat1]

/-- The accumulator's recursion, as two rewriting facts: a reset at the multiples of 16, a step elsewhere. -/
theorem acc0_reset (c : Dev nD) (n : ℕ) (h : n < cfg0.N) (hn : n % 16 = 0) :
    acc0 V c n h = k0_pay2 (iblk0 V c 0 ⟨n, h⟩) (iblk0 V c 1 ⟨n, h⟩) k0_pay1 := by
  cases n with
  | zero => rfl
  | succ n => exact if_pos hn
theorem acc0_step (c : Dev nD) (n : ℕ) (h : n + 1 < cfg0.N) (hn : ¬(n + 1) % 16 = 0) :
    acc0 V c (n + 1) h = k0_pay2 (iblk0 V c 0 ⟨n + 1, h⟩) (iblk0 V c 1 ⟨n + 1, h⟩) (acc0 V c n (Nat.lt_of_succ_lt h)) :=
  if_neg hn
theorem acc1_reset (c : Dev nD) (n : ℕ) (h : n < cfg1.N) (hn : n % 16 = 0) :
    acc1 V c n h = k1_pay2 (iblk1 V c 0 ⟨n, h⟩) (iblk1 V c 1 ⟨n, h⟩) k1_pay1 := by
  cases n with
  | zero => rfl
  | succ n => exact if_pos hn
theorem acc1_step (c : Dev nD) (n : ℕ) (h : n + 1 < cfg1.N) (hn : ¬(n + 1) % 16 = 0) :
    acc1 V c (n + 1) h = k1_pay2 (iblk1 V c 0 ⟨n + 1, h⟩) (iblk1 V c 1 ⟨n + 1, h⟩) (acc1 V c n (Nat.lt_of_succ_lt h)) :=
  if_neg hn

end Regions

end Cert.KernelIdeal.Gen

end
-- ==== Proof.KI.Runs0.lean ====
/-
  What the body runs of region 0 share: each input window's staging buffer holds its block at every point; the
  body's two branch conditions on the column-block coordinate in closed form over the grid (the first column block
  of a row tile resets the accumulator, the last one writes the output tile); where the output window is idle; the
  class invariant with the accumulator scratch split off the other scoped buffers.
-/
import proofs.«170811_j8761733284269_2_alg».proof.Proof.KI.Blocks

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Input window 0's current staging buffer holds its block at every point, fetched there or not: unfetched, the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, fetched there or not: unfetched, the
    block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

/-- Input window 2's current staging buffer holds its block at every point, fetched there or not: unfetched, the
    block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

end

/-- The first branch's condition, from the grid coordinates: the column block is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The second branch's condition: the column block is the last. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last column block the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- One staging buffer of the output window and the scratch, as views through which contents are stated. -/
abbrev VO0 : View sig .tc .vmem S512x4096 .bf16 := (Memref.whole cc0_stg3_0 : Memref sig .tc .vmem S512x4096 .bf16).view
abbrev VS0 : View sig .tc .vmem S512x4096 .f32 := (scM0).view
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x4096 .bf16 := win0_3.stage (cfg0.slots t 3)
abbrev hs0_3 (t : Fin cfg0.N) : (ms0_3 t).IsWhole := hstage0_3 ((cfg0.slots t 3).cast nbuf0_3)

/-- The class invariant with the accumulator scratch owned at some contents beside the other scoped buffers. -/
theorem PhiA0_eq (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0, owns_whole]
  rfl

end Cert.KernelIdeal.Gen

end
-- ==== Proof.KI.Run0A.lean ====
/-
  The body of region 0 at the first column block of a row tile (the accumulator is reset, the output tile is not written): on whole staging buffers, the inputs at their
  contents, the body runs to its end, hands every input back as it was, and leaves the accumulator scratch holding
  the stores it made, recorded as a list of pieces that the run itself determines.
-/
import proofs.«170811_j8761733284269_2_alg».proof.Proof.KI.Runs0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : cond0_0 i) (hc1 : ¬cond0_1 i)
    (x0 : Vec F S512x256 .f32) (x1 : Vec F S4096x256 .bf16) (x2 : Vec F S1x4096 .f32) :
    { LS : List (View.Piece (Elt F) S512x4096 .f32) //
      ∀ (xi : Vec F S512x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__v_kernel i arg2 harg2 arg3 harg3 arg4 harg4 arg5 harg5 arg6 harg6) K } := by
  refine ⟨?_, fun xi E K => ?run⟩
  case run =>
    simp only [cc0__v_kernel_eq_skeleton]; unfold cc0__v_kernel_skel
    unfold owns
    iintro ⟨⟨%f0, %hf0, H0⟩, ⟨%f1, %hf1, H1⟩, ⟨%f2, %hf2, H2⟩, ⟨%fO, %hfO, HO⟩, ⟨%dS, %fS, -, HS⟩, Hk⟩
    obtain rfl := harg2.eq_unread hf0; obtain rfl := harg3.eq_unread hf1; obtain rfl := harg4.eq_unread hf2; obtain rfl := harg5.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

end Cert.KernelIdeal.Gen

end
-- ==== Proof.KI.Run0B.lean ====
/-
  The body of region 0 at a middle column block (the accumulator is added to, the output tile is not written): on whole staging buffers, the inputs at their
  contents, the body runs to its end, hands every input back as it was, and leaves the accumulator scratch holding
  the stores it made, recorded as a list of pieces that the run itself determines.
-/
import proofs.«170811_j8761733284269_2_alg».proof.Proof.KI.Run0A

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : ¬cond0_0 i) (hc1 : ¬cond0_1 i)
    (x0 : Vec F S512x256 .f32) (x1 : Vec F S4096x256 .bf16) (x2 : Vec F S1x4096 .f32) (xs : Vec F S512x4096 .f32) :
    { LS : List (View.Piece (Elt F) S512x4096 .f32) //
      ∀ (xi : Vec F S512x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__v_kernel i arg2 harg2 arg3 harg3 arg4 harg4 arg5 harg5 arg6 harg6) K } := by
  refine ⟨?_, fun xi E K => ?run⟩
  case run =>
    simp only [cc0__v_kernel_eq_skeleton]; unfold cc0__v_kernel_skel
    unfold owns
    iintro ⟨⟨%f0, %hf0, H0⟩, ⟨%f1, %hf1, H1⟩, ⟨%f2, %hf2, H2⟩, ⟨%fO, %hfO, HO⟩, ⟨%fS, %hfS, HS⟩, Hk⟩
    obtain rfl := harg2.eq_unread hf0; obtain rfl := harg3.eq_unread hf1; obtain rfl := harg4.eq_unread hf2; obtain rfl := harg5.eq_unread hfO; obtain rfl := harg6.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

end Cert.KernelIdeal.Gen

end
-- ==== Proof.KI.Run0C.lean ====
/-
  The body of region 0 at the last column block (the accumulator is added to, and the output tile is written from it): on whole staging buffers, the inputs at their
  contents, the body runs to its end, hands every input back as it was, and leaves the accumulator scratch and the output buffer holding
  the stores it made, recorded as a list of pieces that the run itself determines.
-/
import proofs.«170811_j8761733284269_2_alg».proof.Proof.KI.Run0B

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : ¬cond0_0 i) (hc1 : cond0_1 i)
    (x0 : Vec F S512x256 .f32) (x1 : Vec F S4096x256 .bf16) (x2 : Vec F S1x4096 .f32) (xs : Vec F S512x4096 .f32) :
    Σ' (LO : List (View.Piece (Elt F) S512x4096 .bf16)), { LS : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__v_kernel i arg2 harg2 arg3 harg3 arg4 harg4 arg5 harg5 arg6 harg6) K } := by
  refine ⟨?_, ?_, fun E K => ?run⟩
  case run =>
    simp only [cc0__v_kernel_eq_skeleton]; unfold cc0__v_kernel_skel
    unfold owns
    iintro ⟨⟨%f0, %hf0, H0⟩, ⟨%f1, %hf1, H1⟩, ⟨%f2, %hf2, H2⟩, ⟨%dO, %fO, -, HO⟩, ⟨%fS, %hfS, HS⟩, Hk⟩
    obtain rfl := harg2.eq_unread hf0; obtain rfl := harg3.eq_unread hf1; obtain rfl := harg4.eq_unread hf2; obtain rfl := harg6.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.KernelIdeal.Gen

end
-- ==== Proof.KI.Pieces0.lean ====
/-
  What the pieces a body run of region 0 recorded amount to: they cover their buffer, and read back they are the
  accumulator's update — zero plus the partial product at the first column block, the previous sum plus the partial
  product afterwards — and, at the last column block, the output tile computed from the finished sum.
-/
import proofs.«170811_j8761733284269_2_alg».proof.Proof.KI.Run0C
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover0_A (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : cond0_0 i) (hc1 : ¬cond0_1 i) (x0 : Vec F S512x256 .f32) (x1 : Vec F S4096x256 .bf16) (x2 : Vec F S1x4096 .f32) (y : S512x4096.Idx) : ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S512x4096.size (by sl_kernel_rfl) y
theorem scover0_B (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : ¬cond0_0 i) (hc1 : ¬cond0_1 i) (x0 : Vec F S512x256 .f32) (x1 : Vec F S4096x256 .bf16) (x2 : Vec F S1x4096 .f32) (xs : Vec F S512x4096 .f32) (y : S512x4096.Idx) : ∃ pc ∈ (kernelRun0_B c i arg2 harg2 arg3 harg3 arg4 harg4 arg5 harg5 arg6 harg6 hc0 hc1 x0 x1 x2 xs).1, y ∈ pc.1.set :=
  View.cover_of_tiledL (kernelRun0_B c i arg2 harg2 arg3 harg3 arg4 harg4 arg5 harg5 arg6 harg6 hc0 hc1 x0 x1 x2 xs).1 S512x4096.size (by sl_kernel_rfl) y
theorem scover0_C (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : ¬cond0_0 i) (hc1 : cond0_1 i) (x0 : Vec F S512x256 .f32) (x1 : Vec F S4096x256 .bf16) (x2 : Vec F S1x4096 .f32) (xs : Vec F S512x4096 .f32) (y : S512x4096.Idx) : ∃ pc ∈ (kernelRun0_C c i arg2 harg2 arg3 harg3 arg4 harg4 arg5 harg5 arg6 harg6 hc0 hc1 x0 x1 x2 xs).2.1, y ∈ pc.1.set :=
  View.cover_of_tiledL (kernelRun0_C c i arg2 harg2 arg3 harg3 arg4 harg4 arg5 harg5 arg6 harg6 hc0 hc1 x0 x1 x2 xs).2.1 S512x4096.size (by sl_kernel_rfl) y
theorem ocover0_C (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : ¬cond0_0 i) (hc1 : cond0_1 i) (x0 : Vec F S512x256 .f32) (x1 : Vec F S4096x256 .bf16) (x2 : Vec F S1x4096 .f32) (xs : Vec F S512x4096 .f32) (y : S512x4096.Idx) : ∃ pc ∈ (kernelRun0_C c i arg2 harg2 arg3 harg3 arg4 harg4 arg5 harg5 arg6 harg6 hc0 hc1 x0 x1 x2 xs).1, y ∈ pc.1.set :=
  View.cover_of_tiledL (kernelRun0_C c i arg2 harg2 arg3 harg3 arg4 harg4 arg5 harg5 arg6 harg6 hc0 hc1 x0 x1 x2 xs).1 S512x4096.size (by sl_kernel_rfl) y

/-- The first column block leaves zero plus its partial product in the scratch. -/
theorem sval0_A (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : cond0_0 i) (hc1 : ¬cond0_1 i) (x0 : Vec F S512x256 .f32) (x1 : Vec F S4096x256 .bf16) (x2 : Vec F S1x4096 .f32) :
    VS0.read (Elt F) (VS0.writes (Elt F) VS0.junk (kernelRun0_A c i arg2 harg2 arg3 harg3 arg4 harg4 arg5 harg5 arg6 harg6 hc0 hc1 x0 x1 x2).1) = k0_pay2 x0 x1 k0_pay1 := by
  have hz : (![0, 0] : Fin 2 → Nat) = fun _ => 0 := by funext a; match a with | ⟨0, _⟩ => rfl | ⟨1, _⟩ => rfl
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S512x4096) hz]
  simp only [View.readAt_eq_ld, harg2.read_unread, harg3.read_unread, harg4.read_unread, harg5.read_unread, harg6.read_unread, View.ld_unit_zero (S := S512x256) hz, View.ld_unit_zero (S := S4096x256) hz, View.ld_unit_zero (S := S1x4096) hz, View.ld_unit_zero (S := S512x4096) hz, View.readCov_unit_zero (S := S512x4096) _ hz]

/-- A middle column block leaves the previous sum plus its partial product. -/
theorem sval0_B (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : ¬cond0_0 i) (hc1 : ¬cond0_1 i) (x0 : Vec F S512x256 .f32) (x1 : Vec F S4096x256 .bf16) (x2 : Vec F S1x4096 .f32) (xs : Vec F S512x4096 .f32) :
    VS0.read (Elt F) (VS0.writes (Elt F) VS0.junk (kernelRun0_B c i arg2 harg2 arg3 harg3 arg4 harg4 arg5 harg5 arg6 harg6 hc0 hc1 x0 x1 x2 xs).1) = k0_pay2 x0 x1 xs := by
  have hz : (![0, 0] : Fin 2 → Nat) = fun _ => 0 := by funext a; match a with | ⟨0, _⟩ => rfl | ⟨1, _⟩ => rfl
  rw [View.read_writes_eq_canon _ _ _ (scover0_B c i arg2 harg2 arg3 harg3 arg4 harg4 arg5 harg5 arg6 harg6 hc0 hc1 x0 x1 x2 xs)]
  unfold kernelRun0_B
  dsimp only
  sl_unfold_words
  rw [View.canon_unit_zero (S := S512x4096) hz]
  simp only [View.readAt_eq_ld, harg2.read_unread, harg3.read_unread, harg4.read_unread, harg5.read_unread, harg6.read_unread, View.ld_unit_zero (S := S512x256) hz, View.ld_unit_zero (S := S4096x256) hz, View.ld_unit_zero (S := S1x4096) hz, View.ld_unit_zero (S := S512x4096) hz, View.readCov_unit_zero (S := S512x4096) _ hz]

/-- So does the last column block, -/
theorem sval0_C (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : ¬cond0_0 i) (hc1 : cond0_1 i) (x0 : Vec F S512x256 .f32) (x1 : Vec F S4096x256 .bf16) (x2 : Vec F S1x4096 .f32) (xs : Vec F S512x4096 .f32) :
    VS0.read (Elt F) (VS0.writes (Elt F) VS0.junk (kernelRun0_C c i arg2 harg2 arg3 harg3 arg4 harg4 arg5 harg5 arg6 harg6 hc0 hc1 x0 x1 x2 xs).2.1) = k0_pay2 x0 x1 xs := by
  have hz : (![0, 0] : Fin 2 → Nat) = fun _ => 0 := by funext a; match a with | ⟨0, _⟩ => rfl | ⟨1, _⟩ => rfl
  rw [View.read_writes_eq_canon _ _ _ (scover0_C c i arg2 harg2 arg3 harg3 arg4 harg4 arg5 harg5 arg6 harg6 hc0 hc1 x0 x1 x2 xs)]
  unfold kernelRun0_C
  dsimp only
  sl_unfold_words
  rw [View.canon_unit_zero (S := S512x4096) hz]
  simp only [View.readAt_eq_ld, harg2.read_unread, harg3.read_unread, harg4.read_unread, harg5.read_unread, harg6.read_unread, View.ld_unit_zero (S := S512x256) hz, View.ld_unit_zero (S := S4096x256) hz, View.ld_unit_zero (S := S1x4096) hz, View.ld_unit_zero (S := S512x4096) hz, View.readCov_unit_zero (S := S512x4096) _ hz]

/-- and it writes the output tile from that finished sum. -/
theorem oval0_C (c : Dev nD) (i : grid0.Coords) (arg2 : Memref sig .tc .vmem S512x256 .f32) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S512x4096 .bf16) (harg5 : arg5.IsWhole) (arg6 : Memref sig .tc .vmem S512x4096 .f32) (harg6 : arg6.IsWhole) (hc0 : ¬cond0_0 i) (hc1 : cond0_1 i) (x0 : Vec F S512x256 .f32) (x1 : Vec F S4096x256 .bf16) (x2 : Vec F S1x4096 .f32) (xs : Vec F S512x4096 .f32) :
    VO0.read (Elt F) (VO0.writes (Elt F) VO0.junk (kernelRun0_C c i arg2 harg2 arg3 harg3 arg4 harg4 arg5 harg5 arg6 harg6 hc0 hc1 x0 x1 x2 xs).1) = k0_pay3 (k0_pay2 x0 x1 xs) x2 := by
  have hz : (![0, 0] : Fin 2 → Nat) = fun _ => 0 := by funext a; match a with | ⟨0, _⟩ => rfl | ⟨1, _⟩ => rfl
  rw [View.read_writes_eq_canon _ _ _ (ocover0_C c i arg2 harg2 arg3 harg3 arg4 harg4 arg5 harg5 arg6 harg6 hc0 hc1 x0 x1 x2 xs)]
  unfold kernelRun0_C
  dsimp only
  sl_unfold_words
  rw [View.canon_unit_zero (S := S512x4096) hz]
  simp only [View.readAt_eq_ld, harg2.read_unread, harg3.read_unread, harg4.read_unread, harg5.read_unread, harg6.read_unread, View.ld_unit_zero (S := S512x256) hz, View.ld_unit_zero (S := S4096x256) hz, View.ld_unit_zero (S := S1x4096) hz, View.ld_unit_zero (S := S512x4096) hz, View.readCov_unit_zero (S := S512x4096) _ hz]

end Cert.KernelIdeal.Gen

end
-- ==== Proof.KI.Body0.lean ====
/-
  The body obligation of region 0: at every grid point the body, called on the current staging buffers, takes the
  region invariant before the point to the invariant after it. The column block decides the case: the first of a
  row tile resets the accumulator, a middle one adds to it, the last adds to it and writes the output tile; the
  invariant hands the body the accumulator at what the point before left and takes it back at this point's sum.
-/
import proofs.«170811_j8761733284269_2_alg».proof.Proof.KI.Pieces0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The accumulator after a point that starts a row tile, and after any other point, at the point itself. -/
theorem acc0_at_reset (c : Dev nD) (t : Fin cfg0.N) (h0 : t.val % 16 = 0) :
    acc0 V c t.val t.isLt = k0_pay2 (iblk0 V c 0 t) (iblk0 V c 1 t) k0_pay1 := by
  obtain ⟨n, hn⟩ := t; exact acc0_reset V c n hn h0
theorem acc0_at_step (c : Dev nD) (t : Fin cfg0.N) (h0 : ¬t.val % 16 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact acc0_step V c n hn h0

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (acc0 V c n hn) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop((owns (c : Thread nD τ) scM0 fullShare (acc0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl
theorem PhiS0_castSucc (c : Dev nD) (t : Fin cfg0.N) :
    (dat0 V c).Φ t.castSucc = PhiS0 V c t.val (Nat.le_of_lt t.isLt) := by
  dsimp only [dat0]; simp only [Fin.coe_castSucc]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [acc0_at_reset V c t h0]
    by_cases hz : t.val = 0
    ·
      rw [PhiS0_castSucc V c t, PhiS0_zero V c _ _ hz, PhiA0_eq]
      iintro ⟨⟨⟨HS, Hrest⟩, Hg⟩, Ho, ⟨%d0, H0⟩, ⟨%d1, H1⟩, ⟨%d2, H2⟩, ⟨%dO, HO⟩⟩
      iapply ((kernelRun0_A c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t)).2 _ Set.univ _)
      isplitl [H0]; · iexact H0
      isplitl [H1]; · iexact H1
      isplitl [H2]; · iexact H2
      isplitl [HO]; · iexact HO
      isplitl [HS]; · iexact HS
      iintro ⟨H0, H1, H2, HO, ⟨%es, HS⟩⟩
      isplitl [HS Hrest Hg]
      · isplitl [HS Hrest]
        · isplitl [HS]
          · unfold owns; iexists _; isplitr
            swap; · iexact HS
            ipureintro
            exact (View.read_writes_of_cover _ _ VS0 VS0.junk _ (scover0_A c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t))).trans (sval0_A c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t))
          iexact Hrest
        iexact Hg
      isplitl [Ho]; · iexact Ho
      isplitl [H0]; · iexact H0
      isplitl [H1]; · iexact H1
      isplitl [H2]; · iexact H2
      iexists _; iexact HO
    ·
      rw [PhiS0_castSucc V c t, PhiS0_pos V c _ _ hz]
      iintro ⟨⟨⟨HS, Hrest⟩, Hg⟩, Ho, ⟨%d0, H0⟩, ⟨%d1, H1⟩, ⟨%d2, H2⟩, ⟨%dO, HO⟩⟩
      iapply ((kernelRun0_A c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t)).2 _ Set.univ _)
      isplitl [H0]; · iexact H0
      isplitl [H1]; · iexact H1
      isplitl [H2]; · iexact H2
      isplitl [HO]; · iexact HO
      isplitl [HS]; · iexists _; iexact HS
      iintro ⟨H0, H1, H2, HO, ⟨%es, HS⟩⟩
      isplitl [HS Hrest Hg]
      · isplitl [HS Hrest]
        · isplitl [HS]
          · unfold owns; iexists _; isplitr
            swap; · iexact HS
            ipureintro
            exact (View.read_writes_of_cover _ _ VS0 VS0.junk _ (scover0_A c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t))).trans (sval0_A c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t))
          iexact Hrest
        iexact Hg
      isplitl [Ho]; · iexact Ho
      isplitl [H0]; · iexact H0
      isplitl [H1]; · iexact H1
      isplitl [H2]; · iexact H2
      iexists _; iexact HO
  · have hz : t.val ≠ 0 := fun e => h0 (by rw [e])
    have hc0 : ¬cond0_0 (grid0.coords t) := fun h => h0 ((hcond0_0 t).mp h)
    rw [acc0_at_step V c t h0]
    by_cases h1 : t.val % 16 = 15
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      unfold fin0
      rw [acc0_at_step V c t h0]
      rw [PhiS0_castSucc V c t, PhiS0_pos V c _ _ hz]
      iintro ⟨⟨⟨HS, Hrest⟩, Hg⟩, Ho, ⟨%d0, H0⟩, ⟨%d1, H1⟩, ⟨%d2, H2⟩, ⟨%dO, HO⟩⟩
      iapply ((kernelRun0_C c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) (acc0 V c (t.val - 1) (Nat.lt_of_le_of_lt (Nat.sub_le _ _) t.isLt))).2.2 Set.univ _)
      isplitl [H0]; · iexact H0
      isplitl [H1]; · iexact H1
      isplitl [H2]; · iexact H2
      isplitl [HO]; · iexists _; iexact HO
      isplitl [HS]; · iexact HS
      iintro ⟨H0, H1, H2, ⟨%eO, HO⟩, ⟨%es, HS⟩⟩
      isplitl [HS Hrest Hg]
      · isplitl [HS Hrest]
        · isplitl [HS]
          · unfold owns; iexists _; isplitr
            swap; · iexact HS
            ipureintro
            exact (View.read_writes_of_cover _ _ VS0 VS0.junk _ (scover0_C c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) (acc0 V c (t.val - 1) (Nat.lt_of_le_of_lt (Nat.sub_le _ _) t.isLt)))).trans (sval0_C c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) (acc0 V c (t.val - 1) (Nat.lt_of_le_of_lt (Nat.sub_le _ _) t.isLt)))
          iexact Hrest
        iexact Hg
      isplitl [Ho]; · iexact Ho
      isplitl [H0]; · iexact H0
      isplitl [H1]; · iexact H1
      isplitl [H2]; · iexact H2
      unfold owns; iexists _; isplitr
      swap; · iexact HO
      ipureintro
      exact (View.read_writes_of_cover _ _ VO0 VO0.junk _ (ocover0_C c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) (acc0 V c (t.val - 1) (Nat.lt_of_le_of_lt (Nat.sub_le _ _) t.isLt)))).trans (oval0_C c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) (acc0 V c (t.val - 1) (Nat.lt_of_le_of_lt (Nat.sub_le _ _) t.isLt)))
    · have hc1 : ¬cond0_1 (grid0.coords t) := fun h => h1 ((hcond0_1 t).mp h)
      rw [Dat.leavesExact_idle (dat0 V c) 3 t (idleAt0_3 t hc1) (noFlush0_3 t hc1)]
      rw [PhiS0_castSucc V c t, PhiS0_pos V c _ _ hz]
      iintro ⟨⟨⟨HS, Hrest⟩, Hg⟩, Ho, ⟨%d0, H0⟩, ⟨%d1, H1⟩, ⟨%d2, H2⟩, ⟨%dO, HO⟩⟩
      iapply ((kernelRun0_B c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) (acc0 V c (t.val - 1) (Nat.lt_of_le_of_lt (Nat.sub_le _ _) t.isLt))).2 _ Set.univ _)
      isplitl [H0]; · iexact H0
      isplitl [H1]; · iexact H1
      isplitl [H2]; · iexact H2
      isplitl [HO]; · iexact HO
      isplitl [HS]; · iexact HS
      iintro ⟨H0, H1, H2, HO, ⟨%es, HS⟩⟩
      isplitl [HS Hrest Hg]
      · isplitl [HS Hrest]
        · isplitl [HS]
          · unfold owns; iexists _; isplitr
            swap; · iexact HS
            ipureintro
            exact (View.read_writes_of_cover _ _ VS0 VS0.junk _ (scover0_B c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) (acc0 V c (t.val - 1) (Nat.lt_of_le_of_lt (Nat.sub_le _ _) t.isLt)))).trans (sval0_B c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) (acc0 V c (t.val - 1) (Nat.lt_of_le_of_lt (Nat.sub_le _ _) t.isLt)))
          iexact Hrest
        iexact Hg
      isplitl [Ho]; · iexact Ho
      isplitl [H0]; · iexact H0
      isplitl [H1]; · iexact H1
      isplitl [H2]; · iexact H2
      iexists _; iexact HO

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, Hrest⟩, Hg⟩
  isplitl [HS Hrest]
  · isplitl [HS]
    · iexists _; iexact HS
    iexact Hrest
  iexact Hg

end

end Cert.KernelIdeal.Gen

end
-- ==== Proof.KI.Runs1.lean ====
/-
  What the body runs of region 1 share: each input window's staging buffer holds its block at every point; the
  body's two branch conditions on the column-block coordinate in closed form over the grid (the first column block
  of a row tile resets the accumulator, the last one writes the output tile); where the output window is idle; the
  class invariant with the accumulator scratch split off the other scoped buffers.
-/
import proofs.«170811_j8761733284269_2_alg».proof.Proof.KI.Blocks

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Input window 0's current staging buffer holds its block at every point, fetched there or not: unfetched, the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not: unfetched, the
    block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not: unfetched, the
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

/-- Input window 3's current staging buffer holds its block at every point, fetched there or not: unfetched, the
    block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

/-- Input window 4's current staging buffer holds its block at every point, fetched there or not: unfetched, the
    block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

end

/-- The first branch's condition, from the grid coordinates: the column block is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- The second branch's condition: the column block is the last. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last column block the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- One staging buffer of the output window and the scratch, as views through which contents are stated. -/
abbrev VO1 : View sig .tc .vmem S256x4096 .f32 := (Memref.whole cc1_stg5_0 : Memref sig .tc .vmem S256x4096 .f32).view
abbrev VS1 : View sig .tc .vmem S256x4096 .f32 := (scM1).view
abbrev ms1_0 (t : Fin cfg1.N) : Memref sig .tc .vmem S256x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x4096 .f32 := win1_5.stage (cfg1.slots t 5)
abbrev hs1_5 (t : Fin cfg1.N) : (ms1_5 t).IsWhole := hstage1_5 ((cfg1.slots t 5).cast nbuf1_5)

/-- The class invariant with the accumulator scratch owned at some contents beside the other scoped buffers. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole]
  rfl

end Cert.KernelIdeal.Gen

end
-- ==== Proof.KI.Run1A.lean ====
/-
  The body of region 1 at the first column block of a row tile (the accumulator is reset, the output tile is not written): on whole staging buffers, the inputs at their
  contents, the body runs to its end, hands every input back as it was, and leaves the accumulator scratch holding
  the stores it made, recorded as a list of pieces that the run itself determines.
-/
import proofs.«170811_j8761733284269_2_alg».proof.Proof.KI.Runs1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : cond1_0 i) (hc1 : ¬cond1_1 i)
    (x0 : Vec F S256x256 .bf16) (x1 : Vec F S4096x256 .bf16) (x2 : Vec F S1x4096 .f32) (x3 : Vec F S1x4096 .f32) (x4 : Vec F S1x4096 .f32) :
    { LS : List (View.Piece (Elt F) S256x4096 .f32) //
      ∀ (xi : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__y_kernel i arg2 harg2 arg3 harg3 arg4 harg4 arg5 harg5 arg6 harg6 arg7 harg7 arg8 harg8) K } := by
  refine ⟨?_, fun xi E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%dS, %fS, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; · ipureintro; exact harg7.read_unread _
      iexact HO
    iexists _; iexact HS

end Cert.KernelIdeal.Gen

end
-- ==== Proof.KI.Run1B.lean ====
/-
  The body of region 1 at a middle column block (the accumulator is added to, the output tile is not written): on whole staging buffers, the inputs at their
  contents, the body runs to its end, hands every input back as it was, and leaves the accumulator scratch holding
  the stores it made, recorded as a list of pieces that the run itself determines.
-/
import proofs.«170811_j8761733284269_2_alg».proof.Proof.KI.Run1A

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : ¬cond1_0 i) (hc1 : ¬cond1_1 i)
    (x0 : Vec F S256x256 .bf16) (x1 : Vec F S4096x256 .bf16) (x2 : Vec F S1x4096 .f32) (x3 : Vec F S1x4096 .f32) (x4 : Vec F S1x4096 .f32) (xs : Vec F S256x4096 .f32) :
    { LS : List (View.Piece (Elt F) S256x4096 .f32) //
      ∀ (xi : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__y_kernel i arg2 harg2 arg3 harg3 arg4 harg4 arg5 harg5 arg6 harg6 arg7 harg7 arg8 harg8) K } := by
  refine ⟨?_, fun xi E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%fO, %hfO, HO⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfO; obtain rfl := harg8.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]
    · iexists _; isplitr; · ipureintro; exact harg7.read_unread _
      iexact HO
    iexists _; iexact HS

end Cert.KernelIdeal.Gen

end
-- ==== Proof.KI.Run1C.lean ====
/-
  The body of region 1 at the last column block (the accumulator is added to, and the output tile is written from it): on whole staging buffers, the inputs at their
  contents, the body runs to its end, hands every input back as it was, and leaves the accumulator scratch and the output buffer holding
  the stores it made, recorded as a list of pieces that the run itself determines.
-/
import proofs.«170811_j8761733284269_2_alg».proof.Proof.KI.Run1B

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : ¬cond1_0 i) (hc1 : cond1_1 i)
    (x0 : Vec F S256x256 .bf16) (x1 : Vec F S4096x256 .bf16) (x2 : Vec F S1x4096 .f32) (x3 : Vec F S1x4096 .f32) (x4 : Vec F S1x4096 .f32) (xs : Vec F S256x4096 .f32) :
    Σ' (LO : List (View.Piece (Elt F) S256x4096 .f32)), { LS : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc1__y_kernel i arg2 harg2 arg3 harg3 arg4 harg4 arg5 harg5 arg6 harg6 arg7 harg7 arg8 harg8) K } := by
  refine ⟨?_, ?_, fun E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%dO, %fO, -, HO⟩, ⟨%fS, %hfS, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfS
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HO]; · iexists _; iexact HO
    iexists _; iexact HS

end Cert.KernelIdeal.Gen

end
-- ==== Proof.KI.Pieces1.lean ====
/-
  What the pieces a body run of region 1 recorded amount to: they cover their buffer, and read back they are the
  accumulator's update — zero plus the partial product at the first column block, the previous sum plus the partial
  product afterwards — and, at the last column block, the output tile computed from the finished sum.
-/
import proofs.«170811_j8761733284269_2_alg».proof.Proof.KI.Run1C
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover1_A (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : cond1_0 i) (hc1 : ¬cond1_1 i) (x0 : Vec F S256x256 .bf16) (x1 : Vec F S4096x256 .bf16) (x2 : Vec F S1x4096 .f32) (x3 : Vec F S1x4096 .f32) (x4 : Vec F S1x4096 .f32) (y : S256x4096.Idx) : ∃ pc ∈ (kernelRun1_A c i arg2 harg2 arg3 harg3 arg4 harg4 arg5 harg5 arg6 harg6 arg7 harg7 arg8 harg8 hc0 hc1 x0 x1 x2 x3 x4).1, y ∈ pc.1.set :=
  View.cover_of_tiledL (kernelRun1_A c i arg2 harg2 arg3 harg3 arg4 harg4 arg5 harg5 arg6 harg6 arg7 harg7 arg8 harg8 hc0 hc1 x0 x1 x2 x3 x4).1 S256x4096.size (by sl_kernel_rfl) y
theorem scover1_B (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : ¬cond1_0 i) (hc1 : ¬cond1_1 i) (x0 : Vec F S256x256 .bf16) (x1 : Vec F S4096x256 .bf16) (x2 : Vec F S1x4096 .f32) (x3 : Vec F S1x4096 .f32) (x4 : Vec F S1x4096 .f32) (xs : Vec F S256x4096 .f32) (y : S256x4096.Idx) : ∃ pc ∈ (kernelRun1_B c i arg2 harg2 arg3 harg3 arg4 harg4 arg5 harg5 arg6 harg6 arg7 harg7 arg8 harg8 hc0 hc1 x0 x1 x2 x3 x4 xs).1, y ∈ pc.1.set :=
  View.cover_of_tiledL (kernelRun1_B c i arg2 harg2 arg3 harg3 arg4 harg4 arg5 harg5 arg6 harg6 arg7 harg7 arg8 harg8 hc0 hc1 x0 x1 x2 x3 x4 xs).1 S256x4096.size (by sl_kernel_rfl) y
theorem scover1_C (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : ¬cond1_0 i) (hc1 : cond1_1 i) (x0 : Vec F S256x256 .bf16) (x1 : Vec F S4096x256 .bf16) (x2 : Vec F S1x4096 .f32) (x3 : Vec F S1x4096 .f32) (x4 : Vec F S1x4096 .f32) (xs : Vec F S256x4096 .f32) (y : S256x4096.Idx) : ∃ pc ∈ (kernelRun1_C c i arg2 harg2 arg3 harg3 arg4 harg4 arg5 harg5 arg6 harg6 arg7 harg7 arg8 harg8 hc0 hc1 x0 x1 x2 x3 x4 xs).2.1, y ∈ pc.1.set :=
  View.cover_of_tiledL (kernelRun1_C c i arg2 harg2 arg3 harg3 arg4 harg4 arg5 harg5 arg6 harg6 arg7 harg7 arg8 harg8 hc0 hc1 x0 x1 x2 x3 x4 xs).2.1 S256x4096.size (by sl_kernel_rfl) y
theorem ocover1_C (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : ¬cond1_0 i) (hc1 : cond1_1 i) (x0 : Vec F S256x256 .bf16) (x1 : Vec F S4096x256 .bf16) (x2 : Vec F S1x4096 .f32) (x3 : Vec F S1x4096 .f32) (x4 : Vec F S1x4096 .f32) (xs : Vec F S256x4096 .f32) (y : S256x4096.Idx) : ∃ pc ∈ (kernelRun1_C c i arg2 harg2 arg3 harg3 arg4 harg4 arg5 harg5 arg6 harg6 arg7 harg7 arg8 harg8 hc0 hc1 x0 x1 x2 x3 x4 xs).1, y ∈ pc.1.set :=
  View.cover_of_tiledL (kernelRun1_C c i arg2 harg2 arg3 harg3 arg4 harg4 arg5 harg5 arg6 harg6 arg7 harg7 arg8 harg8 hc0 hc1 x0 x1 x2 x3 x4 xs).1 S256x4096.size (by sl_kernel_rfl) y

/-- The first column block leaves zero plus its partial product in the scratch. -/
theorem sval1_A (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : cond1_0 i) (hc1 : ¬cond1_1 i) (x0 : Vec F S256x256 .bf16) (x1 : Vec F S4096x256 .bf16) (x2 : Vec F S1x4096 .f32) (x3 : Vec F S1x4096 .f32) (x4 : Vec F S1x4096 .f32) :
    VS1.read (Elt F) (VS1.writes (Elt F) VS1.junk (kernelRun1_A c i arg2 harg2 arg3 harg3 arg4 harg4 arg5 harg5 arg6 harg6 arg7 harg7 arg8 harg8 hc0 hc1 x0 x1 x2 x3 x4).1) = k1_pay2 x0 x1 k1_pay1 := by
  have hz : (![0, 0] : Fin 2 → Nat) = fun _ => 0 := by funext a; match a with | ⟨0, _⟩ => rfl | ⟨1, _⟩ => rfl
  rw [View.read_writes_eq_canon _ _ _ (scover1_A c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S256x4096) hz]
  simp only [View.readAt_eq_ld, harg2.read_unread, harg3.read_unread, harg4.read_unread, harg5.read_unread, harg6.read_unread, harg7.read_unread, harg8.read_unread, View.ld_unit_zero (S := S256x256) hz, View.ld_unit_zero (S := S4096x256) hz, View.ld_unit_zero (S := S1x4096) hz, View.ld_unit_zero (S := S256x4096) hz, View.readCov_unit_zero (S := S256x4096) _ hz]

/-- A middle column block leaves the previous sum plus its partial product. -/
theorem sval1_B (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : ¬cond1_0 i) (hc1 : ¬cond1_1 i) (x0 : Vec F S256x256 .bf16) (x1 : Vec F S4096x256 .bf16) (x2 : Vec F S1x4096 .f32) (x3 : Vec F S1x4096 .f32) (x4 : Vec F S1x4096 .f32) (xs : Vec F S256x4096 .f32) :
    VS1.read (Elt F) (VS1.writes (Elt F) VS1.junk (kernelRun1_B c i arg2 harg2 arg3 harg3 arg4 harg4 arg5 harg5 arg6 harg6 arg7 harg7 arg8 harg8 hc0 hc1 x0 x1 x2 x3 x4 xs).1) = k1_pay2 x0 x1 xs := by
  have hz : (![0, 0] : Fin 2 → Nat) = fun _ => 0 := by funext a; match a with | ⟨0, _⟩ => rfl | ⟨1, _⟩ => rfl
  rw [View.read_writes_eq_canon _ _ _ (scover1_B c i arg2 harg2 arg3 harg3 arg4 harg4 arg5 harg5 arg6 harg6 arg7 harg7 arg8 harg8 hc0 hc1 x0 x1 x2 x3 x4 xs)]
  unfold kernelRun1_B
  dsimp only
  sl_unfold_words
  rw [View.canon_unit_zero (S := S256x4096) hz]
  simp only [View.readAt_eq_ld, harg2.read_unread, harg3.read_unread, harg4.read_unread, harg5.read_unread, harg6.read_unread, harg7.read_unread, harg8.read_unread, View.ld_unit_zero (S := S256x256) hz, View.ld_unit_zero (S := S4096x256) hz, View.ld_unit_zero (S := S1x4096) hz, View.ld_unit_zero (S := S256x4096) hz, View.readCov_unit_zero (S := S256x4096) _ hz]

/-- So does the last column block, -/
theorem sval1_C (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : ¬cond1_0 i) (hc1 : cond1_1 i) (x0 : Vec F S256x256 .bf16) (x1 : Vec F S4096x256 .bf16) (x2 : Vec F S1x4096 .f32) (x3 : Vec F S1x4096 .f32) (x4 : Vec F S1x4096 .f32) (xs : Vec F S256x4096 .f32) :
    VS1.read (Elt F) (VS1.writes (Elt F) VS1.junk (kernelRun1_C c i arg2 harg2 arg3 harg3 arg4 harg4 arg5 harg5 arg6 harg6 arg7 harg7 arg8 harg8 hc0 hc1 x0 x1 x2 x3 x4 xs).2.1) = k1_pay2 x0 x1 xs := by
  have hz : (![0, 0] : Fin 2 → Nat) = fun _ => 0 := by funext a; match a with | ⟨0, _⟩ => rfl | ⟨1, _⟩ => rfl
  rw [View.read_writes_eq_canon _ _ _ (scover1_C c i arg2 harg2 arg3 harg3 arg4 harg4 arg5 harg5 arg6 harg6 arg7 harg7 arg8 harg8 hc0 hc1 x0 x1 x2 x3 x4 xs)]
  unfold kernelRun1_C
  dsimp only
  sl_unfold_words
  rw [View.canon_unit_zero (S := S256x4096) hz]
  simp only [View.readAt_eq_ld, harg2.read_unread, harg3.read_unread, harg4.read_unread, harg5.read_unread, harg6.read_unread, harg7.read_unread, harg8.read_unread, View.ld_unit_zero (S := S256x256) hz, View.ld_unit_zero (S := S4096x256) hz, View.ld_unit_zero (S := S1x4096) hz, View.ld_unit_zero (S := S256x4096) hz, View.readCov_unit_zero (S := S256x4096) _ hz]

/-- and it writes the output tile from that finished sum. -/
theorem oval1_C (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .f32) (harg7 : arg7.IsWhole) (arg8 : Memref sig .tc .vmem S256x4096 .f32) (harg8 : arg8.IsWhole) (hc0 : ¬cond1_0 i) (hc1 : cond1_1 i) (x0 : Vec F S256x256 .bf16) (x1 : Vec F S4096x256 .bf16) (x2 : Vec F S1x4096 .f32) (x3 : Vec F S1x4096 .f32) (x4 : Vec F S1x4096 .f32) (xs : Vec F S256x4096 .f32) :
    VO1.read (Elt F) (VO1.writes (Elt F) VO1.junk (kernelRun1_C c i arg2 harg2 arg3 harg3 arg4 harg4 arg5 harg5 arg6 harg6 arg7 harg7 arg8 harg8 hc0 hc1 x0 x1 x2 x3 x4 xs).1) = k1_pay3 (k1_pay2 x0 x1 xs) x2 x3 x4 := by
  have hz : (![0, 0] : Fin 2 → Nat) = fun _ => 0 := by funext a; match a with | ⟨0, _⟩ => rfl | ⟨1, _⟩ => rfl
  rw [View.read_writes_eq_canon _ _ _ (ocover1_C c i arg2 harg2 arg3 harg3 arg4 harg4 arg5 harg5 arg6 harg6 arg7 harg7 arg8 harg8 hc0 hc1 x0 x1 x2 x3 x4 xs)]
  unfold kernelRun1_C
  dsimp only
  sl_unfold_words
  rw [View.canon_unit_zero (S := S256x4096) hz]
  simp only [View.readAt_eq_ld, harg2.read_unread, harg3.read_unread, harg4.read_unread, harg5.read_unread, harg6.read_unread, harg7.read_unread, harg8.read_unread, View.ld_unit_zero (S := S256x256) hz, View.ld_unit_zero (S := S4096x256) hz, View.ld_unit_zero (S := S1x4096) hz, View.ld_unit_zero (S := S256x4096) hz, View.readCov_unit_zero (S := S256x4096) _ hz]

end Cert.KernelIdeal.Gen

end
-- ==== Proof.KI.Body1.lean ====
/-
  The body obligation of region 1: at every grid point the body, called on the current staging buffers, takes the
  region invariant before the point to the invariant after it. The column block decides the case: the first of a
  row tile resets the accumulator, a middle one adds to it, the last adds to it and writes the output tile; the
  invariant hands the body the accumulator at what the point before left and takes it back at this point's sum.
-/
import proofs.«170811_j8761733284269_2_alg».proof.Proof.KI.Pieces1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The accumulator after a point that starts a row tile, and after any other point, at the point itself. -/
theorem acc1_at_reset (c : Dev nD) (t : Fin cfg1.N) (h0 : t.val % 16 = 0) :
    acc1 V c t.val t.isLt = k1_pay2 (iblk1 V c 0 t) (iblk1 V c 1 t) k1_pay1 := by
  obtain ⟨n, hn⟩ := t; exact acc1_reset V c n hn h0
theorem acc1_at_step (c : Dev nD) (t : Fin cfg1.N) (h0 : ¬t.val % 16 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact acc1_step V c n hn h0

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop((owns (c : Thread nD τ) scM1 fullShare (acc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl
theorem PhiS1_castSucc (c : Dev nD) (t : Fin cfg1.N) :
    (dat1 V c).Φ t.castSucc = PhiS1 V c t.val (Nat.le_of_lt t.isLt) := by
  dsimp only [dat1]; simp only [Fin.coe_castSucc]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t hc1)]
    rw [acc1_at_reset V c t h0]
    by_cases hz : t.val = 0
    ·
      rw [PhiS1_castSucc V c t, PhiS1_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩, ⟨%dO, HO⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexact HS
      iintro ⟨H0, H1, H2, H3, H4, HO, ⟨%es, HS⟩⟩
      isplitl [HS Hrest Hg]
      · isplitl [HS Hrest]
        · isplitl [HS]
          · unfold owns; iexists _; isplitr
            swap; · iexact HS
            ipureintro
            exact (View.read_writes_of_cover _ _ VS1 VS1.junk _ (scover1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t))).trans (sval1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t))
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact HO
    ·
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%dO, HO⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexists _; iexact HS
      iintro ⟨H0, H1, H2, H3, H4, HO, ⟨%es, HS⟩⟩
      isplitl [HS Hrest Hg]
      · isplitl [HS Hrest]
        · isplitl [HS]
          · unfold owns; iexists _; isplitr
            swap; · iexact HS
            ipureintro
            exact (View.read_writes_of_cover _ _ VS1 VS1.junk _ (scover1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t))).trans (sval1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t))
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact HO
  · have hz : t.val ≠ 0 := fun e => h0 (by rw [e])
    have hc0 : ¬cond1_0 (grid1.coords t) := fun h => h0 ((hcond1_0 t).mp h)
    rw [acc1_at_step V c t h0]
    by_cases h1 : t.val % 16 = 15
    · have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5]
      unfold fin1
      rw [acc1_at_step V c t h0]
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%dO, HO⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t) (acc1 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [HO]; · iexists _; iexact HO
      isplitl [HS]; · iexact HS
      iintro ⟨H0, H1, H2, H3, H4, ⟨%eO, HO⟩, ⟨%es, HS⟩⟩
      isplitl [HS Hrest Hg]
      · isplitl [HS Hrest]
        · isplitl [HS]
          · unfold owns; iexists _; isplitr
            swap; · iexact HS
            ipureintro
            exact (View.read_writes_of_cover _ _ VS1 VS1.junk _ (scover1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t) (acc1 V c (t.val - 1) (Nat.lt_of_le_of_lt (Nat.sub_le _ _) t.isLt)))).trans (sval1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t) (acc1 V c (t.val - 1) (Nat.lt_of_le_of_lt (Nat.sub_le _ _) t.isLt)))
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact HO
      ipureintro
      exact (View.read_writes_of_cover _ _ VO1 VO1.junk _ (ocover1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t) (acc1 V c (t.val - 1) (Nat.lt_of_le_of_lt (Nat.sub_le _ _) t.isLt)))).trans (oval1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t) (acc1 V c (t.val - 1) (Nat.lt_of_le_of_lt (Nat.sub_le _ _) t.isLt)))
    · have hc1 : ¬cond1_1 (grid1.coords t) := fun h => h1 ((hcond1_1 t).mp h)
      rw [Dat.leavesExact_idle (dat1 V c) 5 t (idleAt1_5 t hc1) (noFlush1_5 t hc1)]
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%dO, HO⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t) (acc1 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HO]; · iexact HO
      isplitl [HS]; · iexact HS
      iintro ⟨H0, H1, H2, H3, H4, HO, ⟨%es, HS⟩⟩
      isplitl [HS Hrest Hg]
      · isplitl [HS Hrest]
        · isplitl [HS]
          · unfold owns; iexists _; isplitr
            swap; · iexact HS
            ipureintro
            exact (View.read_writes_of_cover _ _ VS1 VS1.junk _ (scover1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t) (acc1 V c (t.val - 1) (Nat.lt_of_le_of_lt (Nat.sub_le _ _) t.isLt)))).trans (sval1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (iblk1 V c 0 t) (iblk1 V c 1 t) (iblk1 V c 2 t) (iblk1 V c 3 t) (iblk1 V c 4 t) (acc1 V c (t.val - 1) (Nat.lt_of_le_of_lt (Nat.sub_le _ _) t.isLt)))
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact HO

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 512 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS, Hrest⟩, Hg⟩
  isplitl [HS Hrest]
  · isplitl [HS]
    · iexists _; iexact HS
    iexact Hrest
  iexact Hg

end

end Cert.KernelIdeal.Gen

end
-- ==== Proof.KI.Main.lean ====
/-
  The whole run of @main: the host stretch (the value third of the stacked weights and bias sliced out, the row
  vectors reshaped, the two weight matrices converted), then the two kernel regions one after the other. Between
  two items every unscoped buffer of a core is held at known contents: the launch memory, then the host stretch
  applied, then the first region's output array at what its write-backs leave, then the second's. Every weakly fair
  execution terminates without a fault; the result array ends at what the second region's write-backs leave and the
  seven argument arrays end as launched. Generic in the float instance.
-/
import proofs.«170811_j8761733284269_2_alg».proof.Proof.KI.Body0
import proofs.«170811_j8761733284269_2_alg».proof.Proof.KI.Body1
import proofs.«170811_j8761733284269_2_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Region 0's entry contents (after the host stretch), read at the TensorCore's references. -/
abbrev Ve1 : (c : Dev nD) → (b : Ref sig .tc) → Buf (Elt F) ((c : Thread nD τ).loc b) := fun c b => V1 m c b
/-- At region 0's exit: its arrays at what the pipeline leaves, every other buffer as entered. -/
def Wl2 (c : Dev nD) : Valuation τ sig (Elt F) :=
  Pipeline.withArrays spec0 c (V1 m c) fun w => (dat0 (Ve1 m) c).arrAt w cfg0.N
theorem Wl2_arr (c : Dev nD) (w : Fin cfg0.W) :
    Wl2 m c (Proc.devRef .tc (Pipeline.arrRef spec0 w)) = (dat0 (Ve1 m) c).arrAt w cfg0.N := by
  unfold Wl2; exact Pipeline.withArrays_arr spec0 launch0.win.arr_inj c _ _ w
theorem Wl2_of_ne (c : Dev nD) (b : Ref sig .tc) (hb : ∀ w, Pipeline.arrRef spec0 w ≠ b) :
    Wl2 m c (Proc.devRef .tc b) = V1 m c (Proc.devRef .tc b) := by
  unfold Wl2; exact Pipeline.withArrays_of_ne spec0 c _ _ b hb
abbrev Ve2 : (c : Dev nD) → (b : Ref sig .tc) → Buf (Elt F) ((c : Thread nD τ).loc b) := fun c b => Wl2 m c b
theorem hF0 (c : Dev nD) (w : Fin cfg0.W) : (dat0 (Ve1 m) c).arrAt w cfg0.N = Ve2 m c (Pipeline.arrRef spec0 w) :=
  (Wl2_arr m c w).symm
theorem hrest0 (c : Dev nD) : ∀ b, b ∉ Finset.univ.image (Pipeline.arrRef spec0) → Ve2 m c b = Ve1 m c b :=
  fun b hb => Wl2_of_ne m c b fun w e => hb (Finset.mem_image.mpr ⟨w, Finset.mem_univ _, e⟩)

/-- At region 1's exit, likewise over region 0's exit contents. -/
def Wl3 (c : Dev nD) : Valuation τ sig (Elt F) :=
  Pipeline.withArrays spec1 c (Wl2 m c) fun w => (dat1 (Ve2 m) c).arrAt w cfg1.N
theorem Wl3_arr (c : Dev nD) (w : Fin cfg1.W) :
    Wl3 m c (Proc.devRef .tc (Pipeline.arrRef spec1 w)) = (dat1 (Ve2 m) c).arrAt w cfg1.N := by
  unfold Wl3; exact Pipeline.withArrays_arr spec1 launch1.win.arr_inj c _ _ w
theorem Wl3_of_ne (c : Dev nD) (b : Ref sig .tc) (hb : ∀ w, Pipeline.arrRef spec1 w ≠ b) :
    Wl3 m c (Proc.devRef .tc b) = Wl2 m c (Proc.devRef .tc b) := by
  unfold Wl3; exact Pipeline.withArrays_of_ne spec1 c _ _ b hb
abbrev Ve3 : (c : Dev nD) → (b : Ref sig .tc) → Buf (Elt F) ((c : Thread nD τ).loc b) := fun c b => Wl3 m c b
theorem hF1 (c : Dev nD) (w : Fin cfg1.W) : (dat1 (Ve2 m) c).arrAt w cfg1.N = Ve3 m c (Pipeline.arrRef spec1 w) :=
  (Wl3_arr m c w).symm
theorem hrest1 (c : Dev nD) : ∀ b, b ∉ Finset.univ.image (Pipeline.arrRef spec1) → Ve3 m c b = Ve2 m c b :=
  fun b hb => Wl3_of_ne m c b fun w e => hb (Finset.mem_image.mpr ⟨w, Finset.mem_univ _, e⟩)

/-! ## The arguments end as launched, and the result is the second region's output array -/

theorem Wl3_main_arg0 (c : Dev nD) : Wl3 m c (Proc.devRef .tc main_arg0) = m ((c : Thread nD τ).loc main_arg0) :=
  calc Wl3 m c (Proc.devRef .tc main_arg0)
    _ = Wl2 m c (Proc.devRef .tc main_arg0) := Wl3_of_ne m c main_arg0 (by decide)
    _ = V1 m c (Proc.devRef .tc main_arg0) := (Wl2_arr m c 0).trans (((dat0 (Ve1 m) c).arrAt_in 0 rfl _).trans (A_eq0 (Ve1 m) c 0))
    _ = V0 m c (Proc.devRef .tc main_arg0) := V1_of m c main_arg0 (by decide)
    _ = m ((c : Thread nD τ).loc main_arg0) := rfl
theorem Wl3_main_arg1 (c : Dev nD) : Wl3 m c (Proc.devRef .tc main_arg1) = m ((c : Thread nD τ).loc main_arg1) :=
  calc Wl3 m c (Proc.devRef .tc main_arg1)
    _ = Wl2 m c (Proc.devRef .tc main_arg1) := Wl3_of_ne m c main_arg1 (by decide)
    _ = V1 m c (Proc.devRef .tc main_arg1) := Wl2_of_ne m c main_arg1 (by decide)
    _ = V0 m c (Proc.devRef .tc main_arg1) := V1_of m c main_arg1 (by decide)
    _ = m ((c : Thread nD τ).loc main_arg1) := rfl
theorem Wl3_main_arg2 (c : Dev nD) : Wl3 m c (Proc.devRef .tc main_arg2) = m ((c : Thread nD τ).loc main_arg2) :=
  calc Wl3 m c (Proc.devRef .tc main_arg2)
    _ = Wl2 m c (Proc.devRef .tc main_arg2) := Wl3_of_ne m c main_arg2 (by decide)
    _ = V1 m c (Proc.devRef .tc main_arg2) := Wl2_of_ne m c main_arg2 (by decide)
    _ = V0 m c (Proc.devRef .tc main_arg2) := V1_of m c main_arg2 (by decide)
    _ = m ((c : Thread nD τ).loc main_arg2) := rfl
theorem Wl3_main_arg3 (c : Dev nD) : Wl3 m c (Proc.devRef .tc main_arg3) = m ((c : Thread nD τ).loc main_arg3) :=
  calc Wl3 m c (Proc.devRef .tc main_arg3)
    _ = Wl2 m c (Proc.devRef .tc main_arg3) := Wl3_of_ne m c main_arg3 (by decide)
    _ = V1 m c (Proc.devRef .tc main_arg3) := Wl2_of_ne m c main_arg3 (by decide)
    _ = V0 m c (Proc.devRef .tc main_arg3) := V1_of m c main_arg3 (by decide)
    _ = m ((c : Thread nD τ).loc main_arg3) := rfl
theorem Wl3_main_arg4 (c : Dev nD) : Wl3 m c (Proc.devRef .tc main_arg4) = m ((c : Thread nD τ).loc main_arg4) :=
  calc Wl3 m c (Proc.devRef .tc main_arg4)
    _ = Wl2 m c (Proc.devRef .tc main_arg4) := Wl3_of_ne m c main_arg4 (by decide)
    _ = V1 m c (Proc.devRef .tc main_arg4) := Wl2_of_ne m c main_arg4 (by decide)
    _ = V0 m c (Proc.devRef .tc main_arg4) := V1_of m c main_arg4 (by decide)
    _ = m ((c : Thread nD τ).loc main_arg4) := rfl
theorem Wl3_main_arg5 (c : Dev nD) : Wl3 m c (Proc.devRef .tc main_arg5) = m ((c : Thread nD τ).loc main_arg5) :=
  calc Wl3 m c (Proc.devRef .tc main_arg5)
    _ = Wl2 m c (Proc.devRef .tc main_arg5) := Wl3_of_ne m c main_arg5 (by decide)
    _ = V1 m c (Proc.devRef .tc main_arg5) := Wl2_of_ne m c main_arg5 (by decide)
    _ = V0 m c (Proc.devRef .tc main_arg5) := V1_of m c main_arg5 (by decide)
    _ = m ((c : Thread nD τ).loc main_arg5) := rfl
theorem Wl3_main_arg6 (c : Dev nD) : Wl3 m c (Proc.devRef .tc main_arg6) = m ((c : Thread nD τ).loc main_arg6) :=
  calc Wl3 m c (Proc.devRef .tc main_arg6)
    _ = Wl2 m c (Proc.devRef .tc main_arg6) := Wl3_of_ne m c main_arg6 (by decide)
    _ = V1 m c (Proc.devRef .tc main_arg6) := Wl2_of_ne m c main_arg6 (by decide)
    _ = V0 m c (Proc.devRef .tc main_arg6) := V1_of m c main_arg6 (by decide)
    _ = m ((c : Thread nD τ).loc main_arg6) := rfl
theorem Wl3_main_v9 (c : Dev nD) : Wl3 m c (Proc.devRef .tc main_v9) = (dat1 (Ve2 m) c).arrAt 5 cfg1.N := Wl3_arr m c 5
/-- Region 1 finds, in its first window's array, what region 0's write-backs left. -/
theorem Ve2_main_v8 (c : Dev nD) : Ve2 m c main_v8 = (dat0 (Ve1 m) c).arrAt 3 cfg0.N := Wl2_arr m c 3
/-- Every other buffer region 1 reads is as the host stretch left it. -/
theorem Ve2_of_ne (c : Dev nD) (b : Ref sig .tc) (hb : ∀ w, Pipeline.arrRef spec0 w ≠ b) : Ve2 m c b = Ve1 m c b := Wl2_of_ne m c b hb

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (Ve1 m) c
  | ⟨1, _⟩ => fun c => dat1 (Ve2 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wl3 m c) ∗ ∃ r, prngReg c r)

/-! ## The regions as segments -/

set_option backward.isDefEq.respectTransparency.types false in
/-- Region 0 over the thread state: entered with every unscoped buffer at the boundary's contents, left with the
    region's arrays at what its write-backs leave and every other buffer as entered. Its arrays are split out of the
    unscoped buffers and put back; the generator register goes into the region invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (Wl2 m c) ∗ R c)
  X c := iprop(∃ r, prngReg c r)
  Y c := iprop(∃ r, prngReg c r)
  Z c := Pipeline.unscopedRest (Ix := Unit) (Name := ℕ) (U := UR sig nD τ) (Lvl := ℕ) spec0 c (Ve1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none, show (pdats m 0 c).Φ (Fin.last _) = (dat0 (Ve1 m) c).Φ (Fin.last cfg0.N) from rfl]
    have h := hout0 (Ve1 m) c
    unfold Pipeline.ΦA at h
    exact h.trans (by
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve1 m c) (Ve2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with the
    region's arrays at what its write-backs leave and every other buffer as entered. Its arrays are split out of the
    unscoped buffers and put back; the generator register goes into the region invariant and comes out; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve2 m) c).loose
  hwaits := Pipeline.hwaits_of_owed_zero _ _ _ _ L lv 1 fun _ _ => rfl
  pre c := iprop(StableHlo.held (c : Thread nD τ) (Pipeline.ucRefs τ sig) (Wl2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats m 1 c).Φ (Fin.last _) = (dat1 (Ve2 m) c).Φ (Fin.last cfg1.N) from rfl]
    have h := hout1 (Ve2 m) c
    unfold Pipeline.ΦA at h
    exact h.trans (by
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve2 m c) (Ve3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsM : List (Pipeline.Seg (pcfgs (F := F)) adm (pdats m) () defs₀ 𝒱₀ L lv) :=
  [ .host (hseg hostOps0 hostOps0_sub hostOps0_fresh (V0 m)),
    .region (reg0 m),
    .region (reg1 m) ]
theorem main_run (c : Dev nD) : main (F := F) c = Pipeline.Seg.run (segsM m) := (main_chain c).trans (by chain_rfl)

set_option backward.isDefEq.respectTransparency.types false in
/-- THE RUN. From any memory with zero counters every weakly fair execution of @main terminates, nothing faulting;
    the result array ends at what the second region's write-backs leave, and the argument arrays end as launched. -/
theorem run_main : θ_run defs (onTc (τ := τ) (main (F := F))) ⟨m, fun _ => 0, ρ⟩ (fun r => ∀ c : Dev nD,
      r.2.mem ((c.tc : Thread nD τ).loc main_v9) = (dat1 (Ve2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segsM m)
    (fun c Q => by rw [main_run m c])
    (by simp only [segsM, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wl3 m c b)
    (hfin := fun c s' => by
      iintro ⟨⟨Hh, -⟩, HSI⟩
      unfold StableHlo.held
      imodintro
      iapply (pointsTo_read_all (Pipeline.ucRefs τ sig) (fun b => (((c : Thread nD τ)).1, b)) (Wl3 m c) s')
      isplitl [Hh] <;> iassumption)
    (hQ := fun s h c =>
      ⟨(h c _ (mem_uc main_v9 (by decide))).trans (Wl3_main_v9 m c),
       (h c _ (mem_uc main_arg0 (by decide))).trans (Wl3_main_arg0 m c),
       (h c _ (mem_uc main_arg1 (by decide))).trans (Wl3_main_arg1 m c),
       (h c _ (mem_uc main_arg2 (by decide))).trans (Wl3_main_arg2 m c),
       (h c _ (mem_uc main_arg3 (by decide))).trans (Wl3_main_arg3 m c),
       (h c _ (mem_uc main_arg4 (by decide))).trans (Wl3_main_arg4 m c),
       (h c _ (mem_uc main_arg5 (by decide))).trans (Wl3_main_arg5 m c),
       (h c _ (mem_uc main_arg6 (by decide))).trans (Wl3_main_arg6 m c)⟩)

end Cert.KernelIdeal.Gen

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibRowsRows.lean ====
/-
  A 2-D matrix product into the zero accumulator with the LAST axis of both operands contracted — [M, K] against [N, K],
  rows by rows — read at an output entry on the extended reals: entry (m, n) is the sum over k of lhs (m, k) * rhs (n, k).
  This is the product of a matrix with the transpose of another, as a projection x · Wᵀ or a score matrix q · kᵀ is
  written. The result is [M, N]. The dimension record is the one built from the literal axis lists; its well-formedness
  proof is a parameter. Over any extents M, K, N.
-/
import Idealize.ShloMosaic.PureOps.Ideal.Laws
import Idealize.ShloMosaic.Lib.ValueIdx
import proofs.«170811_j8761733284269_2_alg».proof.Proof.LibContractSum

namespace Cert.LibRowsRows

open Idealize.ShloMosaic Idealize.ShloMosaic.ValueIdx

variable {M K N : ℕ} {φ₁ φ₂ : FTy}

/-- Rows by rows: entry (m, n) is the sum over k of lhs (m, k) * rhs (n, k). -/
theorem rows_rows
    (wf : DotDims.WF (⟨2, ![M, K]⟩ : Shape) (⟨2, ![N, K]⟩ : Shape) (⟨2, ![M, N]⟩ : Shape)
      ([1] : List (Fin 2)) ([1] : List (Fin 2)) ([0] : List (Fin 2)) ([0] : List (Fin 2)) [] [])
    (prec : Option ContractPrecision) (lhs : FVec Ideal (⟨2, ![M, K]⟩ : Shape) φ₁) (rhs : FVec Ideal (⟨2, ![N, K]⟩ : Shape) φ₂)
    (m : Fin M) (n : Fin N) :
    FloatOps.matmul (⟨[1], [1], [0], [0], [], [], wf⟩ : DotDims (⟨2, ![M, K]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 m k) * rhs (ix2 n k) := by
  refine Cert.LibContractSum.matmul_zero_sum _ prec K rfl rfl lhs rhs (ix2 m n) (fun k => ix2 m k) (fun k => ix2 n k)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibRowsRows
-- ==== Proof.LibKeepdims.lean ====
/-
  Row reductions that keep the reduced axis as a unit axis, read at an entry on the extended reals.

  A kernel that takes `sum(x, axis=-1, keepdims=True)` of an [a, b] block does three layout steps around the
  arithmetic: the lane sum into [a], a cast of [a] to the column shape [a, 1], and later a broadcast of an [a, 1]
  column back over the b lanes. Read at an entry written by its coordinates:
    * the cast [a] → [a, 1] at (i, u) is the vector at i;
    * the broadcast [a, 1] → [a, b] at (p, c) is the column at (p, 0);
    * the lane sum of an [a, b] array at i is the sum over k of the array at (i, k);
    * a [1, b] row cast to its own shape and broadcast over a rows reads, at (p, c), the row at (0, c).
  Over any extents a, b.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type} {a b : ℕ}

/-- An `[a]` vector cast to the column shape `[a, 1]` reads, at `(i, u)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast over `b` lanes reads, at `(p, c)`, the column at `(p, 0)`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, at row `i`, is the sum over `k` of the array at `(i, k)`. -/
theorem laneSum_apply (src : FVec Ideal (⟨2, ![a, b]⟩ : Shape) .f32)
    (h : (⟨2, ![a, b]⟩ : Shape).Reduces [1] ⟨1, ![a]⟩) (hφ : FKind.Formats .f32)
    (hacc : (0x00000000#32 : BitVec (FTy.bits .f32)) = (0x00000000#32 : BitVec (FTy.bits .f32))) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax; apply Fin.ext
  match ax with
  | ⟨0, _⟩ => rfl
  | ⟨1, _⟩ => rfl

/-- The lane sum kept as a column: the `[a]` sums cast to `[a, 1]` read, at `(i, u)`, the sum over `k` of the array at `(i, k)`. -/
theorem keepdimsSum_apply (src : FVec Ideal (⟨2, ![a, b]⟩ : Shape) .f32)
    (h : (⟨2, ![a, b]⟩ : Shape).Reduces [1] ⟨1, ![a]⟩) (hφ : FKind.Formats .f32)
    (hacc : (0x00000000#32 : BitVec (FTy.bits .f32)) = (0x00000000#32 : BitVec (FTy.bits .f32))) (hc : (⟨1, ![a]⟩ : Shape).ShapeCasts ⟨2, ![a, 1]⟩)
    (i : Fin a) (u : Fin 1) :
    shapeCast ⟨2, ![a, 1]⟩ (multiReduction .add [1] ⟨1, ![a]⟩ src 0x00000000#32 h hφ hacc) hc (ix2 i u)
      = ∑ k : Fin b, src (ix2 i k) :=
  (shapeCast_a_a1_apply _ hc i u).trans (laneSum_apply src h hφ hacc i)

/-- A `[1, b]` row, cast to its own shape and broadcast over `a` rows, reads at `(p, c)` the row at `(0, c)`. -/
theorem rowBroadcast_apply (v : (⟨2, ![1, b]⟩ : Shape).Idx → α) (hc : (⟨2, ![1, b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ v hc) h (ix2 p c) = v (ix2 (0 : Fin 1) c) := by
  rw [shapeCast_self]
  exact broadcastTo_1b_ab_apply v h p c

end Cert.LibKeepdims
-- ==== Proof.Spec.lean ====
/-
  The function both programs compute, entry by entry, on the extended reals.

  With x : [8192, 4096], W : [12288, 4096], b : [12288], P : [4096, 4096], p, γ, β : [4096]:
    v (r, c) = Σ_k x (r, k) · W (8192 + c, k) + b (8192 + c)        (the value third of the projection)
    y (r, c) = Σ_k v (r, k) · P (c, k) + p (c)
    μ (r)    = (Σ_j y (r, j)) / 4096
    σ² (r)   = (Σ_j (y (r, j) − μ (r))²) / 4096
    out (r, c) = ((y (r, c) − μ (r)) · rsqrt (σ² (r) + ε)) · γ (c) + β (c)
  The attention weights of the reference are a softmax over a single key, so they are 1 and the attended value is v.
  The divisor 4096 and ε are kept as the float words both programs print (the same word on both sides).
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 4096]⟩
abbrev SWqkv : Shape := ⟨2, ![12288, 4096]⟩
abbrev Sbqkv : Shape := ⟨1, ![12288]⟩
abbrev SW : Shape := ⟨2, ![4096, 4096]⟩
abbrev Sv : Shape := ⟨1, ![4096]⟩

/-- Row 8192 + c of the stacked projection: the value third. -/
abbrev vrow (c : Fin 4096) : Fin 12288 := ⟨8192 + c.val, by omega⟩

/-- The value projection at (r, c). -/
def vproj (x : SX.Idx → EReal) (W : SWqkv.Idx → EReal) (b : Sbqkv.Idx → EReal) (r : Fin 8192) (c : Fin 4096) : EReal :=
  (∑ k : Fin 4096, x (ix2 r k) * W (ix2 (vrow c) k)) + b (ix1 (vrow c))

/-- The output projection at (r, c), from any [8192, 4096] left factor `v`. -/
def yOf (v : Fin 8192 → Fin 4096 → EReal) (P : SW.Idx → EReal) (p : Sv.Idx → EReal) (r : Fin 8192) (c : Fin 4096) : EReal :=
  (∑ k : Fin 4096, v r k * P (ix2 c k)) + p (ix1 c)

/-- The divisor 4096 and the variance offset, as the float words the programs print. -/
def n4096 : EReal := Ideal.ofBits .f32 0x45800000#32
def eps : EReal := Ideal.ofBits .f32 0x3727C5AC#32

/-- The mean of a row of 4096 entries. -/
def rowMean (y : Fin 4096 → EReal) : EReal := Ideal.div (∑ j : Fin 4096, y j) n4096

/-- One row normalised: centred, scaled by the reciprocal root of the offset variance, then the affine map. -/
def layerNormRow (y : Fin 4096 → EReal) (g be : Fin 4096 → EReal) (c : Fin 4096) : EReal :=
  ((y c - rowMean y) * Ideal.rsqrt (rowMean (fun j => (y j - rowMean y) * (y j - rowMean y)) + eps)) * g c + be c

/-- The result at (r, c). -/
def outAt (x : SX.Idx → EReal) (W : SWqkv.Idx → EReal) (b : Sbqkv.Idx → EReal) (P : SW.Idx → EReal) (p g be : Sv.Idx → EReal)
    (r : Fin 8192) (c : Fin 4096) : EReal :=
  layerNormRow (fun j => yOf (vproj x W b) P p r j) (fun j => g (ix1 j)) (fun j => be (ix1 j)) c

/-- The whole result array. -/
def out (x : SX.Idx → EReal) (W : SWqkv.Idx → EReal) (b : Sbqkv.Idx → EReal) (P : SW.Idx → EReal) (p g be : Sv.Idx → EReal) :
    SX.Idx → EReal := fun i => outAt x W b P p g be (i 0) (i 1)

end Cert.Spec

end
-- ==== Proof.KI.ValPay.lean ====
/-
  The three stored values of each kernel body, read at one entry of the tile on the extended reals.

  First kernel, on a [512, 4096] tile: the reset value is 0; the accumulation step adds to the scratch entry (p, q) the
  partial product Σ_j x (p, j) · w (q, j) over the 256 columns of the current column block (the change of format before
  the product is the identity on extended reals); the output tile adds the bias row entry (0, q).
  Second kernel, on a [256, 4096] tile: the same reset and step, and the output tile is the row p of the accumulated
  sum plus the bias row, normalised: centred by the row mean, scaled by the reciprocal root of the offset row variance,
  then multiplied by the gain row and shifted by the offset row.
-/
import proofs.«170811_j8761733284269_2_alg».proof.Proof.Gen.KernelIdeal.Skeleton
import proofs.«170811_j8761733284269_2_alg».proof.Proof.LibRowsRows
import proofs.«170811_j8761733284269_2_alg».proof.Proof.LibKeepdims
import proofs.«170811_j8761733284269_2_alg».proof.Proof.Spec
import Idealize.ShloMosaic.PureOps.Ideal.Laws
import Idealize.ShloMosaic.Lib.ValueIdx
import Idealize.ShloMosaic.Lib.Pipeline.Value

noncomputable section

namespace Cert.KernelIdeal.Val

open Idealize.ShloMosaic Idealize.ShloMosaic.ValueIdx
open Cert.KernelIdeal Cert.KernelIdeal.Gen

/-- The reciprocal root of a vector at an index is the reciprocal root of the element. -/
theorem rsqrt_apply {s : Shape} {φ : FTy} (a : FVec Ideal s φ) (i : s.Idx) : rsqrt a i = Ideal.rsqrt (a i) := rfl

/-- The row sums of an [a, b] array kept as a column, at (i, u): the sum over k of the array at (i, k). The accumulator
    fact is typed as the reduction's own signature states it. -/
theorem keepdimsSum_apply' {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (i : Fin a) (u : Fin 1) :
    shapeCast ⟨2, ![a, 1]⟩ (multiReduction .add [1] ⟨1, ![a]⟩ src 0x00000000#32 h hφ hacc) hc (ix2 i u)
      = ∑ k : Fin b, src (ix2 i k) :=
  Cert.LibKeepdims.keepdimsSum_apply src h hφ hacc hc i u

/-! ## First kernel -/

/-- The reset value of the scratch: zero everywhere. -/
theorem pay0_1_apply (p : Fin 512) (q : Fin 4096) : (k0_pay1 (F := Ideal) (ix2 p q) : EReal) = 0 := by
  unfold k0_pay1
  rw [shapeCast_self]
  exact Ideal.ofBits_zero_f32

/-- The accumulation step at (p, q): the scratch entry plus the partial product over the block's 256 columns. -/
theorem pay0_2_apply (x : Vec Ideal S512x256 .f32) (w : Vec Ideal S4096x256 .bf16) (s : Vec Ideal S512x4096 .f32)
    (p : Fin 512) (q : Fin 4096) :
    (k0_pay2 x w s (ix2 p q) : EReal) = s (ix2 p q) + ∑ j : Fin 256, x (ix2 p j) * w (ix2 q j) := by
  unfold k0_pay2
  rw [shapeCast_self, shapeCast_self]
  exact congrArg (s (ix2 p q) + ·)
    (Cert.LibRowsRows.rows_rows dot_S512x256_S4096x256_S512x4096_1_1_0_0_n_n_wf none
      (truncf .bf16 x bitsLt_bf16_f32 : FVec Ideal S512x256 .bf16) w p q)

/-- The output tile at (p, q): the accumulated entry plus the bias row's entry (0, q). -/
theorem pay0_3_apply (s : Vec Ideal S512x4096 .f32) (b : Vec Ideal S1x4096 .f32) (p : Fin 512) (q : Fin 4096) :
    (k0_pay3 s b (ix2 p q) : EReal) = s (ix2 p q) + b (ix2 (0 : Fin 1) q) := by
  unfold k0_pay3
  exact congrArg (s (ix2 p q) + ·)
    (Cert.LibKeepdims.rowBroadcast_apply b shapeCasts_S1x4096_S1x4096 broadcasts_S1x4096_S512x4096 p q)

/-! ## Second kernel -/

theorem pay1_1_apply (p : Fin 256) (q : Fin 4096) : (k1_pay1 (F := Ideal) (ix2 p q) : EReal) = 0 := by
  unfold k1_pay1
  rw [shapeCast_self]
  exact Ideal.ofBits_zero_f32

theorem pay1_2_apply (x : Vec Ideal S256x256 .bf16) (w : Vec Ideal S4096x256 .bf16) (s : Vec Ideal S256x4096 .f32)
    (p : Fin 256) (q : Fin 4096) :
    (k1_pay2 x w s (ix2 p q) : EReal) = s (ix2 p q) + ∑ j : Fin 256, x (ix2 p j) * w (ix2 q j) := by
  unfold k1_pay2
  rw [shapeCast_self, shapeCast_self, shapeCast_self]
  exact congrArg (s (ix2 p q) + ·)
    (Cert.LibRowsRows.rows_rows dot_S256x256_S4096x256_S256x4096_1_1_0_0_n_n_wf none x w p q)

/-! ### Row normalisation of an [a, b] tile, read at an entry

The second kernel's epilogue on a tile Y: the column of row means (the row sums kept as a column, divided by the
float word for the row length), the centred tile, the column of reciprocal roots of the offset row variances, and
the affine map by a gain tile G and an offset tile B. Each is named here and read at an entry by its coordinates. -/

section Norm
variable {a b : ℕ} (Y : FVec Ideal (⟨2, ![a, b]⟩ : Shape) .f32) (nw ew : BitVec 32)
  (h : (⟨2, ![a, b]⟩ : Shape).Reduces [1] ⟨1, ![a]⟩) (hφ : FKind.Formats .f32)
  (hacc : (0x00000000#32 : BitVec (FTy.bits .f32)) = FKind.add.neutral .f32 hφ)
  (hc : (⟨1, ![a]⟩ : Shape).ShapeCasts ⟨2, ![a, 1]⟩) (hb : (⟨2, ![a, 1]⟩ : Shape).Broadcasts ⟨2, ![a, b]⟩)

/-- The column of row sums divided by the word `nw`. -/
abbrev meanCol : FVec Ideal (⟨2, ![a, 1]⟩ : Shape) .f32 :=
  divf (shapeCast ⟨2, ![a, 1]⟩ (multiReduction .add [1] ⟨1, ![a]⟩ Y 0x00000000#32 h hφ hacc) hc)
    (broadcast ⟨2, ![a, 1]⟩ (Scalar.ofBits .f32 nw))

theorem meanCol_apply (p : Fin a) (u : Fin 1) :
    meanCol Y nw h hφ hacc hc (ix2 p u) = Ideal.div (∑ k : Fin b, Y (ix2 p k)) (Ideal.ofBits .f32 nw) :=
  congrArg (Ideal.div · (Ideal.ofBits .f32 nw)) (keepdimsSum_apply' Y h hφ hacc hc p u)

/-- The tile minus its row means. -/
abbrev centred : FVec Ideal (⟨2, ![a, b]⟩ : Shape) .f32 :=
  subf Y (broadcastTo ⟨2, ![a, b]⟩ (meanCol Y nw h hφ hacc hc) hb)

theorem centred_apply (p : Fin a) (q : Fin b) :
    centred Y nw h hφ hacc hc hb (ix2 p q)
      = Y (ix2 p q) - Ideal.div (∑ k : Fin b, Y (ix2 p k)) (Ideal.ofBits .f32 nw) :=
  congrArg (Y (ix2 p q) - ·)
    ((Cert.LibKeepdims.broadcastTo_a1_ab_apply _ hb p q).trans (meanCol_apply Y nw h hφ hacc hc p 0))

/-- The column of reciprocal roots of the row variances offset by the word `ew`. -/
abbrev rstdCol : FVec Ideal (⟨2, ![a, 1]⟩ : Shape) .f32 :=
  rsqrt (addf (meanCol (mulf (centred Y nw h hφ hacc hc hb) (centred Y nw h hφ hacc hc hb)) nw h hφ hacc hc)
    (broadcast ⟨2, ![a, 1]⟩ (Scalar.ofBits .f32 ew)))

theorem rstdCol_apply (p : Fin a) (u : Fin 1) :
    rstdCol Y nw ew h hφ hacc hc hb (ix2 p u)
      = Ideal.rsqrt (Ideal.div (∑ k : Fin b,
            (Y (ix2 p k) - Ideal.div (∑ k : Fin b, Y (ix2 p k)) (Ideal.ofBits .f32 nw))
              * (Y (ix2 p k) - Ideal.div (∑ k : Fin b, Y (ix2 p k)) (Ideal.ofBits .f32 nw))) (Ideal.ofBits .f32 nw)
          + Ideal.ofBits .f32 ew) :=
  congrArg (fun z => Ideal.rsqrt (z + Ideal.ofBits .f32 ew))
    ((meanCol_apply _ nw h hφ hacc hc p u).trans
      (congrArg (Ideal.div · (Ideal.ofBits .f32 nw))
        (Finset.sum_congr rfl fun k _ =>
          congrArg₂ (· * ·) (centred_apply Y nw h hφ hacc hc hb p k) (centred_apply Y nw h hφ hacc hc hb p k))))

/-- The normalised tile at (p, q). -/
theorem norm_apply (G B : FVec Ideal (⟨2, ![a, b]⟩ : Shape) .f32) (p : Fin a) (q : Fin b) :
    (addf (mulf (mulf (centred Y nw h hφ hacc hc hb) (broadcastTo ⟨2, ![a, b]⟩ (rstdCol Y nw ew h hφ hacc hc hb) hb)) G) B
        : FVec Ideal (⟨2, ![a, b]⟩ : Shape) .f32) (ix2 p q)
      = ((Y (ix2 p q) - Ideal.div (∑ k : Fin b, Y (ix2 p k)) (Ideal.ofBits .f32 nw))
          * Ideal.rsqrt (Ideal.div (∑ k : Fin b,
              (Y (ix2 p k) - Ideal.div (∑ k : Fin b, Y (ix2 p k)) (Ideal.ofBits .f32 nw))
                * (Y (ix2 p k) - Ideal.div (∑ k : Fin b, Y (ix2 p k)) (Ideal.ofBits .f32 nw))) (Ideal.ofBits .f32 nw)
            + Ideal.ofBits .f32 ew)) * G (ix2 p q) + B (ix2 p q) :=
  congrArg (fun z => z * G (ix2 p q) + B (ix2 p q))
    (congrArg₂ (· * ·) (centred_apply Y nw h hφ hacc hc hb p q)
      ((Cert.LibKeepdims.broadcastTo_a1_ab_apply _ hb p q).trans (rstdCol_apply Y nw ew h hφ hacc hc hb p 0)))

end Norm

/-- The output tile at (p, q): row p of the accumulated sum plus the bias row, normalised. -/
theorem pay1_3_apply (s : Vec Ideal S256x4096 .f32) (bp g be : Vec Ideal S1x4096 .f32) (p : Fin 256) (q : Fin 4096) :
    (k1_pay3 s bp g be (ix2 p q) : EReal)
      = Cert.Spec.layerNormRow (fun j => s (ix2 p j) + bp (ix2 (0 : Fin 1) j)) (fun j => g (ix2 (0 : Fin 1) j))
          (fun j => be (ix2 (0 : Fin 1) j)) q := by
  unfold k1_pay3
  refine (norm_apply
    (addf s (broadcastTo S256x4096 (shapeCast S1x4096 bp shapeCasts_S1x4096_S1x4096) broadcasts_S1x4096_S256x4096))
    0x45800000#32 0x3727C5AC#32 reduces_S256x4096_S256 _ _ shapeCasts_S256_S256x1 broadcasts_S256x1_S256x4096
    (broadcastTo S256x4096 (shapeCast S1x4096 g shapeCasts_S1x4096_S1x4096) broadcasts_S1x4096_S256x4096)
    (broadcastTo S256x4096 (shapeCast S1x4096 be shapeCasts_S1x4096_S1x4096) broadcasts_S1x4096_S256x4096) p q).trans ?_
  simp only [addf_apply, Cert.LibKeepdims.rowBroadcast_apply]
  unfold Cert.Spec.layerNormRow Cert.Spec.rowMean Cert.Spec.n4096 Cert.Spec.eps
  rfl

end Cert.KernelIdeal.Val

end
-- ==== Proof.KI.ValSum.lean ====
/-
  A sum over m · n consecutive positions, cut into m runs of n: the position n · s + j of run s. This is the
  re-indexing between a contraction over a whole axis and the same contraction accumulated block by block. Over
  any commutative additive monoid: no finiteness of the terms is used.
-/
import Idealize.ShloMosaic.Lib.ValueIdx

namespace Cert.KernelIdeal.Val

/-- Position n · s + j of run s lies below m · n. -/
theorem run_pos_lt {m n : ℕ} (s : Fin m) (j : Fin n) : n * s.val + j.val < m * n :=
  calc n * s.val + j.val < n * s.val + n := Nat.add_lt_add_left j.isLt _
    _ = n * (s.val + 1) := (Nat.mul_succ n s.val).symm
    _ ≤ n * m := Nat.mul_le_mul_left n s.isLt
    _ = m * n := Nat.mul_comm n m

/-- A sum over N = m · n positions is the sum over the m runs of the sums over each run's n positions. -/
theorem sum_runs {β : Type*} [AddCommMonoid β] (m n N : ℕ) (hN : N = m * n) (F : Fin N → β) :
    ∑ k, F k = ∑ s : Fin m, ∑ j : Fin n, F ⟨n * s.val + j.val, hN ▸ run_pos_lt s j⟩ := by
  subst hN
  rw [← Equiv.sum_comp finProdFinEquiv F, Fintype.sum_prod_type]
  refine Finset.sum_congr rfl fun s _ => Finset.sum_congr rfl fun j _ => congrArg F (Fin.ext ?_)
  exact Nat.add_comm _ _

end Cert.KernelIdeal.Val
-- ==== Proof.KI.ValR0.lean ====
/-
  The first kernel's result array on the extended reals.

  The grid is 16 row tiles by 16 column blocks, the column block innermost: point t works on row tile t / 16 and
  column block t % 16. The scratch is reset at the first column block of a row tile and each point adds the partial
  product of its [512, 256] block of x with its [4096, 256] block of the weights, so at the last column block of row
  tile a the scratch entry (p, q) is the sum over the sixteen column blocks s of Σ_j x (512 a + p, 256 s + j) ·
  W (q, 256 s + j), which is the contraction over all 4096 columns. That point writes the tile plus the bias row to
  rows 512 a … 512 a + 511 of the result; the sixteen row tiles cover the array.
-/
import proofs.«170811_j8761733284269_2_alg».proof.Proof.KI.Blocks
import proofs.«170811_j8761733284269_2_alg».proof.Proof.KI.ValPay
import proofs.«170811_j8761733284269_2_alg».proof.Proof.KI.ValSum
import Idealize.ShloMosaic.Lib.Pipeline.Value

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The three arrays the first kernel reads, as functions of an index into the extended reals: x, the value rows of the
    projection weights, and their bias row. -/
abbrev arrX : S8192x4096.Idx → EReal := V c main_arg0
abbrev arrW : S4096x4096.Idx → EReal := V c main_v6
abbrev arrB : S1x4096.Idx → EReal := V c main_v2

/-- The three input blocks at a point, at their literal shapes. -/
abbrev blkX (t : Fin cfg0.N) : Vec Ideal S512x256 .f32 := iblk0 V c 0 t
abbrev blkW (t : Fin cfg0.N) : Vec Ideal S4096x256 .bf16 := iblk0 V c 1 t
abbrev blkB (t : Fin cfg0.N) : Vec Ideal S1x4096 .f32 := iblk0 V c 2 t

/-- Entry (r, q) of the result: row r of x against row q of the weights, plus the bias. -/
def g0 (r : Fin 8192) (q : Fin 4096) : EReal :=
  (∑ k : Fin 4096, arrX V c (ix2 r k) * arrW V c (ix2 q k)) + arrB V c (ix2 (0 : Fin 1) q)

/-- The result array. -/
def G0 : Buf (Elt Ideal) ((c : Thread nD τ).loc main_v8) := fun i => g0 V c (i 0) (i 1)

/-- The block index of every window at every point: row tile t / 16, column block t % 16. -/
theorem idx0 : ∀ t : Fin cfg0.N,
    win0_0.index t (0 : Fin 2) = t.val / 16 ∧ win0_0.index t (1 : Fin 2) = t.val % 16
    ∧ win0_1.index t (0 : Fin 2) = 0 ∧ win0_1.index t (1 : Fin 2) = t.val % 16
    ∧ win0_2.index t (0 : Fin 2) = 0 ∧ win0_2.index t (1 : Fin 2) = 0
    ∧ win0_3.index t (0 : Fin 2) = t.val / 16 ∧ win0_3.index t (1 : Fin 2) = 0 :=
  (by decide +kernel : ∀ t : Fin grid0.N, _)

/-! ## Each input block read at its array index -/

theorem blk0_x (t : Fin cfg0.N) (p : Fin 512) (j : Fin 256) (r : Fin 8192) (k : Fin 4096)
    (hr : r.val = 512 * (t.val / 16) + p.val) (hk : k.val = 256 * (t.val % 16) + j.val) :
    blkX V c t (ix2 p j) = arrX V c (ix2 r k) := by
  obtain ⟨e0, e1, -⟩ := idx0 t
  show ((cfg0.win 0).blk t).view.read (Elt Ideal) (V c (Pipeline.arrRef spec0 0)) (ix2 p j) = _
  rw [View.read_apply]
  show arrX V c _ = _
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 256 + 1 * j.val = k.val; rw [e1, hk]; omega

theorem blk0_w (t : Fin cfg0.N) (q : Fin 4096) (j : Fin 256) (k : Fin 4096)
    (hk : k.val = 256 * (t.val % 16) + j.val) :
    blkW V c t (ix2 q j) = arrW V c (ix2 q k) := by
  obtain ⟨-, -, e0, e1, -⟩ := idx0 t
  show ((cfg0.win 1).blk t).view.read (Elt Ideal) (V c (Pipeline.arrRef spec0 1)) (ix2 q j) = _
  rw [View.read_apply]
  show arrW V c _ = _
  refine congrArg _ (funext fun a => Fin.ext ?_)
  match a with
  | ⟨0, _⟩ => show win0_1.index t (0 : Fin 2) * 4096 + 1 * q.val = q.val; rw [e0]; omega
  | ⟨1, _⟩ => show win0_1.index t (1 : Fin 2) * 256 + 1 * j.val = k.val; rw [e1, hk]; omega

theorem blk0_b (t : Fin cfg0.N) (q : Fin 4096) :
    blkB V c t (ix2 (0 : Fin 1) q) = arrB V c (ix2 (0 : Fin 1) q) := by
  obtain ⟨-, -, -, -, e0, e1, -⟩ := idx0 t
  show ((cfg0.win 2).blk t).view.read (Elt Ideal) (V c (Pipeline.arrRef spec0 2)) (ix2 (0 : Fin 1) q) = _
  rw [View.read_apply]
  show arrB V c _ = _
  refine congrArg _ (funext fun a => Fin.ext ?_)
  match a with
  | ⟨0, _⟩ => show win0_2.index t (0 : Fin 2) * 1 + 1 * 0 = 0; rw [e0]
  | ⟨1, _⟩ => show win0_2.index t (1 : Fin 2) * 4096 + 1 * q.val = q.val; rw [e1]; omega

/-! ## The accumulator at the last column block of a row tile -/

/-- The partial product point n adds at a tile entry (zero past the grid, where it is never used). -/
def part0 (n : ℕ) (i : S512x4096.Idx) : EReal :=
  if h : n < cfg0.N then
    ∑ j : Fin 256, blkX V c ⟨n, h⟩ (ix2 ⟨(i 0).val, idx2_lt0 i⟩ j)
      * blkW V c ⟨n, h⟩ (ix2 ⟨(i 1).val, idx2_lt1 i⟩ j)
  else 0

theorem part0_pos (n : ℕ) (h : n < cfg0.N) (p : Fin 512) (q : Fin 4096) :
    part0 V c n (ix2 p q)
      = ∑ j : Fin 256, blkX V c ⟨n, h⟩ (ix2 p j)
          * blkW V c ⟨n, h⟩ (ix2 q j) := by
  unfold part0
  rw [dif_pos h]

/-- One accumulation step at a tile entry. -/
theorem step0 (n : ℕ) (h : n < cfg0.N) (acc : Vec Ideal S512x4096 .f32) (i : S512x4096.Idx) :
    ((k0_pay2 (iblk0 V c 0 ⟨n, h⟩) (iblk0 V c 1 ⟨n, h⟩) acc : Vec Ideal S512x4096 .f32) i : EReal)
      = acc i + part0 V c n i := by
  obtain ⟨p, q, rfl⟩ : ∃ (p : Fin 512) (q : Fin 4096), i = ix2 p q := ⟨i 0, i 1, eq_ix2 i⟩
  refine (pay0_2_apply (iblk0 V c 0 ⟨n, h⟩) (iblk0 V c 1 ⟨n, h⟩) acc p q).trans ?_
  rw [part0_pos V c n h p q]

theorem zero0 (i : S512x4096.Idx) : ((k0_pay1 (F := Ideal) : Vec Ideal S512x4096 .f32) i : EReal) = 0 := by
  obtain ⟨p, q, rfl⟩ : ∃ (p : Fin 512) (q : Fin 4096), i = ix2 p q := ⟨i 0, i 1, eq_ix2 i⟩
  exact pay0_1_apply p q

/-- At a point that writes back (the last column block of its row tile) the scratch holds the sum of the sixteen
    column blocks' partial products. -/
theorem acc0_eq_sum (t : Fin cfg0.N) (ht : t.val % 16 = 15) (i : S512x4096.Idx) :
    ((acc0 V c t.val t.isLt : Vec Ideal S512x4096 .f32) i : EReal)
      = ∑ s ∈ Finset.range 16, part0 V c (16 * (t.val / 16) + s) i := by
  have h' : 16 * (t.val / 16) + t.val % 16 < cfg0.N := by rw [Nat.div_add_mod]; exact t.isLt
  rw [Pipeline.eq_accAt_of_mod (acc0 V c) 16
    (fun n h => k0_pay2 (iblk0 V c 0 ⟨n, h⟩) (iblk0 V c 1 ⟨n, h⟩) (k0_pay1 (F := Ideal)))
    (fun n h acc => k0_pay2 (iblk0 V c 0 ⟨n, h⟩) (iblk0 V c 1 ⟨n, h⟩) acc)
    (acc0_reset V c) (acc0_step V c) (by decide) t.val t.isLt h']
  have key := Pipeline.accAt_add_apply (N := cfg0.N) (ι := S512x4096.Idx) (β := EReal)
    (fun n h => k0_pay2 (iblk0 V c 0 ⟨n, h⟩) (iblk0 V c 1 ⟨n, h⟩) (k0_pay1 (F := Ideal)))
    (fun n h acc => k0_pay2 (iblk0 V c 0 ⟨n, h⟩) (iblk0 V c 1 ⟨n, h⟩) acc)
    (fun _ => 0) (part0 V c) (16 * (t.val / 16)) 15
    (fun h i => (step0 V c _ h (k0_pay1 (F := Ideal)) i).trans (congrArg (· + part0 V c _ i) (zero0 i)))
    (fun n h acc i _ _ => step0 V c n h acc i)
    (t.val % 16) (by omega) h' i
  rw [key, ht, zero_add]

/-- A column block's partial product over the arrays: columns 256 s … 256 s + 255 of row r of x and row q of W. -/
theorem part0_arr (t : Fin cfg0.N) (s : Fin 16) (p : Fin 512) (q : Fin 4096) (r : Fin 8192)
    (hr : r.val = 512 * (t.val / 16) + p.val) :
    part0 V c (16 * (t.val / 16) + s.val) (ix2 p q)
      = ∑ j : Fin 256, arrX V c (ix2 r ⟨256 * s.val + j.val, run_pos_lt s j⟩)
          * arrW V c (ix2 q ⟨256 * s.val + j.val, run_pos_lt s j⟩) := by
  have hN : cfg0.N = 256 := N_0
  have hn : 16 * (t.val / 16) + s.val < cfg0.N := by have := t.isLt; have := s.isLt; omega
  rw [part0_pos V c _ hn p q]
  refine Finset.sum_congr rfl fun j _ => ?_
  have hs : (16 * (t.val / 16) + s.val) % 16 = s.val := by have := s.isLt; omega
  have hq : (16 * (t.val / 16) + s.val) / 16 = t.val / 16 := by have := s.isLt; omega
  rw [blk0_x V c ⟨_, hn⟩ p j r ⟨256 * s.val + j.val, run_pos_lt s j⟩ (by show r.val = 512 * ((16 * (t.val / 16) + s.val) / 16) + p.val; rw [hq]; exact hr)
        (by show 256 * s.val + j.val = 256 * ((16 * (t.val / 16) + s.val) % 16) + j.val; rw [hs]),
    blk0_w V c ⟨_, hn⟩ q j ⟨256 * s.val + j.val, run_pos_lt s j⟩
        (by show 256 * s.val + j.val = 256 * ((16 * (t.val / 16) + s.val) % 16) + j.val; rw [hs])]

/-! ## The output tile, the write-backs and the array -/

/-- The tile a writing point leaves, at (p, q): entry (512 (t / 16) + p, q) of the result. -/
theorem fin0_apply (t : Fin cfg0.N) (ht : t.val % 16 = 15) (p : Fin 512) (q : Fin 4096) (r : Fin 8192)
    (hr : r.val = 512 * (t.val / 16) + p.val) :
    ((fin0 V c t : Vec Ideal S512x4096 .bf16) (ix2 p q) : EReal) = g0 V c r q := by
  unfold fin0
  refine (pay0_3_apply (acc0 V c t.val t.isLt) (blkB V c t) p q).trans ?_
  rw [acc0_eq_sum V c t ht (ix2 p q), Finset.sum_range, blk0_b V c t q]
  unfold g0
  refine congrArg (· + _) ?_
  rw [sum_runs 16 256 4096 (by decide)
    (fun k => arrX V c (ix2 r k) * arrW V c (ix2 q k))]
  exact Finset.sum_congr rfl fun s _ => part0_arr V c t s p q r hr

/-- What a writing point writes back is its block of the result array. -/
theorem flushed_eq0 (t : Fin cfg0.N) (hf : (cfg0.win 3).flush t = true) :
    (dat0 V c).flushed 3 t = ((cfg0.win 3).blk t).view.read (Elt Ideal) (G0 V c) := by
  have ht := (flush0_3 t).mp hf
  obtain ⟨-, -, -, -, -, -, e0, e1⟩ := idx0 t
  show (cfg0.win 3).cut (grid0.coords t) ((dat0 V c).after 3 t) = _
  rw [after0_3]
  funext y
  rw [View.read_apply]
  have hx : (cfg0.win 3).xinj (grid0.coords t) y
      = (ix2 (⟨(y 0).val, (y 0).isLt⟩ : Fin 512) (⟨(y 1).val, (y 1).isLt⟩ : Fin 4096) : S512x4096.Idx) :=
    funext fun a => by match a with | ⟨0, _⟩ => rfl | ⟨1, _⟩ => rfl
  have hr0 : ((((cfg0.win 3).blk t).view.emb y) 0).val = 512 * (t.val / 16) + (y 0).val := by
    show win0_3.index t (0 : Fin 2) * 512 + 1 * (y 0).val = _
    rw [e0]; omega
  have hr1 : ((((cfg0.win 3).blk t).view.emb y) 1 : Fin 4096) = ⟨(y 1).val, (y 1).isLt⟩ := Fin.ext (by
    show win0_3.index t (1 : Fin 2) * 4096 + 1 * (y 1).val = (y 1).val
    rw [e1]; omega)
  show (fin0 V c t : Vec Ideal S512x4096 .bf16) ((cfg0.win 3).xinj (grid0.coords t) y)
    = g0 V c ((((cfg0.win 3).blk t).view.emb y) 0) ((((cfg0.win 3).blk t).view.emb y) 1)
  rw [hx, hr1]
  exact fin0_apply V c t ht _ _ _ hr0

/-- Every entry of the array lies in the block of the last column block's point of its row tile. -/
theorem cover0 (i : S8192x4096.Idx) :
    ∃ t : Fin cfg0.N, (cfg0.win 3).flush t = true ∧ i ∈ ((cfg0.win 3).blk t).view.set := by
  have hN : cfg0.N = 256 := N_0
  have h0 : (i 0).val < 8192 := (i 0).isLt
  have h1 : (i 1).val < 4096 := (i 1).isLt
  obtain ⟨T, hT⟩ : ∃ T : Fin cfg0.N, T.val = 16 * ((i 0).val / 512) + 15 := ⟨⟨_, by omega⟩, rfl⟩
  obtain ⟨-, -, -, -, -, -, e0, e1⟩ := idx0 T
  refine ⟨T, (flush0_3 T).mpr (by omega), ?_⟩
  show i ∈ ((View.whole main_v8).slice (win0_3.rect T)).set
  rw [View.set_slice_whole, Rect.mem_set_unit]
  intro a
  match a with
  | ⟨0, _⟩ =>
    show win0_3.index T (0 : Fin 2) * 512 ≤ (i 0).val ∧ (i 0).val < win0_3.index T (0 : Fin 2) * 512 + 512
    rw [e0]; omega
  | ⟨1, _⟩ =>
    show win0_3.index T (1 : Fin 2) * 4096 ≤ (i 1).val ∧ (i 1).val < win0_3.index T (1 : Fin 2) * 4096 + 4096
    rw [e1]; omega

/-- The first kernel's result array after the run. -/
theorem final0 : (dat0 V c).arrAt 3 cfg0.N = G0 V c :=
  (dat0 V c).arrAt_eq_of_cover 3 (G0 V c) (flushed_eq0 V c) cover0

end Cert.KernelIdeal.Val

end
-- ==== Proof.KI.ValR1.lean ====
/-
  The second kernel's result array on the extended reals.

  The grid is 32 row tiles by 16 column blocks, the column block innermost: point t works on row tile t / 16 and
  column block t % 16. As in the first kernel the scratch at the last column block of row tile a holds, at (p, j), the
  contraction over all 4096 columns of row 256 a + p of the left factor with row j of the projection weights. That
  point adds the bias row, normalises each row of the tile (mean and variance over the row's 4096 entries, the gain
  and offset rows) and writes rows 256 a … 256 a + 255 of the result; the 32 row tiles cover the array.
-/
import proofs.«170811_j8761733284269_2_alg».proof.Proof.KI.Blocks
import proofs.«170811_j8761733284269_2_alg».proof.Proof.KI.ValPay
import proofs.«170811_j8761733284269_2_alg».proof.Proof.KI.ValSum
import Idealize.ShloMosaic.Lib.Pipeline.Value

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The five arrays the second kernel reads, as functions of an index into the extended reals: the left factor, the
    projection weights, their bias row, the gain row and the offset row. -/
abbrev arrL : S8192x4096.Idx → EReal := V c main_v8
abbrev arrP : S4096x4096.Idx → EReal := V c main_v7
abbrev arrBp : S1x4096.Idx → EReal := V c main_v3
abbrev arrGa : S1x4096.Idx → EReal := V c main_v4
abbrev arrBe : S1x4096.Idx → EReal := V c main_v5

/-- The five input blocks at a point, at their literal shapes. -/
abbrev blkL (t : Fin cfg1.N) : Vec Ideal S256x256 .bf16 := iblk1 V c 0 t
abbrev blkP (t : Fin cfg1.N) : Vec Ideal S4096x256 .bf16 := iblk1 V c 1 t
abbrev blkBp (t : Fin cfg1.N) : Vec Ideal S1x4096 .f32 := iblk1 V c 2 t
abbrev blkGa (t : Fin cfg1.N) : Vec Ideal S1x4096 .f32 := iblk1 V c 3 t
abbrev blkBe (t : Fin cfg1.N) : Vec Ideal S1x4096 .f32 := iblk1 V c 4 t

/-- Entry (r, q) of the result: row r of the projected left factor plus the bias, normalised, at q. -/
def g1 (r : Fin 8192) (q : Fin 4096) : EReal :=
  Cert.Spec.layerNormRow
    (fun j => (∑ k : Fin 4096, arrL V c (ix2 r k) * arrP V c (ix2 j k)) + arrBp V c (ix2 (0 : Fin 1) j))
    (fun j => arrGa V c (ix2 (0 : Fin 1) j)) (fun j => arrBe V c (ix2 (0 : Fin 1) j)) q

/-- The result array. -/
def G1 : Buf (Elt Ideal) ((c : Thread nD τ).loc main_v9) := fun i => g1 V c (i 0) (i 1)

/-- The block index of every window at every point: row tile t / 16, column block t % 16. -/
theorem idx1 : ∀ t : Fin cfg1.N,
    win1_0.index t (0 : Fin 2) = t.val / 16 ∧ win1_0.index t (1 : Fin 2) = t.val % 16
    ∧ win1_1.index t (0 : Fin 2) = 0 ∧ win1_1.index t (1 : Fin 2) = t.val % 16
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 16 ∧ win1_5.index t (1 : Fin 2) = 0 :=
  (by decide +kernel : ∀ t : Fin grid1.N, _)

/-! ## Each input block read at its array index -/

theorem blk1_l (t : Fin cfg1.N) (p : Fin 256) (j : Fin 256) (r : Fin 8192) (k : Fin 4096)
    (hr : r.val = 256 * (t.val / 16) + p.val) (hk : k.val = 256 * (t.val % 16) + j.val) :
    blkL V c t (ix2 p j) = arrL V c (ix2 r k) := by
  obtain ⟨e0, e1, -⟩ := idx1 t
  show ((cfg1.win 0).blk t).view.read (Elt Ideal) (V c (Pipeline.arrRef spec1 0)) (ix2 p j) = _
  rw [View.read_apply]
  show arrL V c _ = _
  refine congrArg _ (funext fun a => Fin.ext ?_)
  match a with
  | ⟨0, _⟩ => show win1_0.index t (0 : Fin 2) * 256 + 1 * p.val = r.val; rw [e0, hr]; omega
  | ⟨1, _⟩ => show win1_0.index t (1 : Fin 2) * 256 + 1 * j.val = k.val; rw [e1, hk]; omega

theorem blk1_p (t : Fin cfg1.N) (q : Fin 4096) (j : Fin 256) (k : Fin 4096)
    (hk : k.val = 256 * (t.val % 16) + j.val) :
    blkP V c t (ix2 q j) = arrP V c (ix2 q k) := by
  obtain ⟨-, -, e0, e1, -⟩ := idx1 t
  show ((cfg1.win 1).blk t).view.read (Elt Ideal) (V c (Pipeline.arrRef spec1 1)) (ix2 q j) = _
  rw [View.read_apply]
  show arrP V c _ = _
  refine congrArg _ (funext fun a => Fin.ext ?_)
  match a with
  | ⟨0, _⟩ => show win1_1.index t (0 : Fin 2) * 4096 + 1 * q.val = q.val; rw [e0]; omega
  | ⟨1, _⟩ => show win1_1.index t (1 : Fin 2) * 256 + 1 * j.val = k.val; rw [e1, hk]; omega

theorem blk1_bp (t : Fin cfg1.N) (q : Fin 4096) :
    blkBp V c t (ix2 (0 : Fin 1) q) = arrBp V c (ix2 (0 : Fin 1) q) := by
  obtain ⟨-, -, -, -, e0, e1, -⟩ := idx1 t
  show ((cfg1.win 2).blk t).view.read (Elt Ideal) (V c (Pipeline.arrRef spec1 2)) (ix2 (0 : Fin 1) q) = _
  rw [View.read_apply]
  show arrBp V c _ = _
  refine congrArg _ (funext fun a => Fin.ext ?_)
  match a with
  | ⟨0, _⟩ => show win1_2.index t (0 : Fin 2) * 1 + 1 * 0 = 0; rw [e0]
  | ⟨1, _⟩ => show win1_2.index t (1 : Fin 2) * 4096 + 1 * q.val = q.val; rw [e1]; omega

theorem blk1_ga (t : Fin cfg1.N) (q : Fin 4096) :
    blkGa V c t (ix2 (0 : Fin 1) q) = arrGa V c (ix2 (0 : Fin 1) q) := by
  obtain ⟨-, -, -, -, -, -, e0, e1, -⟩ := idx1 t
  show ((cfg1.win 3).blk t).view.read (Elt Ideal) (V c (Pipeline.arrRef spec1 3)) (ix2 (0 : Fin 1) q) = _
  rw [View.read_apply]
  show arrGa V c _ = _
  refine congrArg _ (funext fun a => Fin.ext ?_)
  match a with
  | ⟨0, _⟩ => show win1_3.index t (0 : Fin 2) * 1 + 1 * 0 = 0; rw [e0]
  | ⟨1, _⟩ => show win1_3.index t (1 : Fin 2) * 4096 + 1 * q.val = q.val; rw [e1]; omega

theorem blk1_be (t : Fin cfg1.N) (q : Fin 4096) :
    blkBe V c t (ix2 (0 : Fin 1) q) = arrBe V c (ix2 (0 : Fin 1) q) := by
  obtain ⟨-, -, -, -, -, -, -, -, e0, e1, -⟩ := idx1 t
  show ((cfg1.win 4).blk t).view.read (Elt Ideal) (V c (Pipeline.arrRef spec1 4)) (ix2 (0 : Fin 1) q) = _
  rw [View.read_apply]
  show arrBe V c _ = _
  refine congrArg _ (funext fun a => Fin.ext ?_)
  match a with
  | ⟨0, _⟩ => show win1_4.index t (0 : Fin 2) * 1 + 1 * 0 = 0; rw [e0]
  | ⟨1, _⟩ => show win1_4.index t (1 : Fin 2) * 4096 + 1 * q.val = q.val; rw [e1]; omega

/-! ## The accumulator at the last column block of a row tile -/

/-- The partial product point n adds at a tile entry (zero past the grid, where it is never used). -/
def part1 (n : ℕ) (i : S256x4096.Idx) : EReal :=
  if h : n < cfg1.N then
    ∑ j : Fin 256, blkL V c ⟨n, h⟩ (ix2 ⟨(i 0).val, idx2_lt0 i⟩ j) * blkP V c ⟨n, h⟩ (ix2 ⟨(i 1).val, idx2_lt1 i⟩ j)
  else 0

theorem part1_pos (n : ℕ) (h : n < cfg1.N) (p : Fin 256) (q : Fin 4096) :
    part1 V c n (ix2 p q) = ∑ j : Fin 256, blkL V c ⟨n, h⟩ (ix2 p j) * blkP V c ⟨n, h⟩ (ix2 q j) := by
  unfold part1
  rw [dif_pos h]

/-- One accumulation step at a tile entry. -/
theorem step1 (n : ℕ) (h : n < cfg1.N) (acc : Vec Ideal S256x4096 .f32) (i : S256x4096.Idx) :
    ((k1_pay2 (iblk1 V c 0 ⟨n, h⟩) (iblk1 V c 1 ⟨n, h⟩) acc : Vec Ideal S256x4096 .f32) i : EReal)
      = acc i + part1 V c n i := by
  obtain ⟨p, q, rfl⟩ : ∃ (p : Fin 256) (q : Fin 4096), i = ix2 p q := ⟨i 0, i 1, eq_ix2 i⟩
  refine (pay1_2_apply (blkL V c ⟨n, h⟩) (blkP V c ⟨n, h⟩) acc p q).trans ?_
  rw [part1_pos V c n h p q]

theorem zero1 (i : S256x4096.Idx) : ((k1_pay1 (F := Ideal) : Vec Ideal S256x4096 .f32) i : EReal) = 0 := by
  obtain ⟨p, q, rfl⟩ : ∃ (p : Fin 256) (q : Fin 4096), i = ix2 p q := ⟨i 0, i 1, eq_ix2 i⟩
  exact pay1_1_apply p q

/-- At a point that writes back (the last column block of its row tile) the scratch holds the sum of the sixteen
    column blocks' partial products. -/
theorem acc1_eq_sum (t : Fin cfg1.N) (ht : t.val % 16 = 15) (i : S256x4096.Idx) :
    ((acc1 V c t.val t.isLt : Vec Ideal S256x4096 .f32) i : EReal)
      = ∑ s ∈ Finset.range 16, part1 V c (16 * (t.val / 16) + s) i := by
  have h' : 16 * (t.val / 16) + t.val % 16 < cfg1.N := by rw [Nat.div_add_mod]; exact t.isLt
  rw [Pipeline.eq_accAt_of_mod (acc1 V c) 16
    (fun n h => k1_pay2 (iblk1 V c 0 ⟨n, h⟩) (iblk1 V c 1 ⟨n, h⟩) (k1_pay1 (F := Ideal)))
    (fun n h acc => k1_pay2 (iblk1 V c 0 ⟨n, h⟩) (iblk1 V c 1 ⟨n, h⟩) acc)
    (acc1_reset V c) (acc1_step V c) (by decide) t.val t.isLt h']
  have key := Pipeline.accAt_add_apply (N := cfg1.N) (ι := S256x4096.Idx) (β := EReal)
    (fun n h => k1_pay2 (iblk1 V c 0 ⟨n, h⟩) (iblk1 V c 1 ⟨n, h⟩) (k1_pay1 (F := Ideal)))
    (fun n h acc => k1_pay2 (iblk1 V c 0 ⟨n, h⟩) (iblk1 V c 1 ⟨n, h⟩) acc)
    (fun _ => 0) (part1 V c) (16 * (t.val / 16)) 15
    (fun h i => (step1 V c _ h (k1_pay1 (F := Ideal)) i).trans (congrArg (· + part1 V c _ i) (zero1 i)))
    (fun n h acc i _ _ => step1 V c n h acc i)
    (t.val % 16) (by omega) h' i
  rw [key, ht, zero_add]

/-- A column block's partial product over the arrays: columns 256 s … 256 s + 255 of row r of the left factor and row q
    of the weights. -/
theorem part1_arr (t : Fin cfg1.N) (s : Fin 16) (p : Fin 256) (q : Fin 4096) (r : Fin 8192)
    (hr : r.val = 256 * (t.val / 16) + p.val) :
    part1 V c (16 * (t.val / 16) + s.val) (ix2 p q)
      = ∑ j : Fin 256, arrL V c (ix2 r ⟨256 * s.val + j.val, run_pos_lt s j⟩)
          * arrP V c (ix2 q ⟨256 * s.val + j.val, run_pos_lt s j⟩) := by
  have hN : cfg1.N = 512 := N_1
  have hn : 16 * (t.val / 16) + s.val < cfg1.N := by have := t.isLt; have := s.isLt; omega
  rw [part1_pos V c _ hn p q]
  refine Finset.sum_congr rfl fun j _ => ?_
  have hs : (16 * (t.val / 16) + s.val) % 16 = s.val := by have := s.isLt; omega
  have hq : (16 * (t.val / 16) + s.val) / 16 = t.val / 16 := by have := s.isLt; omega
  rw [blk1_l V c ⟨_, hn⟩ p j r ⟨256 * s.val + j.val, run_pos_lt s j⟩ (by show r.val = 256 * ((16 * (t.val / 16) + s.val) / 16) + p.val; rw [hq]; exact hr)
        (by show 256 * s.val + j.val = 256 * ((16 * (t.val / 16) + s.val) % 16) + j.val; rw [hs]),
    blk1_p V c ⟨_, hn⟩ q j ⟨256 * s.val + j.val, run_pos_lt s j⟩
        (by show 256 * s.val + j.val = 256 * ((16 * (t.val / 16) + s.val) % 16) + j.val; rw [hs])]

/-- The accumulated entry (p, j) at a writing point: the whole contraction. -/
theorem acc1_row (t : Fin cfg1.N) (ht : t.val % 16 = 15) (p : Fin 256) (j : Fin 4096) (r : Fin 8192)
    (hr : r.val = 256 * (t.val / 16) + p.val) :
    ((acc1 V c t.val t.isLt : Vec Ideal S256x4096 .f32) (ix2 p j) : EReal)
      = ∑ k : Fin 4096, arrL V c (ix2 r k) * arrP V c (ix2 j k) := by
  rw [acc1_eq_sum V c t ht (ix2 p j), Finset.sum_range,
    sum_runs 16 256 4096 (by decide) (fun k => arrL V c (ix2 r k) * arrP V c (ix2 j k))]
  exact Finset.sum_congr rfl fun s _ => part1_arr V c t s p j r hr

/-! ## The output tile, the write-backs and the array -/

/-- Normalising rows that agree entry by entry, with gains and offsets that agree, gives the same entry. -/
theorem layerNormRow_congr {y y' g g' be be' : Fin 4096 → EReal} (hy : ∀ j, y j = y' j) (hg : ∀ j, g j = g' j)
    (hb : ∀ j, be j = be' j) (q : Fin 4096) :
    Cert.Spec.layerNormRow y g be q = Cert.Spec.layerNormRow y' g' be' q := by
  obtain rfl : y = y' := funext hy
  obtain rfl : g = g' := funext hg
  obtain rfl : be = be' := funext hb
  rfl

/-- The tile a writing point leaves, at (p, q): entry (256 (t / 16) + p, q) of the result. -/
theorem fin1_apply (t : Fin cfg1.N) (ht : t.val % 16 = 15) (p : Fin 256) (q : Fin 4096) (r : Fin 8192)
    (hr : r.val = 256 * (t.val / 16) + p.val) :
    ((fin1 V c t : Vec Ideal S256x4096 .f32) (ix2 p q) : EReal) = g1 V c r q := by
  unfold fin1
  refine (pay1_3_apply (acc1 V c t.val t.isLt) (blkBp V c t) (blkGa V c t) (blkBe V c t) p q).trans ?_
  unfold g1
  exact layerNormRow_congr
    (fun j => congrArg₂ (· + ·) (acc1_row V c t ht p j r hr) (blk1_bp V c t j))
    (fun j => blk1_ga V c t j) (fun j => blk1_be V c t j) q

/-- What a writing point writes back is its block of the result array. -/
theorem flushed_eq1 (t : Fin cfg1.N) (hf : (cfg1.win 5).flush t = true) :
    (dat1 V c).flushed 5 t = ((cfg1.win 5).blk t).view.read (Elt Ideal) (G1 V c) := by
  have ht := (flush1_5 t).mp hf
  obtain ⟨-, -, -, -, -, -, -, -, -, -, e0, e1⟩ := idx1 t
  show (cfg1.win 5).cut (grid1.coords t) ((dat1 V c).after 5 t) = _
  rw [after1_5]
  funext y
  rw [View.read_apply]
  have hx : (cfg1.win 5).xinj (grid1.coords t) y
      = (ix2 (⟨(y 0).val, (y 0).isLt⟩ : Fin 256) (⟨(y 1).val, (y 1).isLt⟩ : Fin 4096) : S256x4096.Idx) :=
    funext fun a => by match a with | ⟨0, _⟩ => rfl | ⟨1, _⟩ => rfl
  have hr0 : ((((cfg1.win 5).blk t).view.emb y) 0).val = 256 * (t.val / 16) + (y 0).val := by
    show win1_5.index t (0 : Fin 2) * 256 + 1 * (y 0).val = _
    rw [e0]; omega
  have hr1 : ((((cfg1.win 5).blk t).view.emb y) 1 : Fin 4096) = ⟨(y 1).val, (y 1).isLt⟩ := Fin.ext (by
    show win1_5.index t (1 : Fin 2) * 4096 + 1 * (y 1).val = (y 1).val
    rw [e1]; omega)
  show (fin1 V c t : Vec Ideal S256x4096 .f32) ((cfg1.win 5).xinj (grid1.coords t) y)
    = g1 V c ((((cfg1.win 5).blk t).view.emb y) 0) ((((cfg1.win 5).blk t).view.emb y) 1)
  rw [hx, hr1]
  exact fin1_apply V c t ht _ _ _ hr0

/-- Every entry of the array lies in the block of the last column block's point of its row tile. -/
theorem cover1 (i : S8192x4096.Idx) :
    ∃ t : Fin cfg1.N, (cfg1.win 5).flush t = true ∧ i ∈ ((cfg1.win 5).blk t).view.set := by
  have hN : cfg1.N = 512 := N_1
  have h0 : (i 0).val < 8192 := (i 0).isLt
  have h1 : (i 1).val < 4096 := (i 1).isLt
  obtain ⟨T, hT⟩ : ∃ T : Fin cfg1.N, T.val = 16 * ((i 0).val / 256) + 15 := ⟨⟨_, by omega⟩, rfl⟩
  obtain ⟨-, -, -, -, -, -, -, -, -, -, e0, e1⟩ := idx1 T
  refine ⟨T, (flush1_5 T).mpr (by omega), ?_⟩
  show i ∈ ((View.whole main_v9).slice (win1_5.rect T)).set
  rw [View.set_slice_whole, Rect.mem_set_unit]
  intro a
  match a with
  | ⟨0, _⟩ =>
    show win1_5.index T (0 : Fin 2) * 256 ≤ (i 0).val ∧ (i 0).val < win1_5.index T (0 : Fin 2) * 256 + 256
    rw [e0]; omega
  | ⟨1, _⟩ =>
    show win1_5.index T (1 : Fin 2) * 4096 ≤ (i 1).val ∧ (i 1).val < win1_5.index T (1 : Fin 2) * 4096 + 4096
    rw [e1]; omega

/-- The second kernel's result array after the run. -/
theorem final1 : (dat1 V c).arrAt 5 cfg1.N = G1 V c :=
  (dat1 V c).arrAt_eq_of_cover 5 (G1 V c) (flushed_eq1 V c) cover1

end Cert.KernelIdeal.Val

end
-- ==== Proof.KI.ValHost.lean ====
/-
  The host operations before the two kernels, read at an index on the extended reals.

  Before the first kernel the program slices the value third (rows 8192 … 12287) out of the stacked projection weights
  and bias, changes the weights' format (the identity on extended reals), and reshapes each [4096] row vector to
  [1, 4096]. So after the stretch: the value weights at (a, k) are the stacked weights at (8192 + a, k); the value
  bias at (0, j) is the stacked bias at 8192 + j; the output projection weights are unchanged; each of the three
  other row vectors at (0, j) is its argument at j; and x is untouched.
-/
import proofs.«170811_j8761733284269_2_alg».proof.Proof.Gen.KernelIdeal.Regions
import proofs.«170811_j8761733284269_2_alg».proof.Proof.Spec
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Val

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (c : Dev nD)

/-- The seven arguments at launch, as functions of an index into the extended reals. -/
abbrev inX : S8192x4096.Idx → EReal := m ((c : Thread nD τ).loc main_arg0)
abbrev inWqkv : S12288x4096.Idx → EReal := m ((c : Thread nD τ).loc main_arg1)
abbrev inBqkv : S12288.Idx → EReal := m ((c : Thread nD τ).loc main_arg2)
abbrev inP : S4096x4096.Idx → EReal := m ((c : Thread nD τ).loc main_arg3)
abbrev inBp : S4096.Idx → EReal := m ((c : Thread nD τ).loc main_arg4)
abbrev inGa : S4096.Idx → EReal := m ((c : Thread nD τ).loc main_arg5)
abbrev inBe : S4096.Idx → EReal := m ((c : Thread nD τ).loc main_arg6)

/-- The buffers the kernels read, after the host stretch, as functions of an index into the extended reals. -/
abbrev hoX : S8192x4096.Idx → EReal := V1 m c main_arg0
abbrev hoW : S4096x4096.Idx → EReal := V1 m c main_v6
abbrev hoB : S1x4096.Idx → EReal := V1 m c main_v2
abbrev hoP : S4096x4096.Idx → EReal := V1 m c main_v7
abbrev hoBp : S1x4096.Idx → EReal := V1 m c main_v3
abbrev hoGa : S1x4096.Idx → EReal := V1 m c main_v4
abbrev hoBe : S1x4096.Idx → EReal := V1 m c main_v5

/-- x is not written by the stretch. -/
theorem host_x : hoX m c = inX m c := (V1_of m c main_arg0 (by decide)).trans rfl

/-- The value weights at (a, k): the stacked weights at (8192 + a, k). -/
theorem host_w (a k : Fin 4096) : hoW m c (ix2 a k) = inWqkv m c (ix2 (Cert.Spec.vrow a) k) := by
  have e : hoW m c = (truncf .bf16
      (extractStridedSlice S4096x4096 ![8192, 0] (inWqkv m c) slices_S12288x4096_S4096x4096_8192_0 : FVec Ideal S4096x4096 .f32)
      bitsLt_bf16_f32 : FVec Ideal S4096x4096 .bf16) := by
    show StableHlo.after hostOps0 (fun b => m (c, b)) (Proc.devRef .tc main_v6) = _
    dsimp only [hostOps0]
    after_results
    try rfl
  rw [e]
  show extractStridedSlice S4096x4096 ![8192, 0] (inWqkv m c) slices_S12288x4096_S4096x4096_8192_0 (ix2 a k) = _
  refine extractStridedSlice_apply _ _ _ (ix2 a k) (ix2 (Cert.Spec.vrow a) k) fun ax => ?_
  match ax with
  | ⟨0, _⟩ => rfl
  | ⟨1, _⟩ => exact (Nat.zero_add _).symm

/-- The value bias at (0, j): the stacked bias at 8192 + j. -/
theorem host_b (j : Fin 4096) : hoB m c (ix2 (0 : Fin 1) j) = inBqkv m c (ix1 (Cert.Spec.vrow j)) := by
  have e : hoB m c = shapeCast S1x4096
      (extractStridedSlice S4096 ![8192] (inBqkv m c) slices_S12288_S4096_8192 : S4096.Idx → EReal)
      shapeCasts_S4096_S1x4096 := by
    show StableHlo.after hostOps0 (fun b => m (c, b)) (Proc.devRef .tc main_v2) = _
    dsimp only [hostOps0]
    after_results
    try rfl
  rw [e]
  refine (shapeCast_a_1a_apply _ _ (0 : Fin 1) j).trans ?_
  refine extractStridedSlice_apply _ _ _ (ix1 j) (ix1 (Cert.Spec.vrow j)) fun ax => ?_
  match ax with
  | ⟨0, _⟩ => rfl

/-- The output projection weights: unchanged (a change of format only). -/
theorem host_p (a k : Fin 4096) : hoP m c (ix2 a k) = inP m c (ix2 a k) := by
  have e : hoP m c = (truncf .bf16 (inP m c : FVec Ideal S4096x4096 .f32) bitsLt_bf16_f32 : FVec Ideal S4096x4096 .bf16) := by
    show StableHlo.after hostOps0 (fun b => m (c, b)) (Proc.devRef .tc main_v7) = _
    dsimp only [hostOps0]
    after_results
    try rfl
  rw [e]
  rfl

/-- The output projection's bias row at (0, j): its argument at j. -/
theorem host_bp (j : Fin 4096) : hoBp m c (ix2 (0 : Fin 1) j) = inBp m c (ix1 j) := by
  have e : hoBp m c = shapeCast S1x4096 (inBp m c) shapeCasts_S4096_S1x4096 := by
    show StableHlo.after hostOps0 (fun b => m (c, b)) (Proc.devRef .tc main_v3) = _
    dsimp only [hostOps0]
    after_results
    try rfl
  rw [e]
  exact shapeCast_a_1a_apply _ _ (0 : Fin 1) j

/-- The gain row at (0, j): its argument at j. -/
theorem host_ga (j : Fin 4096) : hoGa m c (ix2 (0 : Fin 1) j) = inGa m c (ix1 j) := by
  have e : hoGa m c = shapeCast S1x4096 (inGa m c) shapeCasts_S4096_S1x4096 := by
    show StableHlo.after hostOps0 (fun b => m (c, b)) (Proc.devRef .tc main_v4) = _
    dsimp only [hostOps0]
    after_results
    try rfl
  rw [e]
  exact shapeCast_a_1a_apply _ _ (0 : Fin 1) j

/-- The offset row at (0, j): its argument at j. -/
theorem host_be (j : Fin 4096) : hoBe m c (ix2 (0 : Fin 1) j) = inBe m c (ix1 j) := by
  have e : hoBe m c = shapeCast S1x4096 (inBe m c) shapeCasts_S4096_S1x4096 := by
    show StableHlo.after hostOps0 (fun b => m (c, b)) (Proc.devRef .tc main_v5) = _
    dsimp only [hostOps0]
    after_results
    try rfl
  rw [e]
  exact shapeCast_a_1a_apply _ _ (0 : Fin 1) j

end Cert.KernelIdeal.Val

end
-- ==== Proof.KI.ValMain.lean ====
/-
  The kernel program's result, entry by entry, is the specification's function of the seven arguments.

  The second kernel reads, as its left factor, what the first kernel's write-backs left: the value projection of x
  (its weights and bias being the value third of the stacked projection, by the host slices). Its other operands are the
  output projection's weights (unchanged by the host's change of format) and the three row vectors (the host's
  reshapes of the arguments). So each entry of the result is the row of the projected value projection plus the bias,
  normalised with the gain and offset rows: the specification's entry.
-/
import proofs.«170811_j8761733284269_2_alg».proof.Proof.KI.Main
import proofs.«170811_j8761733284269_2_alg».proof.Proof.KI.ValR0
import proofs.«170811_j8761733284269_2_alg».proof.Proof.KI.ValR1
import proofs.«170811_j8761733284269_2_alg».proof.Proof.KI.ValHost
import proofs.«170811_j8761733284269_2_alg».proof.Proof.Spec

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (c : Dev nD)

/-! ## What the second kernel finds in its operands -/

/-- Its left factor is the first kernel's result array. -/
theorem arrL_eq : arrL (Ve2 m) c = G0 (Ve1 m) c := (Ve2_main_v8 m c).trans (final0 (Ve1 m) c)
/-- Its other operands are as the host stretch left them. -/
theorem arrP_eq : arrP (Ve2 m) c = hoP m c := Ve2_of_ne m c main_v7 (by decide)
theorem arrBp_eq : arrBp (Ve2 m) c = hoBp m c := Ve2_of_ne m c main_v3 (by decide)
theorem arrGa_eq : arrGa (Ve2 m) c = hoGa m c := Ve2_of_ne m c main_v4 (by decide)
theorem arrBe_eq : arrBe (Ve2 m) c = hoBe m c := Ve2_of_ne m c main_v5 (by decide)

/-- The left factor at (r, k): the value projection of x. -/
theorem left_factor (r : Fin 8192) (k : Fin 4096) :
    arrL (Ve2 m) c (ix2 r k) = Cert.Spec.vproj (inX m c) (inWqkv m c) (inBqkv m c) r k := by
  rw [arrL_eq m c]
  show g0 (Ve1 m) c r k = _
  unfold g0 Cert.Spec.vproj
  refine congrArg₂ (· + ·) (Finset.sum_congr rfl fun k' _ => congrArg₂ (· * ·) ?_ ?_) ?_
  · exact congrFun (host_x m c) (ix2 r k')
  · exact host_w m c k k'
  · exact host_b m c k

/-- Entry (r, q) of the second kernel's result: the specification's. -/
theorem out_entry (r : Fin 8192) (q : Fin 4096) :
    g1 (Ve2 m) c r q
      = Cert.Spec.outAt (inX m c) (inWqkv m c) (inBqkv m c) (inP m c) (inBp m c) (inGa m c) (inBe m c) r q := by
  unfold g1 Cert.Spec.outAt
  refine layerNormRow_congr (fun j => ?_) (fun j => ?_) (fun j => ?_) q
  · show (∑ k : Fin 4096, arrL (Ve2 m) c (ix2 r k) * arrP (Ve2 m) c (ix2 j k)) + arrBp (Ve2 m) c (ix2 (0 : Fin 1) j)
      = (∑ k : Fin 4096, Cert.Spec.vproj (inX m c) (inWqkv m c) (inBqkv m c) r k * inP m c (ix2 j k)) + inBp m c (ix1 j)
    refine congrArg₂ (· + ·) (Finset.sum_congr rfl fun k _ => congrArg₂ (· * ·) (left_factor m c r k) ?_) ?_
    · exact (congrFun (arrP_eq m c) (ix2 j k)).trans (host_p m c j k)
    · exact (congrFun (arrBp_eq m c) (ix2 (0 : Fin 1) j)).trans (host_bp m c j)
  · exact (congrFun (arrGa_eq m c) (ix2 (0 : Fin 1) j)).trans (host_ga m c j)
  · exact (congrFun (arrBe_eq m c) (ix2 (0 : Fin 1) j)).trans (host_be m c j)

/-- The kernel program's result array is the specification's function of the launch contents of the arguments. -/
theorem kernel_value :
    (dat1 (F := Ideal) (Ve2 m) c).arrAt 5 cfg1.N
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  rw [final1 (Ve2 m) c]
  show (fun i : S8192x4096.Idx => g1 (Ve2 m) c (i 0) (i 1))
    = fun i => Cert.Spec.outAt (inX m c) (inWqkv m c) (inBqkv m c) (inP m c) (inBp m c) (inGa m c) (inBe m c) (i 0) (i 1)
  exact funext fun i => out_entry m c (i 0) (i 1)

end Cert.KernelIdeal.Val

end
-- ==== Proof.RefRun.lean ====
/-
  The reference program's @main as the list of its host operations — the outlined variance function and the
  select it calls listed inline over their calls' buffer records — and its run read back: every weakly fair
  execution terminates with the result buffer at `refTerm` of the seven argument arrays and the arguments unchanged.
  `refTerm` is the operations' composed pure term, stated through named stages:
    qkv      x·Wᵀ + b, the stacked projection [8192, 12288]
    heads    its split into (part, row, head, key, lane)
    part0/1/2  the query, key and value parts [8192, 8, 1, 512]
    scores   q·k / 64 over the lane axis;  probs  the softmax over the (single) key
    attend   the probabilities applied to the values;  merge  heads back to [8192, 4096]
    proj     v·Pᵀ + p
    meanCol, varCol, lnorm   the row mean, the row variance (a select on 4096 − 0 > 0) and the normalisation
-/
import proofs.«170811_j8761733284269_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages of the composed term -/

/-- The stacked projection x·Wᵀ + b. -/
def qkv (x : FVec F S8192x4096 .f32) (W : FVec F S12288x4096 .f32) (b : FVec F S12288 .f32) : FVec F S8192x12288 .f32 :=
  addf (Host.dotGeneral dot_S8192x4096_S4096x12288_S8192x12288_1_0_0_1_n_n none x
      (transpose S4096x12288 [1, 0] W transposes_S12288x4096_S4096x12288_1_0))
    (broadcastInDim S8192x12288 ![0, 1] bcast_S1x12288_S8192x12288_0_1
      (broadcastInDim S1x12288 ![1] bcast_S12288_S1x12288_1 b))

/-- The projection split into (part, row, head, key, lane). -/
def heads (u : FVec F S8192x12288 .f32) : FVec F S3x8192x8x1x512 .f32 :=
  transpose S3x8192x8x1x512 [2, 0, 3, 1, 4]
    (shapeCast S8192x1x3x8x512 u shapeCasts_S8192x12288_S8192x1x3x8x512)
    transposes_S8192x1x3x8x512_S3x8192x8x1x512_2_0_3_1_4

/-- Part 0 (the queries). -/
def part0 (h : FVec F S3x8192x8x1x512 .f32) : FVec F S8192x8x1x512 .f32 :=
  shapeCast S8192x8x1x512
    (extractStridedSlice S1x8192x8x1x512 ![0, 0, 0, 0, 0] h slices_S3x8192x8x1x512_S1x8192x8x1x512_0_0_0_0_0)
    shapeCasts_S1x8192x8x1x512_S8192x8x1x512

/-- Part 1 (the keys). -/
def part1 (h : FVec F S3x8192x8x1x512 .f32) : FVec F S8192x8x1x512 .f32 :=
  shapeCast S8192x8x1x512
    (extractStridedSlice S1x8192x8x1x512 ![1, 0, 0, 0, 0] h slices_S3x8192x8x1x512_S1x8192x8x1x512_1_0_0_0_0)
    shapeCasts_S1x8192x8x1x512_S8192x8x1x512

/-- Part 2 (the values). -/
def part2 (h : FVec F S3x8192x8x1x512 .f32) : FVec F S8192x8x1x512 .f32 :=
  shapeCast S8192x8x1x512
    (extractStridedSlice S1x8192x8x1x512 ![2, 0, 0, 0, 0] h slices_S3x8192x8x1x512_S1x8192x8x1x512_2_0_0_0_0)
    shapeCasts_S1x8192x8x1x512_S8192x8x1x512

/-- The scaled scores q·k over the lane axis. -/
def scores (q k : FVec F S8192x8x1x512 .f32) : FVec F S8192x8x1x1 .f32 :=
  mulf (Host.dotGeneral dot_S8192x8x1x512_S8192x8x1x512_S8192x8x1x1_3_3_2_2_01_01 none q k)
    (broadcastInDim S8192x8x1x1 ![] bcast_S_S8192x8x1x1 (constant S_ .f32 0x3C800000#32))

/-- The running maximum over the key axis, broadcast back. -/
def smax (s : FVec F S8192x8x1x1 .f32) : FVec F S8192x8x1x1 .f32 :=
  broadcastInDim S8192x8x1x1 ![0, 1, 2] bcast_S8192x8x1_S8192x8x1x1_0_1_2
    (maximumf (broadcastInDim S8192x8x1 ![] bcast_S_S8192x8x1 (constant S_ .f32 0xFF800000#32))
      (Host.reduce FloatOps.maximumf s (constant S_ .f32 0xFF800000#32) reducesTo_S8192x8x1x1_S8192x8x1_d3 h_S_))

/-- The exponentials of the centred scores. -/
def expo (s : FVec F S8192x8x1x1 .f32) : FVec F S8192x8x1x1 .f32 :=
  Host.exp (subf s (smax s))

/-- The softmax over the key axis. -/
def probs (s : FVec F S8192x8x1x1 .f32) : FVec F S8192x8x1x1 .f32 :=
  Host.divf (expo s)
    (broadcastInDim S8192x8x1x1 ![0, 1, 2] bcast_S8192x8x1_S8192x8x1x1_0_1_2
      (Host.reduceAdd (expo s) (constant S_ .f32 0x00000000#32) reducesTo_S8192x8x1x1_S8192x8x1_d3 h_S_))

/-- The probabilities applied to the values. -/
def attend (pr : FVec F S8192x8x1x1 .f32) (v : FVec F S8192x8x1x512 .f32) : FVec F S8192x8x1x512 .f32 :=
  Host.dotGeneral dot_S8192x8x1x1_S8192x8x1x512_S8192x8x1x512_3_2_2_3_01_01 none pr v

/-- Heads merged back into columns. -/
def merge (a : FVec F S8192x8x1x512 .f32) : FVec F S8192x4096 .f32 :=
  shapeCast S8192x4096
    (transpose S8192x1x8x512 [0, 2, 1, 3] a transposes_S8192x8x1x512_S8192x1x8x512_0_2_1_3)
    shapeCasts_S8192x1x8x512_S8192x4096

/-- The attention output from the split projection. -/
def attnOf (h : FVec F S3x8192x8x1x512 .f32) : FVec F S8192x4096 .f32 :=
  merge (attend (probs (scores (part0 h) (part1 h))) (part2 h))

/-- The output projection v·Pᵀ + p. -/
def proj (v : FVec F S8192x4096 .f32) (P : FVec F S4096x4096 .f32) (p : FVec F S4096 .f32) : FVec F S8192x4096 .f32 :=
  addf (Host.dotGeneral dot_S8192x4096_S4096x4096_S8192x4096_1_0_0_1_n_n none v
      (transpose S4096x4096 [1, 0] P transposes_S4096x4096_S4096x4096_1_0))
    (broadcastInDim S8192x4096 ![0, 1] bcast_S1x4096_S8192x4096_0_1
      (broadcastInDim S1x4096 ![1] bcast_S4096_S1x4096_1 p))

/-- The row means, as a column. -/
def meanCol (y : FVec F S8192x4096 .f32) : FVec F S8192x1 .f32 :=
  Host.divf
    (broadcastInDim S8192x1 ![0] bcast_S8192_S8192x1_0
      (Host.reduceAdd y (constant S_ .f32 0x00000000#32) reducesTo_S8192x4096_S8192_d1 h_S_))
    (broadcastInDim S8192x1 ![] bcast_S_S8192x1 (constant S_ .f32 0x45800000#32))

/-- The rows centred at their means. -/
def centred (y : FVec F S8192x4096 .f32) : FVec F S8192x4096 .f32 :=
  subf y (broadcastInDim S8192x4096 ![0, 1] bcast_S8192x1_S8192x4096_0_1 (meanCol y))

/-- The variance's divisor 4096 − 0, a scalar. -/
def dof : FVec F S_ .f32 :=
  subf (constant S_ .f32 0x45800000#32) (sitofp .f32 (constantI S_ 32 0#32))

/-- The row variances, as a column: the mean square of the centred row where the divisor is positive. -/
def varCol (y : FVec F S8192x4096 .f32) : FVec F S8192x1 .f32 :=
  select (broadcastInDim S8192x1 ![] bcast_S_S8192x1 (cmpf .ogt (dof (F := F)) (constant S_ .f32 0x00000000#32)))
    (Host.divf
      (broadcastInDim S8192x1 ![0] bcast_S8192_S8192x1_0
        (Host.reduceAdd (mulf (centred y) (centred y)) (constant S_ .f32 0x00000000#32) reducesTo_S8192x4096_S8192_d1 h_S_))
      (broadcastInDim S8192x1 ![] bcast_S_S8192x1 (dof (F := F))))
    (broadcastInDim S8192x1 ![] bcast_S_S8192x1 (constant S_ .f32 0x7FC00000#32))

/-- The normalisation of every row, then the affine map. -/
def lnorm (y : FVec F S8192x4096 .f32) (g be : FVec F S4096 .f32) : FVec F S8192x4096 .f32 :=
  addf
    (mulf
      (mulf (centred y)
        (broadcastInDim S8192x4096 ![0, 1] bcast_S8192x1_S8192x4096_0_1
          (Host.rsqrt (addf (varCol y) (broadcastInDim S8192x1 ![] bcast_S_S8192x1 (constant S_ .f32 0x3727C5AC#32))))))
      (broadcastInDim S8192x4096 ![0, 1] bcast_S1x4096_S8192x4096_0_1
        (broadcastInDim S1x4096 ![1] bcast_S4096_S1x4096_1 g)))
    (broadcastInDim S8192x4096 ![0, 1] bcast_S1x4096_S8192x4096_0_1
      (broadcastInDim S1x4096 ![1] bcast_S4096_S1x4096_1 be))

/-- The reference's result as a function of its seven arguments. -/
def refTerm (x : FVec F S8192x4096 .f32) (W : FVec F S12288x4096 .f32) (b : FVec F S12288 .f32)
    (P : FVec F S4096x4096 .f32) (p g be : FVec F S4096 .f32) : FVec F S8192x4096 .f32 :=
  lnorm (proj (attnOf (heads (qkv x W b))) P p) g be

/-! ## The program as a list of operations -/

/-- @main's operations in order; the variance function's twenty and, inside it, the select function's three are listed
    at the call, over the call records `main_call0` and `main_call0.call0`. -/
abbrev ops : List (HloOp τ sig (Elt F)) :=
  [ StableHlo.unary main_arg1 main_v0 ((transpose S4096x12288 [1, 0] · transposes_S12288x4096_S4096x12288_1_0) : (⟨S12288x4096, .f32⟩ : BufTy).Contents (Elt F) → (⟨S4096x12288, .f32⟩ : BufTy).Contents (Elt F)),
    StableHlo.binary main_arg0 main_v0 main_v1 ((fun l r => Host.dotGeneral dot_S8192x4096_S4096x12288_S8192x12288_1_0_0_1_n_n none l r) : (⟨S8192x4096, .f32⟩ : BufTy).Contents (Elt F) → (⟨S4096x12288, .f32⟩ : BufTy).Contents (Elt F) → (⟨S8192x12288, .f32⟩ : BufTy).Contents (Elt F)),
    StableHlo.unary main_arg2 main_v2 (broadcastInDim S1x12288 ![1] bcast_S12288_S1x12288_1 : (⟨S12288, .f32⟩ : BufTy).Contents (Elt F) → (⟨S1x12288, .f32⟩ : BufTy).Contents (Elt F)),
    StableHlo.unary main_v2 main_v3 (broadcastInDim S8192x12288 ![0, 1] bcast_S1x12288_S8192x12288_0_1 : (⟨S1x12288, .f32⟩ : BufTy).Contents (Elt F) → (⟨S8192x12288, .f32⟩ : BufTy).Contents (Elt F)),
    StableHlo.binary main_v1 main_v3 main_v4 (addf : (⟨S8192x12288, .f32⟩ : BufTy).Contents (Elt F) → (⟨S8192x12288, .f32⟩ : BufTy).Contents (Elt F) → (⟨S8192x12288, .f32⟩ : BufTy).Contents (Elt F)),
    StableHlo.reshape main_v4 main_v5 rfl shapeCasts_S8192x12288_S8192x1x3x8x512,
    StableHlo.unary main_v5 main_v6 ((transpose S3x8192x8x1x512 [2, 0, 3, 1, 4] · transposes_S8192x1x3x8x512_S3x8192x8x1x512_2_0_3_1_4) : (⟨S8192x1x3x8x512, .f32⟩ : BufTy).Contents (Elt F) → (⟨S3x8192x8x1x512, .f32⟩ : BufTy).Contents (Elt F)),
    StableHlo.unary main_v6 main_v7 ((extractStridedSlice S1x8192x8x1x512 ![0, 0, 0, 0, 0] · slices_S3x8192x8x1x512_S1x8192x8x1x512_0_0_0_0_0) : (⟨S3x8192x8x1x512, .f32⟩ : BufTy).Contents (Elt F) → (⟨S1x8192x8x1x512, .f32⟩ : BufTy).Contents (Elt F)),
    StableHlo.reshape main_v7 main_v8 rfl shapeCasts_S1x8192x8x1x512_S8192x8x1x512,
    StableHlo.unary main_v6 main_v9 ((extractStridedSlice S1x8192x8x1x512 ![1, 0, 0, 0, 0] · slices_S3x8192x8x1x512_S1x8192x8x1x512_1_0_0_0_0) : (⟨S3x8192x8x1x512, .f32⟩ : BufTy).Contents (Elt F) → (⟨S1x8192x8x1x512, .f32⟩ : BufTy).Contents (Elt F)),
    StableHlo.reshape main_v9 main_v10 rfl shapeCasts_S1x8192x8x1x512_S8192x8x1x512,
    StableHlo.unary main_v6 main_v11 ((extractStridedSlice S1x8192x8x1x512 ![2, 0, 0, 0, 0] · slices_S3x8192x8x1x512_S1x8192x8x1x512_2_0_0_0_0) : (⟨S3x8192x8x1x512, .f32⟩ : BufTy).Contents (Elt F) → (⟨S1x8192x8x1x512, .f32⟩ : BufTy).Contents (Elt F)),
    StableHlo.reshape main_v11 main_v12 rfl shapeCasts_S1x8192x8x1x512_S8192x8x1x512,
    StableHlo.binary main_v8 main_v10 main_v13 ((fun l r => Host.dotGeneral dot_S8192x8x1x512_S8192x8x1x512_S8192x8x1x1_3_3_2_2_01_01 none l r) : (⟨S8192x8x1x512, .f32⟩ : BufTy).Contents (Elt F) → (⟨S8192x8x1x512, .f32⟩ : BufTy).Contents (Elt F) → (⟨S8192x8x1x1, .f32⟩ : BufTy).Contents (Elt F)),
    StableHlo.nullary main_cst (constant S_ .f32 0x3C800000#32),
    StableHlo.unary main_cst main_v14 (broadcastInDim S8192x8x1x1 ![] bcast_S_S8192x8x1x1 : (⟨S_, .f32⟩ : BufTy).Contents (Elt F) → (⟨S8192x8x1x1, .f32⟩ : BufTy).Contents (Elt F)),
    StableHlo.binary main_v13 main_v14 main_v15 (mulf : (⟨S8192x8x1x1, .f32⟩ : BufTy).Contents (Elt F) → (⟨S8192x8x1x1, .f32⟩ : BufTy).Contents (Elt F) → (⟨S8192x8x1x1, .f32⟩ : BufTy).Contents (Elt F)),
    StableHlo.nullary main_cst_0 (constant S_ .f32 0xFF800000#32),
    StableHlo.binary main_v15 main_cst_0 main_v16 ((fun x v => Host.reduce FloatOps.maximumf x v reducesTo_S8192x8x1x1_S8192x8x1_d3 h_S_) : (⟨S8192x8x1x1, .f32⟩ : BufTy).Contents (Elt F) → (⟨S_, .f32⟩ : BufTy).Contents (Elt F) → (⟨S8192x8x1, .f32⟩ : BufTy).Contents (Elt F)),
    StableHlo.nullary main_cst_1 (constant S_ .f32 0xFF800000#32),
    StableHlo.unary main_cst_1 main_v17 (broadcastInDim S8192x8x1 ![] bcast_S_S8192x8x1 : (⟨S_, .f32⟩ : BufTy).Contents (Elt F) → (⟨S8192x8x1, .f32⟩ : BufTy).Contents (Elt F)),
    StableHlo.binary main_v17 main_v16 main_v18 (maximumf : (⟨S8192x8x1, .f32⟩ : BufTy).Contents (Elt F) → (⟨S8192x8x1, .f32⟩ : BufTy).Contents (Elt F) → (⟨S8192x8x1, .f32⟩ : BufTy).Contents (Elt F)),
    StableHlo.unary main_v18 main_v19 (broadcastInDim S8192x8x1x1 ![0, 1, 2] bcast_S8192x8x1_S8192x8x1x1_0_1_2 : (⟨S8192x8x1, .f32⟩ : BufTy).Contents (Elt F) → (⟨S8192x8x1x1, .f32⟩ : BufTy).Contents (Elt F)),
    StableHlo.binary main_v15 main_v19 main_v20 (subf : (⟨S8192x8x1x1, .f32⟩ : BufTy).Contents (Elt F) → (⟨S8192x8x1x1, .f32⟩ : BufTy).Contents (Elt F) → (⟨S8192x8x1x1, .f32⟩ : BufTy).Contents (Elt F)),
    StableHlo.unary main_v20 main_v21 (Host.exp : (⟨S8192x8x1x1, .f32⟩ : BufTy).Contents (Elt F) → (⟨S8192x8x1x1, .f32⟩ : BufTy).Contents (Elt F)),
    StableHlo.nullary main_cst_2 (constant S_ .f32 0x00000000#32),
    StableHlo.binary main_v21 main_cst_2 main_v22 ((fun x v => Host.reduceAdd x v reducesTo_S8192x8x1x1_S8192x8x1_d3 h_S_) : (⟨S8192x8x1x1, .f32⟩ : BufTy).Contents (Elt F) → (⟨S_, .f32⟩ : BufTy).Contents (Elt F) → (⟨S8192x8x1, .f32⟩ : BufTy).Contents (Elt F)),
    StableHlo.unary main_v22 main_v23 (broadcastInDim S8192x8x1x1 ![0, 1, 2] bcast_S8192x8x1_S8192x8x1x1_0_1_2 : (⟨S8192x8x1, .f32⟩ : BufTy).Contents (Elt F) → (⟨S8192x8x1x1, .f32⟩ : BufTy).Contents (Elt F)),
    StableHlo.binary main_v21 main_v23 main_v24 (Host.divf : (⟨S8192x8x1x1, .f32⟩ : BufTy).Contents (Elt F) → (⟨S8192x8x1x1, .f32⟩ : BufTy).Contents (Elt F) → (⟨S8192x8x1x1, .f32⟩ : BufTy).Contents (Elt F)),
    StableHlo.binary main_v24 main_v12 main_v25 ((fun l r => Host.dotGeneral dot_S8192x8x1x1_S8192x8x1x512_S8192x8x1x512_3_2_2_3_01_01 none l r) : (⟨S8192x8x1x1, .f32⟩ : BufTy).Contents (Elt F) → (⟨S8192x8x1x512, .f32⟩ : BufTy).Contents (Elt F) → (⟨S8192x8x1x512, .f32⟩ : BufTy).Contents (Elt F)),
    StableHlo.unary main_v25 main_v26 ((transpose S8192x1x8x512 [0, 2, 1, 3] · transposes_S8192x8x1x512_S8192x1x8x512_0_2_1_3) : (⟨S8192x8x1x512, .f32⟩ : BufTy).Contents (Elt F) → (⟨S8192x1x8x512, .f32⟩ : BufTy).Contents (Elt F)),
    StableHlo.reshape main_v26 main_v27 rfl shapeCasts_S8192x1x8x512_S8192x4096,
    StableHlo.unary main_arg3 main_v28 ((transpose S4096x4096 [1, 0] · transposes_S4096x4096_S4096x4096_1_0) : (⟨S4096x4096, .f32⟩ : BufTy).Contents (Elt F) → (⟨S4096x4096, .f32⟩ : BufTy).Contents (Elt F)),
    StableHlo.binary main_v27 main_v28 main_v29 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.unary main_arg4 main_v30 (broadcastInDim S1x4096 ![1] bcast_S4096_S1x4096_1 : (⟨S4096, .f32⟩ : BufTy).Contents (Elt F) → (⟨S1x4096, .f32⟩ : BufTy).Contents (Elt F)),
    StableHlo.unary main_v30 main_v31 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v29 main_v31 main_v32 (addf : (⟨S8192x4096, .f32⟩ : BufTy).Contents (Elt F) → (⟨S8192x4096, .f32⟩ : BufTy).Contents (Elt F) → (⟨S8192x4096, .f32⟩ : BufTy).Contents (Elt F)),
    StableHlo.nullary main_cst_3 (constant S_ .f32 0x00000000#32),
    StableHlo.binary main_v32 main_cst_3 main_v33 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.unary main_v33 main_v34 (broadcastInDim S8192x1 ![0] bcast_S8192_S8192x1_0 : (⟨S8192, .f32⟩ : BufTy).Contents (Elt F) → (⟨S8192x1, .f32⟩ : BufTy).Contents (Elt F)),
    StableHlo.nullary main_cst_4 (constant S_ .f32 0x45800000#32),
    StableHlo.unary main_cst_4 main_v35 (broadcastInDim S8192x1 ![] bcast_S_S8192x1 : (⟨S_, .f32⟩ : BufTy).Contents (Elt F) → (⟨S8192x1, .f32⟩ : BufTy).Contents (Elt F)),
    StableHlo.binary main_v34 main_v35 main_v36 (Host.divf : (⟨S8192x1, .f32⟩ : BufTy).Contents (Elt F) → (⟨S8192x1, .f32⟩ : BufTy).Contents (Elt F) → (⟨S8192x1, .f32⟩ : BufTy).Contents (Elt F)),
    StableHlo.nullary main_c (constantI S_ 32 0#32),
    StableHlo.TRef.nullary main_call0.cst (constant S_ .f32 0x00000000#32),
    StableHlo.TRef.binary (.of main_v32 : TRef sig ⟨S8192x4096, .f32⟩) main_call0.cst main_call0.v0 (fun x v => Host.reduceAdd x v reducesTo_S8192x4096_S8192_d1 h_S_),
    StableHlo.TRef.unary main_call0.v0 main_call0.v1 (broadcastInDim S8192x1 ![0] bcast_S8192_S8192x1_0),
    StableHlo.TRef.nullary main_call0.cst_0 (constant S_ .f32 0x45800000#32),
    StableHlo.TRef.unary main_call0.cst_0 main_call0.v2 (broadcastInDim S8192x1 ![] bcast_S_S8192x1),
    StableHlo.TRef.binary main_call0.v1 main_call0.v2 main_call0.v3 Host.divf,
    StableHlo.TRef.unary main_call0.v3 main_call0.v4 (broadcastInDim S8192x4096 ![0, 1] bcast_S8192x1_S8192x4096_0_1),
    StableHlo.TRef.binary (.of main_v32 : TRef sig ⟨S8192x4096, .f32⟩) main_call0.v4 main_call0.v5 subf,
    StableHlo.TRef.binary main_call0.v5 main_call0.v5 main_call0.v6 mulf,
    StableHlo.TRef.unary (.of main_c : TRef sig ⟨S_, .i32⟩) main_call0.v7 (sitofp .f32),
    StableHlo.TRef.nullary main_call0.cst_1 (constant S_ .f32 0x45800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8192x4096_S8192_d1 h_S_),
    StableHlo.TRef.unary main_call0.v9 main_call0.v10 (broadcastInDim S8192x1 ![0] bcast_S8192_S8192x1_0),
    StableHlo.TRef.unary main_call0.v8 main_call0.v11 (broadcastInDim S8192x1 ![] bcast_S_S8192x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8192x1 ![] bcast_S_S8192x1),
    StableHlo.TRef.ternary main_call0.v13 main_call0.v12 main_call0.call0.v1 main_call0.call0.v2 (fun p a b => select (broadcastInDim S8192x1 ![] bcast_S_S8192x1 p) a b),
    StableHlo.unary main_v36 main_v38 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v32 main_v38 main_v39 (subf : (⟨S8192x4096, .f32⟩ : BufTy).Contents (Elt F) → (⟨S8192x4096, .f32⟩ : BufTy).Contents (Elt F) → (⟨S8192x4096, .f32⟩ : BufTy).Contents (Elt F)),
    StableHlo.nullary main_cst_5 (constant S_ .f32 0x3727C5AC#32),
    StableHlo.unary main_cst_5 main_v40 (broadcastInDim S8192x1 ![] bcast_S_S8192x1 : (⟨S_, .f32⟩ : BufTy).Contents (Elt F) → (⟨S8192x1, .f32⟩ : BufTy).Contents (Elt F)),
    StableHlo.binary main_v37 main_v40 main_v41 (addf : (⟨S8192x1, .f32⟩ : BufTy).Contents (Elt F) → (⟨S8192x1, .f32⟩ : BufTy).Contents (Elt F) → (⟨S8192x1, .f32⟩ : BufTy).Contents (Elt F)),
    StableHlo.unary main_v41 main_v42 (Host.rsqrt : (⟨S8192x1, .f32⟩ : BufTy).Contents (Elt F) → (⟨S8192x1, .f32⟩ : BufTy).Contents (Elt F)),
    StableHlo.unary main_v42 main_v43 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v39 main_v43 main_v44 (mulf : (⟨S8192x4096, .f32⟩ : BufTy).Contents (Elt F) → (⟨S8192x4096, .f32⟩ : BufTy).Contents (Elt F) → (⟨S8192x4096, .f32⟩ : BufTy).Contents (Elt F)),
    StableHlo.unary main_arg5 main_v45 (broadcastInDim S1x4096 ![1] bcast_S4096_S1x4096_1 : (⟨S4096, .f32⟩ : BufTy).Contents (Elt F) → (⟨S1x4096, .f32⟩ : BufTy).Contents (Elt F)),
    StableHlo.unary main_v45 main_v46 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v44 main_v46 main_v47 (mulf : (⟨S8192x4096, .f32⟩ : BufTy).Contents (Elt F) → (⟨S8192x4096, .f32⟩ : BufTy).Contents (Elt F) → (⟨S8192x4096, .f32⟩ : BufTy).Contents (Elt F)),
    StableHlo.unary main_arg6 main_v48 (broadcastInDim S1x4096 ![1] bcast_S4096_S1x4096_1 : (⟨S4096, .f32⟩ : BufTy).Contents (Elt F) → (⟨S1x4096, .f32⟩ : BufTy).Contents (Elt F)),
    StableHlo.unary main_v48 main_v49 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v47 main_v49 main_v50 (addf : (⟨S8192x4096, .f32⟩ : BufTy).Contents (Elt F) → (⟨S8192x4096, .f32⟩ : BufTy).Contents (Elt F) → (⟨S8192x4096, .f32⟩ : BufTy).Contents (Elt F)) ]

set_option maxRecDepth 4096 in
set_option maxHeartbeats 1000000 in
/-- @main is that straight line: sequencing is grafting at the leaves, so the two functions' bodies unfolded at their
    calls and the list run in order are the same tree of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., reshape_bufs_sub .., unary_bufs_sub .., unary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., binary_bufs_sub .., nullary_bufs_sub .., unary_bufs_sub .., binary_bufs_sub .., unary_bufs_sub .., binary_bufs_sub .., unary_bufs_sub .., nullary_bufs_sub .., binary_bufs_sub .., unary_bufs_sub .., binary_bufs_sub .., binary_bufs_sub .., unary_bufs_sub .., reshape_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-! ## What the buffers hold after the line -/

set_option maxRecDepth 16384 in
set_option maxHeartbeats 4000000 in
/-- The result buffer after the line: each operation's result at its own buffer is its function of its operands'
    contents, which composes to `refTerm` of the arguments' contents. -/
theorem after_result (V : Valuation τ sig (Elt F)) :
    after ops V (main_v50 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

set_option maxRecDepth 16384 in
set_option maxHeartbeats 4000000 in
/-- No operation writes argument 0. -/
theorem after_arg0 (V : Valuation τ sig (Elt F)) :
    after ops V (main_arg0 : DevRef τ sig) = V (main_arg0 : DevRef τ sig) := by
  after_results_simp

set_option maxRecDepth 16384 in
set_option maxHeartbeats 4000000 in
/-- No operation writes argument 1. -/
theorem after_arg1 (V : Valuation τ sig (Elt F)) :
    after ops V (main_arg1 : DevRef τ sig) = V (main_arg1 : DevRef τ sig) := by
  after_results_simp

set_option maxRecDepth 16384 in
set_option maxHeartbeats 4000000 in
/-- No operation writes argument 2. -/
theorem after_arg2 (V : Valuation τ sig (Elt F)) :
    after ops V (main_arg2 : DevRef τ sig) = V (main_arg2 : DevRef τ sig) := by
  after_results_simp

set_option maxRecDepth 16384 in
set_option maxHeartbeats 4000000 in
/-- No operation writes argument 3. -/
theorem after_arg3 (V : Valuation τ sig (Elt F)) :
    after ops V (main_arg3 : DevRef τ sig) = V (main_arg3 : DevRef τ sig) := by
  after_results_simp

set_option maxRecDepth 16384 in
set_option maxHeartbeats 4000000 in
/-- No operation writes argument 4. -/
theorem after_arg4 (V : Valuation τ sig (Elt F)) :
    after ops V (main_arg4 : DevRef τ sig) = V (main_arg4 : DevRef τ sig) := by
  after_results_simp

set_option maxRecDepth 16384 in
set_option maxHeartbeats 4000000 in
/-- No operation writes argument 5. -/
theorem after_arg5 (V : Valuation τ sig (Elt F)) :
    after ops V (main_arg5 : DevRef τ sig) = V (main_arg5 : DevRef τ sig) := by
  after_results_simp

set_option maxRecDepth 16384 in
set_option maxHeartbeats 4000000 in
/-- No operation writes argument 6. -/
theorem after_arg6 (V : Valuation τ sig (Elt F)) :
    after ops V (main_arg6 : DevRef τ sig) = V (main_arg6 : DevRef τ sig) := by
  after_results_simp

/-! ## The run -/

/-- On every device, for any float values, from any memory with zero counters: every weakly fair execution of
    @main terminates with the result at `refTerm` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v50)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v50).trans (after_result (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c)),
      (h c main_arg6).trans (after_arg6 (launchContents m c))⟩)
    (run_seq scopedRefs_eq scopedSems_eq defs main (fun _ => ops) main_eq (fun _ => ops_sub) m ρ)

end Cert.ReferenceIdeal.RefRun

end
-- ==== Proof.LibRowOps.lean ====
/-
  What a softmax over the rows of an [a, b] array is made of, read at an index on the extended reals:
    * a row statistic y : [a] kept as a column — cast to [a, 1], then broadcast to [a, b] — reads y at the row, at every
      column;
    * the maximum over a row, from the accumulator's value, is the fold of `max` over the row's b entries;
    * the sum over a row is the sum of the row's b entries.
  Over any extents a, b.
-/
import Idealize.ShloMosaic.PureOps.Ideal.Laws
import Idealize.ShloMosaic.Lib.ValueIdx
import Idealize.ShloMosaic.Lib.Pipeline.Value

namespace Cert.LibRowOps

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic kept as a column and broadcast over the row's entries reads the statistic at the row. -/
theorem column_apply {a b : ℕ} (y : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ y h) h' (ix2 p c) = y (ix1 p) :=
  (broadcastTo_a1_ab_apply _ h' p c).trans (shapeCast_a_a1_apply y h p 0)

/-- The reduced index `r` of an [a, b] → [a] reduction over the columns, with column `k` put back, is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A row's maximum: the fold of `max` from the accumulator's value over the row's entries. -/
theorem rowMax_apply {a b : ℕ} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.maximumf.neutral φ hφ)
    (r : Fin a) :
    multiReduction .maximumf [1] (⟨1, ![a]⟩ : Shape) src acc h hφ hacc (ix1 r)
      = (Finset.univ : Finset (Fin b)).fold max (Ideal.ofBits φ acc) (fun t => src (ix2 r t)) := by
  rw [Ideal.multiReduction_maximumf_single src acc h hφ hacc (ix1 r)]
  have e : (src ∘ h.lift (ix1 r)) = fun t : Fin b => src (ix2 r t) := funext fun k => congrArg src (lift_row h r k)
  rw [e]; rfl

/-- A row's sum: the sum of the row's entries. -/
theorem rowSum_apply {a b : ℕ} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] (⟨1, ![a]⟩ : Shape) src acc h hφ hacc (ix1 r) = ∑ t : Fin b, src (ix2 r t) := by
  rw [Ideal.multiReduction_add_single src acc h hφ hacc (ix1 r)]
  exact Finset.sum_congr rfl fun k _ => congrArg src (lift_row h r k)

end Cert.LibRowOps
-- ==== Proof.RefLN0.lean ====
/-
  The reference's output projection and its row normalisation read at an entry, on the extended reals.
  The projection v·Pᵀ + p at (r, c) is Σ_k v (r, k) · P (c, k) + p (c): the contraction runs over v's columns against
  the rows of Pᵀ. The normalisation of a row y is ((y_c − μ) · rsqrt (σ² + ε)) · γ_c + β_c with μ = (Σ_j y_j) / 4096 and
  σ² = (Σ_j (y_j − μ)²) / (4096 − 0): the divisor of the variance is 4096 minus the integer zero read as a float, which is
  the word 4096 itself, and it is positive, so the guarded select takes the quotient.
-/
import proofs.«170811_j8761733284269_2_alg».proof.Proof.Gen.ReferenceIdeal
import proofs.«170811_j8761733284269_2_alg».proof.Proof.Spec
import proofs.«170811_j8761733284269_2_alg».proof.Proof.LibRowOps
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## Layout steps at an entry -/

/-- A [4096] vector made a [1, 4096] row and repeated down 8192 rows reads, at (r, c), the vector at c. -/
theorem rowVec_apply {α : Type} (p : S4096.Idx → α) (r : Fin 8192) (c : Fin 4096) :
    broadcastInDim S8192x4096 ![0, 1] bcast_S1x4096_S8192x4096_0_1 (broadcastInDim S1x4096 ![1] bcast_S4096_S1x4096_1 p) (ix2 r c)
      = p (ix1 c) :=
  (broadcastInDim_apply _ bcast_S1x4096_S8192x4096_0_1 _ (ix2 r c) (ix2 (0 : Fin 1) c)
      (fun a => by match a with | ⟨0, _⟩ => rfl | ⟨1, _⟩ => rfl)).trans
    (broadcastInDim_apply _ bcast_S4096_S1x4096_1 p (ix2 (0 : Fin 1) c) (ix1 c)
      (fun a => by match a with | ⟨0, _⟩ => rfl))

/-- An [8192, 1] column repeated across 4096 columns reads, at (r, c), the column at r. -/
theorem colBroadcast_apply {α : Type} (v : S8192x1.Idx → α) (r : Fin 8192) (c : Fin 4096) :
    broadcastInDim S8192x4096 ![0, 1] bcast_S8192x1_S8192x4096_0_1 v (ix2 r c) = v (ix2 r (0 : Fin 1)) :=
  broadcastInDim_apply _ bcast_S8192x1_S8192x4096_0_1 v (ix2 r c) (ix2 r (0 : Fin 1))
    (fun a => by match a with | ⟨0, _⟩ => rfl | ⟨1, _⟩ => rfl)

/-- An [8192] vector as an [8192, 1] column reads, at (r, u), the vector at r. -/
theorem asCol_apply {α : Type} (v : S8192.Idx → α) (r : Fin 8192) (u : Fin 1) :
    broadcastInDim S8192x1 ![0] bcast_S8192_S8192x1_0 v (ix2 r u) = v (ix1 r) :=
  broadcastInDim_apply _ bcast_S8192_S8192x1_0 v (ix2 r u) (ix1 r) (fun a => by match a with | ⟨0, _⟩ => rfl)

/-- A scalar splat over an [8192, 1] column reads the scalar. -/
theorem splatCol_apply {α : Type} (s : S_.Idx → α) (r : Fin 8192) (u : Fin 1) :
    broadcastInDim S8192x1 ![] bcast_S_S8192x1 s (ix2 r u) = s ix0 :=
  broadcastInDim_apply _ bcast_S_S8192x1 s (ix2 r u) ix0 (fun a => a.elim0)

/-! ## The row sum -/

/-- The host's sum over the columns from the zero word, at row r: the sum of the row's entries. -/
theorem rowSum_apply (y : FVec Ideal S8192x4096 .f32) (r : Fin 8192) :
    Host.reduceAdd y (constant (F := Ideal) S_ .f32 0x00000000#32) reducesTo_S8192x4096_S8192_d1 h_S_ (ix1 r)
      = ∑ j : Fin 4096, y (ix2 r j) := by
  have hred : S8192x4096.Reduces [1] S8192 := by decide
  unfold Host.reduceAdd
  rw [Ideal.hostReduceAdd_def, Ideal.hostReduceAdd_single reducesTo_S8192x4096_S8192_d1 hred]
  show Ideal.ofBits .f32 0x00000000#32 + _ = _
  rw [Ideal.ofBits_zero_f32, zero_add]
  exact Finset.sum_congr rfl fun k _ => congrArg y (Cert.LibRowOps.lift_row hred r k)

/-! ## The projection -/

/-- A rows-by-columns product [8192, 4096] × [4096, 4096] on the host at (r, c): Σ_k lhs (r, k) · rhs (k, c). -/
theorem dot_apply (l : FVec Ideal S8192x4096 .f32) (rr : FVec Ideal S4096x4096 .f32) (r : Fin 8192) (c : Fin 4096) :
    Host.dotGeneral dot_S8192x4096_S4096x4096_S8192x4096_1_0_0_1_n_n none l rr (ix2 r c)
      = ∑ k : Fin 4096, l (ix2 r k) * rr (ix2 k c) := by
  unfold Host.dotGeneral
  rw [Ideal.dotGeneral_apply,
    ← Equiv.sum_comp (contrEquiv1 dot_S8192x4096_S4096x4096_S8192x4096_1_0_0_1_n_n 4096 rfl rfl).symm]
  refine Finset.sum_congr rfl fun k _ => ?_
  congr 1
  · refine congrArg l (funext fun a => Fin.ext ?_)
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ 4096 rfl rfl k)
  · refine congrArg rr (funext fun a => Fin.ext ?_)
    match a with
    | ⟨0, _⟩ => exact (DotDims.rhsIdx_val_of_single _ rfl _ _).trans (contrEquiv1_symm_val _ 4096 rfl rfl k)
    | ⟨1, _⟩ =>
      unfold DotDims.rhsIdx
      rw [dif_neg, dif_pos]
      case hc => exact List.mem_singleton.mpr (Fin.ext rfl)
      case hnc => exact List.not_mem_nil
      rfl

/-- The transposed weight matrix at (k, c) is the matrix at (c, k). -/
theorem transposeP_apply (P : FVec Ideal S4096x4096 .f32) (k c : Fin 4096) :
    transpose S4096x4096 [1, 0] P transposes_S4096x4096_S4096x4096_1_0 (ix2 k c) = P (ix2 c k) :=
  transpose_apply _ P transposes_S4096x4096_S4096x4096_1_0 (ix2 k c) (ix2 c k)
    (fun b => by match b with | ⟨0, _⟩ => rfl | ⟨1, _⟩ => rfl)

/-- The projection's body at (r, c). -/
theorem projBody_apply (v : FVec Ideal S8192x4096 .f32) (P : FVec Ideal S4096x4096 .f32) (p : FVec Ideal S4096 .f32)
    (r : Fin 8192) (c : Fin 4096) :
    addf (Host.dotGeneral dot_S8192x4096_S4096x4096_S8192x4096_1_0_0_1_n_n none v
        (transpose S4096x4096 [1, 0] P transposes_S4096x4096_S4096x4096_1_0))
      (broadcastInDim S8192x4096 ![0, 1] bcast_S1x4096_S8192x4096_0_1
        (broadcastInDim S1x4096 ![1] bcast_S4096_S1x4096_1 p)) (ix2 r c)
      = (∑ k : Fin 4096, v (ix2 r k) * P (ix2 c k)) + p (ix1 c) := by
  show Host.dotGeneral _ none v _ (ix2 r c) + _ = _
  rw [dot_apply, rowVec_apply]
  exact congrArg (· + p (ix1 c)) (Finset.sum_congr rfl fun k _ => by rw [transposeP_apply])

end Cert.ReferenceIdeal.RefValue

end
-- ==== Proof.RefLN1.lean ====
/-
  The reference's row normalisation, step by step at an entry: the row mean as a column, a row centred at its mean,
  the guarded variance, and the final affine map. The float words 4096 and ε are never evaluated except to see that
  4096 − 0 is 4096 and that it is positive.
-/
import proofs.«170811_j8761733284269_2_alg».proof.Proof.RefLN0

noncomputable section

namespace Cert.ReferenceIdeal.RefValue

open Cert.ReferenceIdeal Cert.ReferenceIdeal.Gen Idealize.ShloMosaic Idealize.ShloMosaic.ValueIdx

/-! Entry-wise operations at an entry. -/
theorem hdivf_at {s : Shape} (a b : FVec Ideal s .f32) (i : s.Idx) : Host.divf a b i = Ideal.div (a i) (b i) := rfl
theorem addf_at {s : Shape} (a b : FVec Ideal s .f32) (i : s.Idx) : addf a b i = a i + b i := rfl
theorem mulf_at {s : Shape} (a b : FVec Ideal s .f32) (i : s.Idx) : mulf a b i = a i * b i := rfl
theorem subf_at {s : Shape} (a b : FVec Ideal s .f32) (i : s.Idx) : subf a b i = a i - b i := rfl
theorem hrsqrt_at {s : Shape} (a : FVec Ideal s .f32) (i : s.Idx) : Host.rsqrt a i = Ideal.rsqrt (a i) := rfl
theorem select_at {s : Shape} (cnd : IVec s 1) (a b : FVec Ideal s .f32) (i : s.Idx) :
    select cnd a b i = Scalar.select (cnd i) (a i) (b i) := rfl

/-- The row means as a column: (0 + Σ_j y (r, j)) / 4096. -/
theorem meanBody_apply (y : FVec Ideal S8192x4096 .f32) (r : Fin 8192) (u : Fin 1) :
    Host.divf
      (broadcastInDim S8192x1 ![0] bcast_S8192_S8192x1_0
        (Host.reduceAdd y (constant (F := Ideal) S_ .f32 0x00000000#32) reducesTo_S8192x4096_S8192_d1 h_S_))
      (broadcastInDim S8192x1 ![] bcast_S_S8192x1 (constant (F := Ideal) S_ .f32 0x45800000#32)) (ix2 r u)
      = Cert.Spec.rowMean (fun j => y (ix2 r j)) := by
  rw [hdivf_at, asCol_apply, splatCol_apply, rowSum_apply]
  rfl

/-- The float word 4096 is the real number 4096. -/
theorem word4096 : Ideal.ofBits .f32 0x45800000#32 = ((4096 : ℝ) : EReal) := by
  simp [Ideal.ofBits, Ideal.ieee, -EReal.coe_mul]; norm_num

/-- The variance's divisor, 4096 minus the integer zero read as a float, is the word 4096. -/
theorem dofBody :
    subf (constant (F := Ideal) S_ .f32 0x45800000#32) (sitofp .f32 (constantI S_ 32 0#32)) ix0
      = Ideal.ofBits .f32 0x45800000#32 := by
  show Ideal.ofBits .f32 0x45800000#32 - (((0#32 : BitVec 32).toInt : ℝ) : EReal) = _
  have h0 : ((0#32 : BitVec 32).toInt : ℝ) = 0 := by norm_num
  rw [h0, EReal.coe_zero, sub_zero]

/-- The guard 4096 − 0 > 0 holds. -/
theorem guardBody :
    cmpf .ogt (subf (constant (F := Ideal) S_ .f32 0x45800000#32) (sitofp .f32 (constantI S_ 32 0#32)))
      (constant (F := Ideal) S_ .f32 0x00000000#32) ix0 = 1#1 := by
  show Ideal.cmp .ogt (subf (constant (F := Ideal) S_ .f32 0x45800000#32) (sitofp .f32 (constantI S_ 32 0#32)) ix0)
      (Ideal.ofBits .f32 0x00000000#32) = 1#1
  rw [dofBody, Ideal.ofBits_zero_f32, word4096]
  have : (0 : EReal) < ((4096 : ℝ) : EReal) := by exact_mod_cast (by norm_num : (0 : ℝ) < 4096)
  simp [Ideal.cmp, this]

/-- The guarded variance as a column, from the centred rows C: (0 + Σ_j C (r, j)²) / 4096. -/
theorem varBody_apply (C : FVec Ideal S8192x4096 .f32) (r : Fin 8192) (u : Fin 1) :
    select
      (broadcastInDim S8192x1 ![] bcast_S_S8192x1
        (cmpf .ogt (subf (constant (F := Ideal) S_ .f32 0x45800000#32) (sitofp .f32 (constantI S_ 32 0#32)))
          (constant (F := Ideal) S_ .f32 0x00000000#32)))
      (Host.divf
        (broadcastInDim S8192x1 ![0] bcast_S8192_S8192x1_0
          (Host.reduceAdd (mulf C C) (constant (F := Ideal) S_ .f32 0x00000000#32) reducesTo_S8192x4096_S8192_d1 h_S_))
        (broadcastInDim S8192x1 ![] bcast_S_S8192x1
          (subf (constant (F := Ideal) S_ .f32 0x45800000#32) (sitofp .f32 (constantI S_ 32 0#32)))))
      (broadcastInDim S8192x1 ![] bcast_S_S8192x1 (constant (F := Ideal) S_ .f32 0x7FC00000#32)) (ix2 r u)
      = Cert.Spec.rowMean (fun j => C (ix2 r j) * C (ix2 r j)) := by
  rw [select_at, splatCol_apply, guardBody, hdivf_at, asCol_apply, splatCol_apply, dofBody, rowSum_apply]
  rfl

/-- The affine tail at an entry, from the centred rows C and the variance column VAR. -/
theorem tailBody_apply (C : FVec Ideal S8192x4096 .f32) (VAR : FVec Ideal S8192x1 .f32) (g be : FVec Ideal S4096 .f32)
    (r : Fin 8192) (c : Fin 4096) :
    addf
      (mulf
        (mulf C
          (broadcastInDim S8192x4096 ![0, 1] bcast_S8192x1_S8192x4096_0_1
            (Host.rsqrt (addf VAR (broadcastInDim S8192x1 ![] bcast_S_S8192x1 (constant (F := Ideal) S_ .f32 0x3727C5AC#32))))))
        (broadcastInDim S8192x4096 ![0, 1] bcast_S1x4096_S8192x4096_0_1
          (broadcastInDim S1x4096 ![1] bcast_S4096_S1x4096_1 g)))
      (broadcastInDim S8192x4096 ![0, 1] bcast_S1x4096_S8192x4096_0_1
        (broadcastInDim S1x4096 ![1] bcast_S4096_S1x4096_1 be)) (ix2 r c)
      = ((C (ix2 r c) * Ideal.rsqrt (VAR (ix2 r (0 : Fin 1)) + Cert.Spec.eps)) * g (ix1 c)) + be (ix1 c) := by
  rw [addf_at, mulf_at, mulf_at, colBroadcast_apply, rowVec_apply, rowVec_apply, hrsqrt_at, addf_at, splatCol_apply]
  rfl

end Cert.ReferenceIdeal.RefValue

end
-- ==== Proof.RefLN.lean ====
/-
  The reference's projection and normalisation stages at an entry, through the named stages of its composed term.
-/
import proofs.«170811_j8761733284269_2_alg».proof.Proof.RefRun
import proofs.«170811_j8761733284269_2_alg».proof.Proof.RefLN1

noncomputable section

namespace Cert.ReferenceIdeal.RefValue

open Cert.ReferenceIdeal Cert.ReferenceIdeal.Gen Idealize.ShloMosaic Idealize.ShloMosaic.ValueIdx

/-- The output projection at (r, c): Σ_k v (r, k) · P (c, k) + p (c). -/
theorem proj_apply (v : FVec Ideal S8192x4096 .f32) (P : FVec Ideal S4096x4096 .f32) (p : FVec Ideal S4096 .f32)
    (r : Fin 8192) (c : Fin 4096) :
    RefRun.proj v P p (ix2 r c) = (∑ k : Fin 4096, v (ix2 r k) * P (ix2 c k)) + p (ix1 c) := by
  unfold RefRun.proj; exact projBody_apply v P p r c

theorem meanCol_apply (y : FVec Ideal S8192x4096 .f32) (r : Fin 8192) (u : Fin 1) :
    RefRun.meanCol y (ix2 r u) = Cert.Spec.rowMean (fun j => y (ix2 r j)) := by
  unfold RefRun.meanCol; exact meanBody_apply y r u

theorem centred_apply (y : FVec Ideal S8192x4096 .f32) (r : Fin 8192) (c : Fin 4096) :
    RefRun.centred y (ix2 r c) = y (ix2 r c) - Cert.Spec.rowMean (fun j => y (ix2 r j)) := by
  unfold RefRun.centred; rw [subf_at, colBroadcast_apply, meanCol_apply]

theorem varCol_apply (y : FVec Ideal S8192x4096 .f32) (r : Fin 8192) (u : Fin 1) :
    RefRun.varCol y (ix2 r u)
      = Cert.Spec.rowMean (fun j => RefRun.centred y (ix2 r j) * RefRun.centred y (ix2 r j)) := by
  unfold RefRun.varCol RefRun.dof; exact varBody_apply (RefRun.centred y) r u

/-- The normalisation at (r, c) is the specification's row normalisation of row r. -/
theorem lnorm_apply (y : FVec Ideal S8192x4096 .f32) (g be : FVec Ideal S4096 .f32) (r : Fin 8192) (c : Fin 4096) :
    RefRun.lnorm y g be (ix2 r c)
      = Cert.Spec.layerNormRow (fun j => y (ix2 r j)) (fun j => g (ix1 j)) (fun j => be (ix1 j)) c := by
  unfold RefRun.lnorm
  rw [tailBody_apply (RefRun.centred y) (RefRun.varCol y) g be r c, varCol_apply, centred_apply]
  unfold Cert.Spec.layerNormRow
  simp only [centred_apply]

end Cert.ReferenceIdeal.RefValue

end
-- ==== Proof.RefSoftmax.lean ====
/-
  The softmax over a single key, on the extended reals: where the score is a real number the probability is 1.

  With one key the maximum over the key axis (from −∞) is the score itself, the centred score is s − s = 0 for a
  real s, its exponential is 1, the sum over the one key (from 0) is 1, and 1 / 1 = 1. Also here: real numbers inside
  the extended reals are closed under sums and products, and the score scale's word denotes a real.
-/
import proofs.«170811_j8761733284269_2_alg».proof.Proof.RefRun
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Gen

/-! ## Real numbers among the extended reals -/

/-- An extended real that is a real number. -/
def IsReal (a : EReal) : Prop := ∃ t : ℝ, a = (t : EReal)

theorem IsReal.mul {a b : EReal} (ha : IsReal a) (hb : IsReal b) : IsReal (a * b) := by
  obtain ⟨s, rfl⟩ := ha; obtain ⟨t, rfl⟩ := hb; exact ⟨s * t, (EReal.coe_mul s t).symm⟩

theorem IsReal.add {a b : EReal} (ha : IsReal a) (hb : IsReal b) : IsReal (a + b) := by
  obtain ⟨s, rfl⟩ := ha; obtain ⟨t, rfl⟩ := hb; exact ⟨s + t, (EReal.coe_add s t).symm⟩

theorem IsReal.sum {n : ℕ} (f : Fin n → EReal) (h : ∀ k, IsReal (f k)) : IsReal (∑ k, f k) :=
  Finset.sum_induction f IsReal (fun _ _ => IsReal.add) ⟨0, EReal.coe_zero.symm⟩ (fun k _ => h k)

/-- The word of −∞. -/
theorem ofBits_ninf : Ideal.ofBits .f32 0xFF800000#32 = ⊥ := by simp [Ideal.ofBits, Ideal.ieee]

/-- The score scale's word denotes a real number. -/
theorem isReal_scale : IsReal (Ideal.ofBits .f32 0x3C800000#32) := by
  refine ⟨1 / 64, ?_⟩
  simp [Ideal.ofBits, Ideal.ieee, -EReal.coe_mul]
  norm_num

/-! ## Folds and sums over an axis of extent one -/

/-- A fold over an index range of extent one is one application. -/
theorem fold_fin_one {α : Type} (op : α → α → α) [Std.Commutative op] [Std.Associative op] {n : ℕ} (hn : n = 1) (b : α)
    (f : Fin n → α) : (Finset.univ : Finset (Fin n)).fold op b f = op (f ⟨0, by omega⟩) b := by
  subst hn
  rw [Finset.univ_unique, Finset.fold_singleton]
  rfl

/-- A sum over an index range of extent one is its one term. -/
theorem sum_fin_one {n : ℕ} (hn : n = 1) (f : Fin n → EReal) : ∑ k, f k = f ⟨0, by omega⟩ := by
  subst hn
  rw [Fin.sum_univ_one]
  rfl

/-! ## The softmax over the single key -/

/-- The key axis has one coordinate: the index it is inserted into. -/
theorem lift_key (h : S8192x8x1x1.Reduces [3] S8192x8x1) (r : Fin 8192) (hd : Fin 8) (k : Fin (S8192x8x1x1.size 3)) :
    h.lift (ix3 r hd (0 : Fin 1)) k = ix4 r hd (0 : Fin 1) (0 : Fin 1) := by
  have hk : k.val < 1 := k.isLt
  funext a; apply Fin.ext
  match a with
  | ⟨0, _⟩ => rfl
  | ⟨1, _⟩ => rfl
  | ⟨2, _⟩ => rfl
  | ⟨3, _⟩ => show k.val = 0; omega

/-- The maximum over the one key, from −∞, is the score. -/
theorem smax_apply (s : FVec Ideal S8192x8x1x1 .f32) (r : Fin 8192) (hd : Fin 8) :
    RefRun.smax s (ix4 r hd (0 : Fin 1) (0 : Fin 1)) = s (ix4 r hd (0 : Fin 1) (0 : Fin 1)) := by
  have hR : S8192x8x1x1.Reduces [3] S8192x8x1 := by decide
  unfold RefRun.smax
  refine (broadcastInDim_apply _ _ _ (ix4 r hd (0 : Fin 1) (0 : Fin 1)) (ix3 r hd (0 : Fin 1)) (fun a => ?_)).trans ?_
  · match a with
    | ⟨0, _⟩ => rfl
    | ⟨1, _⟩ => rfl
    | ⟨2, _⟩ => rfl
  · rw [maximumf_apply, Host.reduce_eq_fold_single FloatOps.maximumf s _ _ hR _, fold_fin_one _ (n := S8192x8x1x1.size 3) rfl]
    show max (Ideal.ofBits .f32 0xFF800000#32)
      (max (s (hR.lift (ix3 r hd (0 : Fin 1)) ⟨0, Nat.one_pos⟩)) (Ideal.ofBits .f32 0xFF800000#32)) = _
    rw [lift_key hR r hd ⟨0, Nat.one_pos⟩, ofBits_ninf]
    simp

/-- The exponential of the centred score is 1 where the score is real. -/
theorem expo_apply (s : FVec Ideal S8192x8x1x1 .f32) (r : Fin 8192) (hd : Fin 8)
    (hs : IsReal (s (ix4 r hd (0 : Fin 1) (0 : Fin 1)))) : RefRun.expo s (ix4 r hd (0 : Fin 1) (0 : Fin 1)) = 1 := by
  obtain ⟨t, ht⟩ := hs
  show Ideal.exp (s (ix4 r hd (0 : Fin 1) (0 : Fin 1)) - RefRun.smax s (ix4 r hd (0 : Fin 1) (0 : Fin 1))) = 1
  rw [smax_apply, ht, ← EReal.coe_sub, sub_self]
  show ((Real.exp 0 : ℝ) : EReal) = 1
  rw [Real.exp_zero, EReal.coe_one]

/-- The quotient of two ones. -/
theorem div_one_one (a b : EReal) (ha : a = 1) (hb : b = 1) : Ideal.div a b = 1 := by
  rw [ha, hb]; simp [Ideal.div]

/-- The softmax over the single key is 1 where the score is real. -/
theorem probs_apply (s : FVec Ideal S8192x8x1x1 .f32) (r : Fin 8192) (hd : Fin 8)
    (hs : IsReal (s (ix4 r hd (0 : Fin 1) (0 : Fin 1)))) : RefRun.probs s (ix4 r hd (0 : Fin 1) (0 : Fin 1)) = 1 := by
  have hR : S8192x8x1x1.Reduces [3] S8192x8x1 := by decide
  have hden : broadcastInDim S8192x8x1x1 ![0, 1, 2] bcast_S8192x8x1_S8192x8x1x1_0_1_2
      (Host.reduceAdd (RefRun.expo s) (constant S_ .f32 0x00000000#32) reducesTo_S8192x8x1x1_S8192x8x1_d3 h_S_)
      (ix4 r hd (0 : Fin 1) (0 : Fin 1)) = 1 := by
    refine (broadcastInDim_apply _ _ _ (ix4 r hd (0 : Fin 1) (0 : Fin 1)) (ix3 r hd (0 : Fin 1)) (fun a => ?_)).trans ?_
    · match a with
      | ⟨0, _⟩ => rfl
      | ⟨1, _⟩ => rfl
      | ⟨2, _⟩ => rfl
    · show Ideal.hostReduceAdd reducesTo_S8192x8x1x1_S8192x8x1_d3 (RefRun.expo s) (Ideal.ofBits .f32 0x00000000#32)
        (ix3 r hd (0 : Fin 1)) = 1
      rw [Ideal.hostReduceAdd_single _ hR, sum_fin_one (n := S8192x8x1x1.size 3) rfl, Ideal.ofBits_zero_f32, zero_add, lift_key hR r hd,
        expo_apply s r hd hs]
  exact div_one_one _ _ (expo_apply s r hd hs) hden

/-- The same, with the score's realness spelt out. -/
theorem probs_one (s : FVec Ideal S8192x8x1x1 .f32) (r : Fin 8192) (h : Fin 8)
    (hs : ∃ t : ℝ, s (ix4 r h (0 : Fin 1) (0 : Fin 1)) = (t : EReal)) :
    RefRun.probs s (ix4 r h (0 : Fin 1) (0 : Fin 1)) = 1 :=
  probs_apply s r h hs

end Cert.ReferenceIdeal.RefValue

end
-- ==== Proof.RefHeads.lean ====
/-
  The reference's attention stages read at an entry, on the extended reals.

  The stacked projection x·Wᵀ + b at (r, n) is Σ_k x (r, k) · W (n, k) + b (n). Its 12288 columns are laid out as
  (part, head, lane) = (3, 8, 512): the split into heads reshapes row r to (1, 3, 8, 512), moves the part axis to the
  front and the unit key axis behind the head axis, and takes part T, so part T at (r, h, 0, d) is the projection at
  (r, T · 4096 + h · 512 + d). The scores contract the 512 lanes of a query row against the key row of the same
  (row, head); applying the probabilities contracts the single key; merging heads puts (r, h, 0, d) at column
  h · 512 + d.
-/
import proofs.«170811_j8761733284269_2_alg».proof.Proof.Gen.ReferenceIdeal
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## A host product with one contracted axis, at an output index -/

/-- The host's product with ONE contracted axis of extent K, at output index j: the sum over k of the left operand at
    `li k` times the right operand at `ri k`, where those are the operand indices the dimension record gives at j and
    contraction coordinate k. Batch axes, if any, only enter through `li` and `ri`. -/
theorem hostDot_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    Host.dotGeneral D prec lhs rhs j = ∑ k : Fin K, lhs (li k) * rhs (ri k) := by
  unfold Host.dotGeneral
  rw [Ideal.dotGeneral_apply, ← Equiv.sum_comp (contrEquiv1 D K hrank hsize).symm]
  exact Finset.sum_congr rfl fun k _ => by rw [hl k, hr k]

/-! ## The stacked projection -/

/-- A [12288] vector made a [1, 12288] row and repeated down 8192 rows reads, at (r, n), the vector at n. -/
theorem qkvBias_apply {α : Type} (b : S12288.Idx → α) (r : Fin 8192) (n : Fin 12288) :
    broadcastInDim S8192x12288 ![0, 1] bcast_S1x12288_S8192x12288_0_1 (broadcastInDim S1x12288 ![1] bcast_S12288_S1x12288_1 b) (ix2 r n)
      = b (ix1 n) :=
  (broadcastInDim_apply _ bcast_S1x12288_S8192x12288_0_1 _ (ix2 r n) (ix2 (0 : Fin 1) n)
      (fun a => by match a with | ⟨0, _⟩ => rfl | ⟨1, _⟩ => rfl)).trans
    (broadcastInDim_apply _ bcast_S12288_S1x12288_1 b (ix2 (0 : Fin 1) n) (ix1 n)
      (fun a => by match a with | ⟨0, _⟩ => rfl))

/-- The transposed stacked weights at (k, n) are the weights at (n, k). -/
theorem transposeW_apply (W : FVec Ideal S12288x4096 .f32) (k : Fin 4096) (n : Fin 12288) :
    transpose S4096x12288 [1, 0] W transposes_S12288x4096_S4096x12288_1_0 (ix2 k n) = W (ix2 n k) :=
  transpose_apply _ W transposes_S12288x4096_S4096x12288_1_0 (ix2 k n) (ix2 n k)
    (fun b => by match b with | ⟨0, _⟩ => rfl | ⟨1, _⟩ => rfl)

/-- A rows-by-columns product [8192, 4096] × [4096, 12288] on the host at (r, n): Σ_k lhs (r, k) · rhs (k, n). -/
theorem qkvDot_apply (l : FVec Ideal S8192x4096 .f32) (rr : FVec Ideal S4096x12288 .f32) (r : Fin 8192) (n : Fin 12288) :
    Host.dotGeneral dot_S8192x4096_S4096x12288_S8192x12288_1_0_0_1_n_n none l rr (ix2 r n)
      = ∑ k : Fin 4096, l (ix2 r k) * rr (ix2 k n) := by
  refine hostDot_sum _ none 4096 rfl rfl l rr (ix2 r n) (fun k => ix2 r k) (fun k => ix2 k n) (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ 4096 rfl rfl k)
  · funext a; apply Fin.ext
    match a with
    | ⟨0, _⟩ => exact (DotDims.rhsIdx_val_of_single _ rfl _ _).trans (contrEquiv1_symm_val _ 4096 rfl rfl k)
    | ⟨1, _⟩ =>
      unfold DotDims.rhsIdx
      rw [dif_neg, dif_pos]
      case hc => exact List.mem_singleton.mpr (Fin.ext rfl)
      case hnc => exact List.not_mem_nil
      rfl

/-- The stacked projection's body at (r, n). -/
theorem qkvBody_apply (x : FVec Ideal S8192x4096 .f32) (W : FVec Ideal S12288x4096 .f32) (b : FVec Ideal S12288 .f32)
    (r : Fin 8192) (n : Fin 12288) :
    addf (Host.dotGeneral dot_S8192x4096_S4096x12288_S8192x12288_1_0_0_1_n_n none x
        (transpose S4096x12288 [1, 0] W transposes_S12288x4096_S4096x12288_1_0))
      (broadcastInDim S8192x12288 ![0, 1] bcast_S1x12288_S8192x12288_0_1
        (broadcastInDim S1x12288 ![1] bcast_S12288_S1x12288_1 b)) (ix2 r n)
      = (∑ k : Fin 4096, x (ix2 r k) * W (ix2 n k)) + b (ix1 n) := by
  show Host.dotGeneral _ none x _ (ix2 r n) + _ = _
  rw [qkvDot_apply, qkvBias_apply]
  exact congrArg (· + b (ix1 n)) (Finset.sum_congr rfl fun k _ => by rw [transposeW_apply])

/-! ## The split into heads -/

/-- The projection reshaped to (row, 1, part, head, lane) and permuted to (part, row, head, key, lane), at
    (T, r, h, 0, d): the projection at (r, n) for the column n = T · 4096 + h · 512 + d. -/
theorem headsBody_at (u : FVec Ideal S8192x12288 .f32) (T : Fin 3) (r : Fin 8192) (h : Fin 8) (d : Fin 512)
    (n : Fin 12288) (hn : n.val = T.val * 4096 + h.val * 512 + d.val) :
    transpose S3x8192x8x1x512 [2, 0, 3, 1, 4]
        (shapeCast S8192x1x3x8x512 u shapeCasts_S8192x12288_S8192x1x3x8x512)
        transposes_S8192x1x3x8x512_S3x8192x8x1x512_2_0_3_1_4 (ix5 T r h (0 : Fin 1) d)
      = u (ix2 r n) :=
  (transpose_apply _ _ transposes_S8192x1x3x8x512_S3x8192x8x1x512_2_0_3_1_4 (ix5 T r h (0 : Fin 1) d)
      (ix5 r (0 : Fin 1) T h d)
      (fun b => by match b with | ⟨0, _⟩ => rfl | ⟨1, _⟩ => rfl | ⟨2, _⟩ => rfl | ⟨3, _⟩ => rfl | ⟨4, _⟩ => rfl)).trans
    (shapeCast_apply u shapeCasts_S8192x12288_S8192x1x3x8x512 (ix5 r (0 : Fin 1) T h d) (ix2 r n) (by
      rw [Shape.rowMajor_val_two, Shape.rowMajor_val_five]
      show r.val * 12288 + n.val = (((r.val * 1 + 0) * 3 + T.val) * 8 + h.val) * 512 + d.val
      rw [hn]; omega))

/-- Part T of the split, at (r, h, 0, d): the split at (T, r, h, 0, d). -/
theorem partSlice_apply (H : FVec Ideal S3x8192x8x1x512 .f32) (T : Fin 3) (off : Fin 5 → Nat) (hoff : off = ![T.val, 0, 0, 0, 0])
    (hs : S3x8192x8x1x512.Slices off S1x8192x8x1x512) (r : Fin 8192) (h : Fin 8) (d : Fin 512) :
    shapeCast S8192x8x1x512 (extractStridedSlice S1x8192x8x1x512 off H hs) shapeCasts_S1x8192x8x1x512_S8192x8x1x512
        (ix4 r h (0 : Fin 1) d)
      = H (ix5 T r h (0 : Fin 1) d) := by
  subst hoff
  refine (shapeCast_apply _ shapeCasts_S1x8192x8x1x512_S8192x8x1x512 (ix4 r h (0 : Fin 1) d)
    (ix5 (0 : Fin 1) r h (0 : Fin 1) d) (by
      rw [Shape.rowMajor_val_five, Shape.rowMajor_val_four]
      show (((0 * 8192 + r.val) * 8 + h.val) * 1 + 0) * 512 + d.val = ((r.val * 8 + h.val) * 1 + 0) * 512 + d.val
      omega)).trans ?_
  refine extractStridedSlice_apply _ H hs (ix5 (0 : Fin 1) r h (0 : Fin 1) d) (ix5 T r h (0 : Fin 1) d) fun a => ?_
  match a with
  | ⟨0, _⟩ => show T.val = T.val + 0; omega
  | ⟨1, _⟩ => show r.val = 0 + r.val; omega
  | ⟨2, _⟩ => show h.val = 0 + h.val; omega
  | ⟨3, _⟩ => show 0 = 0 + 0; rfl
  | ⟨4, _⟩ => show d.val = 0 + d.val; omega

/-- The query part at (r, h, 0, d): the projection at column n = h · 512 + d. -/
theorem part0Body_at (u : FVec Ideal S8192x12288 .f32) (r : Fin 8192) (h : Fin 8) (d : Fin 512)
    (n : Fin 12288) (hn : n.val = 0 * 4096 + h.val * 512 + d.val) :
    shapeCast S8192x8x1x512
        (extractStridedSlice S1x8192x8x1x512 ![0, 0, 0, 0, 0]
          (transpose S3x8192x8x1x512 [2, 0, 3, 1, 4]
            (shapeCast S8192x1x3x8x512 u shapeCasts_S8192x12288_S8192x1x3x8x512)
            transposes_S8192x1x3x8x512_S3x8192x8x1x512_2_0_3_1_4)
          slices_S3x8192x8x1x512_S1x8192x8x1x512_0_0_0_0_0)
        shapeCasts_S1x8192x8x1x512_S8192x8x1x512 (ix4 r h (0 : Fin 1) d)
      = u (ix2 r n) :=
  (partSlice_apply _ (0 : Fin 3) _ rfl slices_S3x8192x8x1x512_S1x8192x8x1x512_0_0_0_0_0 r h d).trans
    (headsBody_at u (0 : Fin 3) r h d n hn)

/-- The key part at (r, h, 0, d): the projection at column n = 4096 + h · 512 + d. -/
theorem part1Body_at (u : FVec Ideal S8192x12288 .f32) (r : Fin 8192) (h : Fin 8) (d : Fin 512)
    (n : Fin 12288) (hn : n.val = 1 * 4096 + h.val * 512 + d.val) :
    shapeCast S8192x8x1x512
        (extractStridedSlice S1x8192x8x1x512 ![1, 0, 0, 0, 0]
          (transpose S3x8192x8x1x512 [2, 0, 3, 1, 4]
            (shapeCast S8192x1x3x8x512 u shapeCasts_S8192x12288_S8192x1x3x8x512)
            transposes_S8192x1x3x8x512_S3x8192x8x1x512_2_0_3_1_4)
          slices_S3x8192x8x1x512_S1x8192x8x1x512_1_0_0_0_0)
        shapeCasts_S1x8192x8x1x512_S8192x8x1x512 (ix4 r h (0 : Fin 1) d)
      = u (ix2 r n) :=
  (partSlice_apply _ (1 : Fin 3) _ rfl slices_S3x8192x8x1x512_S1x8192x8x1x512_1_0_0_0_0 r h d).trans
    (headsBody_at u (1 : Fin 3) r h d n hn)

/-- The value part at (r, h, 0, d): the projection at column n = 8192 + h · 512 + d. -/
theorem part2Body_at (u : FVec Ideal S8192x12288 .f32) (r : Fin 8192) (h : Fin 8) (d : Fin 512)
    (n : Fin 12288) (hn : n.val = 2 * 4096 + h.val * 512 + d.val) :
    shapeCast S8192x8x1x512
        (extractStridedSlice S1x8192x8x1x512 ![2, 0, 0, 0, 0]
          (transpose S3x8192x8x1x512 [2, 0, 3, 1, 4]
            (shapeCast S8192x1x3x8x512 u shapeCasts_S8192x12288_S8192x1x3x8x512)
            transposes_S8192x1x3x8x512_S3x8192x8x1x512_2_0_3_1_4)
          slices_S3x8192x8x1x512_S1x8192x8x1x512_2_0_0_0_0)
        shapeCasts_S1x8192x8x1x512_S8192x8x1x512 (ix4 r h (0 : Fin 1) d)
      = u (ix2 r n) :=
  (partSlice_apply _ (2 : Fin 3) _ rfl slices_S3x8192x8x1x512_S1x8192x8x1x512_2_0_0_0_0 r h d).trans
    (headsBody_at u (2 : Fin 3) r h d n hn)

/-- Column T · 4096 + h · 512 + d lies below 12288. -/
theorem col_lt (T : Nat) (hT : T < 3) (h : Fin 8) (d : Fin 512) : T * 4096 + h.val * 512 + d.val < 12288 := by
  have := h.isLt; have := d.isLt; omega

theorem part0Body_apply (u : FVec Ideal S8192x12288 .f32) (r : Fin 8192) (h : Fin 8) (d : Fin 512) :
    shapeCast S8192x8x1x512
        (extractStridedSlice S1x8192x8x1x512 ![0, 0, 0, 0, 0]
          (transpose S3x8192x8x1x512 [2, 0, 3, 1, 4]
            (shapeCast S8192x1x3x8x512 u shapeCasts_S8192x12288_S8192x1x3x8x512)
            transposes_S8192x1x3x8x512_S3x8192x8x1x512_2_0_3_1_4)
          slices_S3x8192x8x1x512_S1x8192x8x1x512_0_0_0_0_0)
        shapeCasts_S1x8192x8x1x512_S8192x8x1x512 (ix4 r h (0 : Fin 1) d)
      = u (ix2 r ⟨0 * 4096 + h.val * 512 + d.val, col_lt 0 (by omega) h d⟩) :=
  part0Body_at u r h d _ rfl

theorem part1Body_apply (u : FVec Ideal S8192x12288 .f32) (r : Fin 8192) (h : Fin 8) (d : Fin 512) :
    shapeCast S8192x8x1x512
        (extractStridedSlice S1x8192x8x1x512 ![1, 0, 0, 0, 0]
          (transpose S3x8192x8x1x512 [2, 0, 3, 1, 4]
            (shapeCast S8192x1x3x8x512 u shapeCasts_S8192x12288_S8192x1x3x8x512)
            transposes_S8192x1x3x8x512_S3x8192x8x1x512_2_0_3_1_4)
          slices_S3x8192x8x1x512_S1x8192x8x1x512_1_0_0_0_0)
        shapeCasts_S1x8192x8x1x512_S8192x8x1x512 (ix4 r h (0 : Fin 1) d)
      = u (ix2 r ⟨1 * 4096 + h.val * 512 + d.val, col_lt 1 (by omega) h d⟩) :=
  part1Body_at u r h d _ rfl

theorem part2Body_apply (u : FVec Ideal S8192x12288 .f32) (r : Fin 8192) (h : Fin 8) (d : Fin 512) :
    shapeCast S8192x8x1x512
        (extractStridedSlice S1x8192x8x1x512 ![2, 0, 0, 0, 0]
          (transpose S3x8192x8x1x512 [2, 0, 3, 1, 4]
            (shapeCast S8192x1x3x8x512 u shapeCasts_S8192x12288_S8192x1x3x8x512)
            transposes_S8192x1x3x8x512_S3x8192x8x1x512_2_0_3_1_4)
          slices_S3x8192x8x1x512_S1x8192x8x1x512_2_0_0_0_0)
        shapeCasts_S1x8192x8x1x512_S8192x8x1x512 (ix4 r h (0 : Fin 1) d)
      = u (ix2 r ⟨2 * 4096 + h.val * 512 + d.val, col_lt 2 (by omega) h d⟩) :=
  part2Body_at u r h d _ rfl

/-! ## Scores, attention, merge -/

/-- The scores' product at (r, h, 0, 0): the query row against the key row of the same row and head, over the lanes. -/
theorem scoresDot_apply (q k : FVec Ideal S8192x8x1x512 .f32) (r : Fin 8192) (h : Fin 8) :
    Host.dotGeneral dot_S8192x8x1x512_S8192x8x1x512_S8192x8x1x1_3_3_2_2_01_01 none q k (ix4 r h (0 : Fin 1) (0 : Fin 1))
      = ∑ j : Fin 512, q (ix4 r h (0 : Fin 1) j) * k (ix4 r h (0 : Fin 1) j) := by
  refine hostDot_sum _ none 512 rfl rfl q k (ix4 r h (0 : Fin 1) (0 : Fin 1))
    (fun j => ix4 r h (0 : Fin 1) j) (fun j => ix4 r h (0 : Fin 1) j) (fun j => ?_) (fun j => ?_)
  · funext a; apply Fin.ext
    match a with
    | ⟨0, _⟩ =>
      unfold DotDims.lhsIdx
      rw [dif_pos]
      case hc => exact List.mem_cons_self
      rfl
    | ⟨1, _⟩ =>
      unfold DotDims.lhsIdx
      rw [dif_pos]
      case hc => exact List.mem_cons_of_mem _ (List.mem_singleton.mpr (Fin.ext rfl))
      rfl
    | ⟨2, _⟩ =>
      unfold DotDims.lhsIdx
      rw [dif_neg, dif_pos]
      case hc => exact List.mem_singleton.mpr (Fin.ext rfl)
      case hnc => decide +revert
      rfl
    | ⟨3, _⟩ => exact (DotDims.lhsIdx_val_of_single _ rfl _ _).trans (contrEquiv1_symm_val _ 512 rfl rfl j)
  · funext a; apply Fin.ext
    match a with
    | ⟨0, _⟩ =>
      unfold DotDims.rhsIdx
      rw [dif_pos]
      case hc => exact List.mem_cons_self
      rfl
    | ⟨1, _⟩ =>
      unfold DotDims.rhsIdx
      rw [dif_pos]
      case hc => exact List.mem_cons_of_mem _ (List.mem_singleton.mpr (Fin.ext rfl))
      rfl
    | ⟨2, _⟩ =>
      unfold DotDims.rhsIdx
      rw [dif_neg, dif_pos]
      case hc => exact List.mem_singleton.mpr (Fin.ext rfl)
      case hnc => decide +revert
      rfl
    | ⟨3, _⟩ => exact (DotDims.rhsIdx_val_of_single _ rfl _ _).trans (contrEquiv1_symm_val _ 512 rfl rfl j)

/-- The probabilities applied to the values at (r, h, 0, d): the sum over the single key. -/
theorem attendBody_apply (pr : FVec Ideal S8192x8x1x1 .f32) (v : FVec Ideal S8192x8x1x512 .f32)
    (r : Fin 8192) (h : Fin 8) (d : Fin 512) :
    Host.dotGeneral dot_S8192x8x1x1_S8192x8x1x512_S8192x8x1x512_3_2_2_3_01_01 none pr v (ix4 r h (0 : Fin 1) d)
      = ∑ k : Fin 1, pr (ix4 r h (0 : Fin 1) k) * v (ix4 r h k d) := by
  refine hostDot_sum _ none 1 rfl rfl pr v (ix4 r h (0 : Fin 1) d)
    (fun k => ix4 r h (0 : Fin 1) k) (fun k => ix4 r h k d) (fun k => ?_) (fun k => ?_)
  · funext a; apply Fin.ext
    match a with
    | ⟨0, _⟩ =>
      unfold DotDims.lhsIdx
      rw [dif_pos]
      case hc => exact List.mem_cons_self
      rfl
    | ⟨1, _⟩ =>
      unfold DotDims.lhsIdx
      rw [dif_pos]
      case hc => exact List.mem_cons_of_mem _ (List.mem_singleton.mpr (Fin.ext rfl))
      rfl
    | ⟨2, _⟩ =>
      unfold DotDims.lhsIdx
      rw [dif_neg, dif_pos]
      case hc => exact List.mem_singleton.mpr (Fin.ext rfl)
      case hnc => decide +revert
      rfl
    | ⟨3, _⟩ => exact (DotDims.lhsIdx_val_of_single _ rfl _ _).trans (contrEquiv1_symm_val _ 1 rfl rfl k)
  · funext a; apply Fin.ext
    match a with
    | ⟨0, _⟩ =>
      unfold DotDims.rhsIdx
      rw [dif_pos]
      case hc => exact List.mem_cons_self
      rfl
    | ⟨1, _⟩ =>
      unfold DotDims.rhsIdx
      rw [dif_pos]
      case hc => exact List.mem_cons_of_mem _ (List.mem_singleton.mpr (Fin.ext rfl))
      rfl
    | ⟨2, _⟩ => exact (DotDims.rhsIdx_val_of_single _ rfl _ _).trans (contrEquiv1_symm_val _ 1 rfl rfl k)
    | ⟨3, _⟩ =>
      unfold DotDims.rhsIdx
      rw [dif_neg, dif_pos]
      case hc => exact List.mem_singleton.mpr (Fin.ext rfl)
      case hnc => decide +revert
      rfl

/-- Heads merged back into columns, at (r, c) for the column c = h · 512 + d: the head's entry (r, h, 0, d). -/
theorem mergeBody_at (a : FVec Ideal S8192x8x1x512 .f32) (r : Fin 8192) (h : Fin 8) (d : Fin 512)
    (c : Fin 4096) (hc : c.val = h.val * 512 + d.val) :
    shapeCast S8192x4096
        (transpose S8192x1x8x512 [0, 2, 1, 3] a transposes_S8192x8x1x512_S8192x1x8x512_0_2_1_3)
        shapeCasts_S8192x1x8x512_S8192x4096 (ix2 r c)
      = a (ix4 r h (0 : Fin 1) d) :=
  (shapeCast_apply _ shapeCasts_S8192x1x8x512_S8192x4096 (ix2 r c) (ix4 r (0 : Fin 1) h d) (by
      rw [Shape.rowMajor_val_four, Shape.rowMajor_val_two]
      show ((r.val * 1 + 0) * 8 + h.val) * 512 + d.val = r.val * 4096 + c.val
      rw [hc]; omega)).trans
    (transpose_apply _ a transposes_S8192x8x1x512_S8192x1x8x512_0_2_1_3 (ix4 r (0 : Fin 1) h d) (ix4 r h (0 : Fin 1) d)
      (fun b => by match b with | ⟨0, _⟩ => rfl | ⟨1, _⟩ => rfl | ⟨2, _⟩ => rfl | ⟨3, _⟩ => rfl))

/-- Column h · 512 + d lies below 4096. -/
theorem mcol_lt (h : Fin 8) (d : Fin 512) : h.val * 512 + d.val < 4096 := by
  have := h.isLt; have := d.isLt; omega

theorem mergeBody_apply (a : FVec Ideal S8192x8x1x512 .f32) (r : Fin 8192) (h : Fin 8) (d : Fin 512) :
    shapeCast S8192x4096
        (transpose S8192x1x8x512 [0, 2, 1, 3] a transposes_S8192x8x1x512_S8192x1x8x512_0_2_1_3)
        shapeCasts_S8192x1x8x512_S8192x4096 (ix2 r ⟨h.val * 512 + d.val, mcol_lt h d⟩)
      = a (ix4 r h (0 : Fin 1) d) :=
  mergeBody_at a r h d _ rfl

end Cert.ReferenceIdeal.RefValue

end
-- ==== Proof.RefAttn.lean ====
/-
  The reference's attention output is the value projection.

  At row r and column c = h · 512 + d the merged heads read the attended value of head h at lane d; applying the
  probabilities sums over the single key, whose probability is 1 because the score — a finite sum of products of real
  entries of the stacked projection, times the real scale — is a real number; so the attended value is the value part
  at (r, h, 0, d), which is the stacked projection at column 8192 + c: Σ_k x (r, k) · W (8192 + c, k) + b (8192 + c).
-/
import proofs.«170811_j8761733284269_2_alg».proof.Proof.RefRun
import proofs.«170811_j8761733284269_2_alg».proof.Proof.RefSoftmax
import proofs.«170811_j8761733284269_2_alg».proof.Proof.RefHeads
import proofs.«170811_j8761733284269_2_alg».proof.Proof.Spec

noncomputable section

namespace Cert.ReferenceIdeal.RefValue

open Cert.ReferenceIdeal Cert.ReferenceIdeal.Gen Idealize.ShloMosaic Idealize.ShloMosaic.ValueIdx

/-- The stacked projection at (r, n). -/
theorem qkv_apply (x : FVec Ideal S8192x4096 .f32) (W : FVec Ideal S12288x4096 .f32) (b : FVec Ideal S12288 .f32)
    (r : Fin 8192) (n : Fin 12288) :
    RefRun.qkv x W b (ix2 r n) = (∑ k : Fin 4096, x (ix2 r k) * W (ix2 n k)) + b (ix1 n) :=
  qkvBody_apply x W b r n

/-- With real inputs every entry of the stacked projection is real. -/
theorem qkv_isReal (x : FVec Ideal S8192x4096 .f32) (W : FVec Ideal S12288x4096 .f32) (b : FVec Ideal S12288 .f32)
    (hx : ∀ i, ∃ r : ℝ, x i = (r : EReal)) (hW : ∀ i, ∃ r : ℝ, W i = (r : EReal)) (hb : ∀ i, ∃ r : ℝ, b i = (r : EReal))
    (r : Fin 8192) (n : Fin 12288) : IsReal (RefRun.qkv x W b (ix2 r n)) := by
  rw [qkv_apply]
  exact IsReal.add (IsReal.sum _ fun k => IsReal.mul (hx _) (hW _)) (hb _)

/-- The score of real query and key rows is real. -/
theorem scores_isReal (q k : FVec Ideal S8192x8x1x512 .f32) (r : Fin 8192) (h : Fin 8)
    (hq : ∀ j : Fin 512, IsReal (q (ix4 r h (0 : Fin 1) j))) (hk : ∀ j : Fin 512, IsReal (k (ix4 r h (0 : Fin 1) j))) :
    IsReal (RefRun.scores q k (ix4 r h (0 : Fin 1) (0 : Fin 1))) := by
  show IsReal (Host.dotGeneral dot_S8192x8x1x512_S8192x8x1x512_S8192x8x1x1_3_3_2_2_01_01 none q k
    (ix4 r h (0 : Fin 1) (0 : Fin 1)) * Ideal.ofBits .f32 0x3C800000#32)
  rw [scoresDot_apply]
  exact IsReal.mul (IsReal.sum _ fun j => IsReal.mul (hq j) (hk j)) isReal_scale

/-- From a stacked projection with real entries: the attention output at (r, c), c = h · 512 + d, is the projection
    at the value part's column n = 8192 + h · 512 + d. -/
theorem attn_core (U : FVec Ideal S8192x12288 .f32) (hU : ∀ (r : Fin 8192) (n : Fin 12288), IsReal (U (ix2 r n)))
    (r : Fin 8192) (h : Fin 8) (d : Fin 512) (c : Fin 4096) (hc : c.val = h.val * 512 + d.val)
    (n : Fin 12288) (hn : n.val = 2 * 4096 + h.val * 512 + d.val) :
    RefRun.attnOf (RefRun.heads U) (ix2 r c) = U (ix2 r n) := by
  have hS : IsReal (RefRun.scores (RefRun.part0 (RefRun.heads U)) (RefRun.part1 (RefRun.heads U))
      (ix4 r h (0 : Fin 1) (0 : Fin 1))) :=
    scores_isReal _ _ r h
      (fun j => by
        have e : RefRun.part0 (RefRun.heads U) (ix4 r h (0 : Fin 1) j)
            = U (ix2 r ⟨0 * 4096 + h.val * 512 + j.val, col_lt 0 (by omega) h j⟩) := part0Body_apply U r h j
        rw [e]; exact hU _ _)
      (fun j => by
        have e : RefRun.part1 (RefRun.heads U) (ix4 r h (0 : Fin 1) j)
            = U (ix2 r ⟨1 * 4096 + h.val * 512 + j.val, col_lt 1 (by omega) h j⟩) := part1Body_apply U r h j
        rw [e]; exact hU _ _)
  refine (mergeBody_at (RefRun.attend
      (RefRun.probs (RefRun.scores (RefRun.part0 (RefRun.heads U)) (RefRun.part1 (RefRun.heads U))))
      (RefRun.part2 (RefRun.heads U))) r h d c hc).trans ?_
  refine (attendBody_apply _ _ r h d).trans ?_
  rw [Fin.sum_univ_one, probs_apply _ r h hS, one_mul]
  exact part2Body_at U r h d n hn

/-- The attention output is the value projection. -/
theorem attn_apply (x : FVec Ideal S8192x4096 .f32) (W : FVec Ideal S12288x4096 .f32) (b : FVec Ideal S12288 .f32)
    (hx : ∀ i, ∃ r : ℝ, x i = (r : EReal)) (hW : ∀ i, ∃ r : ℝ, W i = (r : EReal)) (hb : ∀ i, ∃ r : ℝ, b i = (r : EReal))
    (r : Fin 8192) (c : Fin 4096) :
    RefRun.attnOf (RefRun.heads (RefRun.qkv x W b)) (ix2 r c) = Cert.Spec.vproj x W b r c := by
  have hc := c.isLt
  have e := attn_core (RefRun.qkv x W b) (qkv_isReal x W b hx hW hb) r ⟨c.val / 512, by omega⟩
    ⟨c.val % 512, Nat.mod_lt _ (by norm_num)⟩ c
    (by show c.val = c.val / 512 * 512 + c.val % 512; omega) (Cert.Spec.vrow c)
    (by show 8192 + c.val = 2 * 4096 + c.val / 512 * 512 + c.val % 512; omega)
  exact e.trans (qkv_apply x W b r (Cert.Spec.vrow c))

end Cert.ReferenceIdeal.RefValue

end
-- ==== Proof.RefValue.lean ====
/-
  The reference's result is the specification: the normalisation stage is the specification's row normalisation of
  the projected rows, the projection's left factor is the attention output, and the attention output is the value
  projection because every softmax weight is 1.
-/
import proofs.«170811_j8761733284269_2_alg».proof.Proof.RefRun
import proofs.«170811_j8761733284269_2_alg».proof.Proof.RefLN
import proofs.«170811_j8761733284269_2_alg».proof.Proof.RefAttn
import proofs.«170811_j8761733284269_2_alg».proof.Proof.Spec

noncomputable section

namespace Cert.ReferenceIdeal.RefValue

open Cert.ReferenceIdeal Cert.ReferenceIdeal.Gen Idealize.ShloMosaic Idealize.ShloMosaic.ValueIdx

theorem refTerm_eq_spec (x : FVec Ideal S8192x4096 .f32) (W : FVec Ideal S12288x4096 .f32) (b : FVec Ideal S12288 .f32)
    (P : FVec Ideal S4096x4096 .f32) (p g be : FVec Ideal S4096 .f32)
    (hx : ∀ i, ∃ r : ℝ, x i = (r : EReal)) (hW : ∀ i, ∃ r : ℝ, W i = (r : EReal)) (hb : ∀ i, ∃ r : ℝ, b i = (r : EReal)) :
    RefRun.refTerm (F := Ideal) x W b P p g be = Cert.Spec.out x W b P p g be := by
  funext i
  obtain ⟨r, c, rfl⟩ : ∃ (r : Fin 8192) (c : Fin 4096), i = ix2 r c := ⟨i 0, i 1, eq_ix2 i⟩
  unfold RefRun.refTerm
  rw [lnorm_apply]
  show _ = Cert.Spec.outAt x W b P p g be r c
  unfold Cert.Spec.outAt
  refine congrArg (fun f => Cert.Spec.layerNormRow f (fun j => g (ix1 j)) (fun j => be (ix1 j)) c) (funext fun j => ?_)
  rw [proj_apply]
  unfold Cert.Spec.yOf
  exact congrArg (· + p (ix1 j)) (Finset.sum_congr rfl fun k _ => by rw [attn_apply x W b hx hW hb r k])

end Cert.ReferenceIdeal.RefValue

end
-- ==== Proof.Finite.lean ====
/-
  From the precondition to what the proof uses of it. The precondition is a conjunction of seven statements "every
  entry of this array has magnitude strictly below +∞". On the extended reals the magnitude of x is max x (−x), which is
  +∞ at both infinities, so an entry passing the test is a real number. Only the first three arrays' finiteness is
  needed: the activations and the stacked projection's weights and bias, whose products make the attention logits.
-/
import proofs.«170811_j8761733284269_2_alg».proof.Pre_finite_inputs
import proofs.«170811_j8761733284269_2_alg».proof.Proof.Gen.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Proof.Finite

open Idealize.ShloMosaic Cert.Pre_finite_inputs

instance : Subsingleton S_.Idx := ⟨fun a b => funext fun d => d.elim0⟩

/-- An extended real whose magnitude is strictly below +∞ is a real number. -/
theorem real_of_lt_top (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => exfalso; simp [Ideal.cmp] at h
  | top => exfalso; simp [Ideal.cmp] at h
  | coe r => exact ⟨r, rfl⟩

/-- The test the precondition applies to one array, read at an entry. -/
theorem real_of_test {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) :
    ∃ r : ℝ, x i = (r : EReal) :=
  real_of_lt_top (x i) h

theorem finite_of_pre (x : FVec Ideal S8192x4096 .f32) (W : FVec Ideal S12288x4096 .f32) (b : FVec Ideal S12288 .f32)
    (P : FVec Ideal S4096x4096 .f32) (p g be : FVec Ideal S4096 .f32)
    (h : fn (F := Ideal) x W b P p g be = fun _ => 1#1) :
    (∀ i, ∃ r : ℝ, x i = (r : EReal)) ∧ (∀ i, ∃ r : ℝ, W i = (r : EReal)) ∧ (∀ i, ∃ r : ℝ, b i = (r : EReal)) := by
  have h0 := congrFun h ValueIdx.ix0
  dsimp only [fn, fn_part1] at h0
  obtain ⟨h28, -⟩ := IntOp.andi_eq_one.mp h0
  obtain ⟨h23, -⟩ := IntOp.andi_eq_one.mp h28
  obtain ⟨h18, -⟩ := IntOp.andi_eq_one.mp h23
  obtain ⟨h13, -⟩ := IntOp.andi_eq_one.mp h18
  obtain ⟨h8, h12⟩ := IntOp.andi_eq_one.mp h13
  obtain ⟨h3, h7⟩ := IntOp.andi_eq_one.mp h8
  exact ⟨fun i => real_of_test x _ i (Host.reduce_andi_all _ _ _ _ _ h3 i),
    fun i => real_of_test W _ i (Host.reduce_andi_all _ _ _ _ _ h7 i),
    fun i => real_of_test b _ i (Host.reduce_andi_all _ _ _ _ _ h12 i)⟩

end Cert.Proof.Finite

end
-- ==== Proof.lean ====
/-
  The kernel against its reference, on the extended reals.

  The kernel computes, in two accumulating matrix products, V = x · Wvᵀ + bv — Wv and bv the last third of the stacked
  projection's rows — and Y = V · Pᵀ + p, and normalises every row of Y: ((y − μ) · rsqrt (σ² + ε)) · γ + β with μ the
  row's mean and σ² the mean of the squared deviations. Each product is accumulated over sixteen column blocks of the
  contraction axis in a scratch buffer; the output tile of a row tile is written at its last column block.

  The reference computes the whole stacked projection, splits it into queries, keys and values over eight heads with
  a sequence of length one, takes the softmax of each head's single logit — which is 1 whenever the logit is a real
  number, since then the logit minus itself is 0 and exp 0 / exp 0 = 1 — and so attends to exactly the value vector;
  merging the heads gives V, and the projection and normalisation are the kernel's.

  So both results are one function of the seven arrays (`Cert.Spec.out`). Finiteness of the inputs is used once: the
  logits are sums of products of reals, hence reals. Sums over the contraction axis are regrouped block by block,
  which the extended reals allow without any finiteness (addition is commutative and associative there).

  Each frame conjunct is the program's run with the statement about the result dropped; the idealisation rewrote
  nothing, so the third conjunct is trivial.
-/
import proofs.«170811_j8761733284269_2_alg».proof.Defs
import proofs.«170811_j8761733284269_2_alg».proof.Proof.Gen.Kernel
import proofs.«170811_j8761733284269_2_alg».proof.Proof.Gen.KernelIdeal
import proofs.«170811_j8761733284269_2_alg».proof.Proof.Gen.ReferenceIdeal
import proofs.«170811_j8761733284269_2_alg».proof.Proof.Gen.Pre_finite_inputs
import proofs.«170811_j8761733284269_2_alg».proof.Proof.K.Main
import proofs.«170811_j8761733284269_2_alg».proof.Proof.KI.Main
import proofs.«170811_j8761733284269_2_alg».proof.Proof.KI.ValMain
import proofs.«170811_j8761733284269_2_alg».proof.Proof.RefRun
import proofs.«170811_j8761733284269_2_alg».proof.Proof.RefValue
import proofs.«170811_j8761733284269_2_alg».proof.Proof.Finite
import Idealize.ShloMosaic.Adequacy
import Idealize.ShloMosaic.Init

noncomputable section

namespace Cert.Proof

open Idealize.ShloMosaic Idealize.SL.Sem

/-- The word-level kernel runs to its end, faults nowhere and leaves its arguments as launched. -/
theorem frame_k : Cert.frame_Kernel := fun m ρ _ =>
  (θ_run (Cert.Kernel.defs (F := Bits)) _ _).mono (fun _ h c => (h c).2) (Cert.Kernel.Gen.run_main (F := Bits) m ρ)

/-- So does the idealised kernel. -/
theorem frame_ki : Cert.frame_KernelIdeal := fun m ρ _ =>
  (θ_run (Cert.KernelIdeal.defs (F := Ideal)) _ _).mono (fun _ h c => (h c).2) (Cert.KernelIdeal.Gen.run_main (F := Ideal) m ρ)

/-- So does the reference. -/
theorem frame_ri : Cert.frame_ReferenceIdeal := fun m ρ _ =>
  (θ_run (Cert.ReferenceIdeal.defs (F := Ideal)) _ _).mono (fun _ h c => (h c).2) (Cert.ReferenceIdeal.RefRun.run (F := Ideal) m ρ)

/-- The idealisation rewrote no operation. -/
theorem preserves : Cert.preserves_Kernel_KernelIdeal := trivial

/-- From memories agreeing on the arguments both programs end with the same result array: `Cert.Spec.out` of the
    arguments — the kernel by its accumulated blocks, the reference because a softmax over one real logit is 1. -/
theorem algebraic : Cert.algebraic_KernelIdeal_ReferenceIdeal := by
  intro m ρ m' ρ' hpre hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run (Cert.KernelIdeal.defs (F := Ideal)) _ _).mono
      (fun _ h c => ⟨(h c).1.trans (Cert.KernelIdeal.Val.kernel_value m c), (h c).2⟩)
      (Cert.KernelIdeal.Gen.run_main (F := Ideal) m ρ)
  · refine (θ_run (Cert.ReferenceIdeal.defs (F := Ideal)) _ _).mono (fun _ h c => ⟨(h c).1.trans ?_, (h c).2⟩)
      (Cert.ReferenceIdeal.RefRun.run (F := Ideal) m' ρ')
    obtain ⟨hx, hW, hb⟩ := Cert.Proof.Finite.finite_of_pre _ _ _ _ _ _ _ (hpre c)
    rw [(hagree c).1, (hagree c).2.1, (hagree c).2.2.1, (hagree c).2.2.2.1, (hagree c).2.2.2.2.1, (hagree c).2.2.2.2.2.1,
      (hagree c).2.2.2.2.2.2]
    exact Cert.ReferenceIdeal.RefValue.refTerm_eq_spec _ _ _ _ _ _ _ hx hW hb

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
